-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 999999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : IVec S16384 32) (main_arg1 : IVec S16384 32) (main_arg2 : FVec F S1000000x64 .f32) (main_arg3 : FVec F S1000000x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16384 : Shape := ⟨1, ![16384]⟩
abbrev S1000000x64 : Shape := ⟨2, ![1000000, 64]⟩
abbrev S1000000x128 : Shape := ⟨2, ![1000000, 128]⟩
abbrev S4x128 : Shape := ⟨2, ![4, 128]⟩
abbrev S128x128 : Shape := ⟨2, ![128, 128]⟩
abbrev S512 : Shape := ⟨1, ![512]⟩
abbrev S_ : Shape := ⟨0, ![]⟩
abbrev S1x128 : Shape := ⟨2, ![1, 128]⟩
abbrev S128 : Shape := ⟨1, ![128]⟩
abbrev S16 : Shape := ⟨1, ![16]⟩

abbrev nBuf : Table → Nat
  | .hbm => 6
  | .local .scVector .vmem => 5
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S1000000x128, .f32⟩
  | .hbm, ⟨5, _⟩ => ⟨S16384, .f32⟩
  | .local .scVector .vmem, ⟨0, _⟩ => ⟨S4x128, .i32⟩
  | .local .scVector .vmem, ⟨1, _⟩ => ⟨S4x128, .i32⟩
  | .local .scVector .vmem, ⟨2, _⟩ => ⟨S128x128, .f32⟩
  | .local .scVector .vmem, ⟨3, _⟩ => ⟨S128x128, .f32⟩
  | .local .scVector .vmem, ⟨4, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
@[reducible] def k0_t1_loop : Scf.Loop 32 :=
  let c0_i32_19 : BitVec 32 := 0#32
  let c8_i32 : BitVec 32 := 8#32
  let v16 : BitVec 32 := Scalar.addi c0_i32_19 c8_i32
  let c1_i32 : BitVec 32 := 1#32
  ⟨c0_i32_19, v16, c1_i32⟩
@[reducible] def k0_t2_loop : Scf.Loop 32 :=
  let c0_i32_89 : BitVec 32 := 0#32
  let c8_i32_90 : BitVec 32 := 8#32
  let v64 : BitVec 32 := Scalar.addi c0_i32_89 c8_i32_90
  let c1_i32_91 : BitVec 32 := 1#32
  ⟨c0_i32_89, v64, c1_i32_91⟩

def k0_chk1 (v62 : IVec S16 32) (v74 : IVec S16 32) : Prop :=
  (∀ a x, ((![v62, v74] : Fin 2 → IVec S16 32) a x).toNat < S128x128.size a)
instance k0_chk1.dec : ∀ (v62 : IVec S16 32) (v74 : IVec S16 32), Decidable (k0_chk1 v62 v74) := fun v62 v74 => decidable_of_iff' _ (Iff.of_eq (k0_chk1.eq_1 v62 v74))
theorem k0_idx1_inb : ∀ (v62 : IVec S16 32) (v74 : IVec S16 32) (k0_hw1 : k0_chk1 v62 v74), ∀ a x, ((![v62, v74] : Fin 2 → IVec S16 32) a x).toNat < S128x128.size a := fun v62 v74 k0_hw1 => k0_hw1

def k0_chk2 (v62 : IVec S16 32) (v77 : IVec S16 32) : Prop :=
  (∀ a x, ((![v62, v77] : Fin 2 → IVec S16 32) a x).toNat < S128x128.size a)
instance k0_chk2.dec : ∀ (v62 : IVec S16 32) (v77 : IVec S16 32), Decidable (k0_chk2 v62 v77) := fun v62 v77 => decidable_of_iff' _ (Iff.of_eq (k0_chk2.eq_1 v62 v77))
theorem k0_idx2_inb : ∀ (v62 : IVec S16 32) (v77 : IVec S16 32) (k0_hw2 : k0_chk2 v62 v77), ∀ a x, ((![v62, v77] : Fin 2 → IVec S16 32) a x).toNat < S128x128.size a := fun v62 v77 k0_hw2 => k0_hw2

def k0_chk3 (v62 : IVec S16 32) (v85 : IVec S16 32) : Prop :=
  (∀ a x, ((![v62, v85] : Fin 2 → IVec S16 32) a x).toNat < S128x128.size a)
instance k0_chk3.dec : ∀ (v62 : IVec S16 32) (v85 : IVec S16 32), Decidable (k0_chk3 v62 v85) := fun v62 v85 => decidable_of_iff' _ (Iff.of_eq (k0_chk3.eq_1 v62 v85))
theorem k0_idx3_inb : ∀ (v62 : IVec S16 32) (v85 : IVec S16 32) (k0_hw3 : k0_chk3 v62 v85), ∀ a x, ((![v62, v85] : Fin 2 → IVec S16 32) a x).toNat < S128x128.size a := fun v62 v85 k0_hw3 => k0_hw3

def k0_chk4 (v62 : IVec S16 32) (v88 : IVec S16 32) : Prop :=
  (∀ a x, ((![v62, v88] : Fin 2 → IVec S16 32) a x).toNat < S128x128.size a)
instance k0_chk4.dec : ∀ (v62 : IVec S16 32) (v88 : IVec S16 32), Decidable (k0_chk4 v62 v88) := fun v62 v88 => decidable_of_iff' _ (Iff.of_eq (k0_chk4.eq_1 v62 v88))
theorem k0_idx4_inb : ∀ (v62 : IVec S16 32) (v88 : IVec S16 32) (k0_hw4 : k0_chk4 v62 v88), ∀ a x, ((![v62, v88] : Fin 2 → IVec S16 32) a x).toNat < S128x128.size a := fun v62 v88 k0_hw4 => k0_hw4

def k0_chk5 (v62 : IVec S16 32) (v96 : IVec S16 32) : Prop :=
  (∀ a x, ((![v62, v96] : Fin 2 → IVec S16 32) a x).toNat < S128x128.size a)
instance k0_chk5.dec : ∀ (v62 : IVec S16 32) (v96 : IVec S16 32), Decidable (k0_chk5 v62 v96) := fun v62 v96 => decidable_of_iff' _ (Iff.of_eq (k0_chk5.eq_1 v62 v96))
theorem k0_idx5_inb : ∀ (v62 : IVec S16 32) (v96 : IVec S16 32) (k0_hw5 : k0_chk5 v62 v96), ∀ a x, ((![v62, v96] : Fin 2 → IVec S16 32) a x).toNat < S128x128.size a := fun v62 v96 k0_hw5 => k0_hw5

def k0_chk6 (v62 : IVec S16 32) (v99 : IVec S16 32) : Prop :=
  (∀ a x, ((![v62, v99] : Fin 2 → IVec S16 32) a x).toNat < S128x128.size a)
instance k0_chk6.dec : ∀ (v62 : IVec S16 32) (v99 : IVec S16 32), Decidable (k0_chk6 v62 v99) := fun v62 v99 => decidable_of_iff' _ (Iff.of_eq (k0_chk6.eq_1 v62 v99))
theorem k0_idx6_inb : ∀ (v62 : IVec S16 32) (v99 : IVec S16 32) (k0_hw6 : k0_chk6 v62 v99), ∀ a x, ((![v62, v99] : Fin 2 → IVec S16 32) a x).toNat < S128x128.size a := fun v62 v99 k0_hw6 => k0_hw6

def k0_chk7 (v62 : IVec S16 32) (v107 : IVec S16 32) : Prop :=
  (∀ a x, ((![v62, v107] : Fin 2 → IVec S16 32) a x).toNat < S128x128.size a)
instance k0_chk7.dec : ∀ (v62 : IVec S16 32) (v107 : IVec S16 32), Decidable (k0_chk7 v62 v107) := fun v62 v107 => decidable_of_iff' _ (Iff.of_eq (k0_chk7.eq_1 v62 v107))
theorem k0_idx7_inb : ∀ (v62 : IVec S16 32) (v107 : IVec S16 32) (k0_hw7 : k0_chk7 v62 v107), ∀ a x, ((![v62, v107] : Fin 2 → IVec S16 32) a x).toNat < S128x128.size a := fun v62 v107 k0_hw7 => k0_hw7

def k0_chk8 (v62 : IVec S16 32) (v110 : IVec S16 32) : Prop :=
  (∀ a x, ((![v62, v110] : Fin 2 → IVec S16 32) a x).toNat < S128x128.size a)
instance k0_chk8.dec : ∀ (v62 : IVec S16 32) (v110 : IVec S16 32), Decidable (k0_chk8 v62 v110) := fun v62 v110 => decidable_of_iff' _ (Iff.of_eq (k0_chk8.eq_1 v62 v110))
theorem k0_idx8_inb : ∀ (v62 : IVec S16 32) (v110 : IVec S16 32) (k0_hw8 : k0_chk8 v62 v110), ∀ a x, ((![v62, v110] : Fin 2 → IVec S16 32) a x).toNat < S128x128.size a := fun v62 v110 k0_hw8 => k0_hw8

def k0_chk9 (v62 : IVec S16 32) (v118 : IVec S16 32) : Prop :=
  (∀ a x, ((![v62, v118] : Fin 2 → IVec S16 32) a x).toNat < S128x128.size a)
instance k0_chk9.dec : ∀ (v62 : IVec S16 32) (v118 : IVec S16 32), Decidable (k0_chk9 v62 v118) := fun v62 v118 => decidable_of_iff' _ (Iff.of_eq (k0_chk9.eq_1 v62 v118))
theorem k0_idx9_inb : ∀ (v62 : IVec S16 32) (v118 : IVec S16 32) (k0_hw9 : k0_chk9 v62 v118), ∀ a x, ((![v62, v118] : Fin 2 → IVec S16 32) a x).toNat < S128x128.size a := fun v62 v118 k0_hw9 => k0_hw9

def k0_chk10 (v62 : IVec S16 32) (v121 : IVec S16 32) : Prop :=
  (∀ a x, ((![v62, v121] : Fin 2 → IVec S16 32) a x).toNat < S128x128.size a)
instance k0_chk10.dec : ∀ (v62 : IVec S16 32) (v121 : IVec S16 32), Decidable (k0_chk10 v62 v121) := fun v62 v121 => decidable_of_iff' _ (Iff.of_eq (k0_chk10.eq_1 v62 v121))
theorem k0_idx10_inb : ∀ (v62 : IVec S16 32) (v121 : IVec S16 32) (k0_hw10 : k0_chk10 v62 v121), ∀ a x, ((![v62, v121] : Fin 2 → IVec S16 32) a x).toNat < S128x128.size a := fun v62 v121 k0_hw10 => k0_hw10

def k0_chk11 (v62 : IVec S16 32) (v129 : IVec S16 32) : Prop :=
  (∀ a x, ((![v62, v129] : Fin 2 → IVec S16 32) a x).toNat < S128x128.size a)
instance k0_chk11.dec : ∀ (v62 : IVec S16 32) (v129 : IVec S16 32), Decidable (k0_chk11 v62 v129) := fun v62 v129 => decidable_of_iff' _ (Iff.of_eq (k0_chk11.eq_1 v62 v129))
theorem k0_idx11_inb : ∀ (v62 : IVec S16 32) (v129 : IVec S16 32) (k0_hw11 : k0_chk11 v62 v129), ∀ a x, ((![v62, v129] : Fin 2 → IVec S16 32) a x).toNat < S128x128.size a := fun v62 v129 k0_hw11 => k0_hw11

def k0_chk12 (v62 : IVec S16 32) (v132 : IVec S16 32) : Prop :=
  (∀ a x, ((![v62, v132] : Fin 2 → IVec S16 32) a x).toNat < S128x128.size a)
instance k0_chk12.dec : ∀ (v62 : IVec S16 32) (v132 : IVec S16 32), Decidable (k0_chk12 v62 v132) := fun v62 v132 => decidable_of_iff' _ (Iff.of_eq (k0_chk12.eq_1 v62 v132))
theorem k0_idx12_inb : ∀ (v62 : IVec S16 32) (v132 : IVec S16 32) (k0_hw12 : k0_chk12 v62 v132), ∀ a x, ((![v62, v132] : Fin 2 → IVec S16 32) a x).toNat < S128x128.size a := fun v62 v132 k0_hw12 => k0_hw12

def k0_chk13 (v62 : IVec S16 32) (v140 : IVec S16 32) : Prop :=
  (∀ a x, ((![v62, v140] : Fin 2 → IVec S16 32) a x).toNat < S128x128.size a)
instance k0_chk13.dec : ∀ (v62 : IVec S16 32) (v140 : IVec S16 32), Decidable (k0_chk13 v62 v140) := fun v62 v140 => decidable_of_iff' _ (Iff.of_eq (k0_chk13.eq_1 v62 v140))
theorem k0_idx13_inb : ∀ (v62 : IVec S16 32) (v140 : IVec S16 32) (k0_hw13 : k0_chk13 v62 v140), ∀ a x, ((![v62, v140] : Fin 2 → IVec S16 32) a x).toNat < S128x128.size a := fun v62 v140 k0_hw13 => k0_hw13

def k0_chk14 (v62 : IVec S16 32) (v143 : IVec S16 32) : Prop :=
  (∀ a x, ((![v62, v143] : Fin 2 → IVec S16 32) a x).toNat < S128x128.size a)
instance k0_chk14.dec : ∀ (v62 : IVec S16 32) (v143 : IVec S16 32), Decidable (k0_chk14 v62 v143) := fun v62 v143 => decidable_of_iff' _ (Iff.of_eq (k0_chk14.eq_1 v62 v143))
theorem k0_idx14_inb : ∀ (v62 : IVec S16 32) (v143 : IVec S16 32) (k0_hw14 : k0_chk14 v62 v143), ∀ a x, ((![v62, v143] : Fin 2 → IVec S16 32) a x).toNat < S128x128.size a := fun v62 v143 k0_hw14 => k0_hw14

def k0_chk15 (v62 : IVec S16 32) (v151 : IVec S16 32) : Prop :=
  (∀ a x, ((![v62, v151] : Fin 2 → IVec S16 32) a x).toNat < S128x128.size a)
instance k0_chk15.dec : ∀ (v62 : IVec S16 32) (v151 : IVec S16 32), Decidable (k0_chk15 v62 v151) := fun v62 v151 => decidable_of_iff' _ (Iff.of_eq (k0_chk15.eq_1 v62 v151))
theorem k0_idx15_inb : ∀ (v62 : IVec S16 32) (v151 : IVec S16 32) (k0_hw15 : k0_chk15 v62 v151), ∀ a x, ((![v62, v151] : Fin 2 → IVec S16 32) a x).toNat < S128x128.size a := fun v62 v151 k0_hw15 => k0_hw15

def k0_chk16 (v62 : IVec S16 32) (v154 : IVec S16 32) : Prop :=
  (∀ a x, ((![v62, v154] : Fin 2 → IVec S16 32) a x).toNat < S128x128.size a)
instance k0_chk16.dec : ∀ (v62 : IVec S16 32) (v154 : IVec S16 32), Decidable (k0_chk16 v62 v154) := fun v62 v154 => decidable_of_iff' _ (Iff.of_eq (k0_chk16.eq_1 v62 v154))
theorem k0_idx16_inb : ∀ (v62 : IVec S16 32) (v154 : IVec S16 32) (k0_hw16 : k0_chk16 v62 v154), ∀ a x, ((![v62, v154] : Fin 2 → IVec S16 32) a x).toNat < S128x128.size a := fun v62 v154 k0_hw16 => k0_hw16
def k0_off2 (k0_t1 : Fin k0_t1_loop.trips) : Fin 1 → Nat :=
  let c0_i32_94 : BitVec 32 := 0#32
  let c0_i32_19 : BitVec 32 := 0#32
  let c1_i32 : BitVec 32 := 1#32
  let arg13 : BitVec 32 := Scf.iv c0_i32_19 c1_i32 k0_t1
  let c16_i32_93 : BitVec 32 := 16#32
  let v66 : BitVec 32 := Scalar.muli arg13 c16_i32_93
  let v67 : BitVec 32 := Scalar.addi c0_i32_94 v66
  let v68 : Index := Scalar.indexCast v67
  ![v68.toNat]
@[reducible] def k0_t3_loop : Scf.Loop 32 :=
  let c0_i32_40 : BitVec 32 := 0#32
  let c8_i32_41 : BitVec 32 := 8#32
  let v30 : BitVec 32 := Scalar.addi c0_i32_40 c8_i32_41
  let c1_i32_42 : BitVec 32 := 1#32
  ⟨c0_i32_40, v30, c1_i32_42⟩
@[reducible] def k0_t4_loop : Scf.Loop 32 :=
  let c0_i32_89 : BitVec 32 := 0#32
  let c8_i32_90 : BitVec 32 := 8#32
  let v64 : BitVec 32 := Scalar.addi c0_i32_89 c8_i32_90
  let c1_i32_91 : BitVec 32 := 1#32
  ⟨c0_i32_89, v64, c1_i32_91⟩

def k0_chk17 (v62 : IVec S16 32) (v74 : IVec S16 32) : Prop :=
  (∀ a x, ((![v62, v74] : Fin 2 → IVec S16 32) a x).toNat < S128x128.size a)
instance k0_chk17.dec : ∀ (v62 : IVec S16 32) (v74 : IVec S16 32), Decidable (k0_chk17 v62 v74) := fun v62 v74 => decidable_of_iff' _ (Iff.of_eq (k0_chk17.eq_1 v62 v74))
theorem k0_idx17_inb : ∀ (v62 : IVec S16 32) (v74 : IVec S16 32) (k0_hw17 : k0_chk17 v62 v74), ∀ a x, ((![v62, v74] : Fin 2 → IVec S16 32) a x).toNat < S128x128.size a := fun v62 v74 k0_hw17 => k0_hw17

def k0_chk18 (v62 : IVec S16 32) (v77 : IVec S16 32) : Prop :=
  (∀ a x, ((![v62, v77] : Fin 2 → IVec S16 32) a x).toNat < S128x128.size a)
instance k0_chk18.dec : ∀ (v62 : IVec S16 32) (v77 : IVec S16 32), Decidable (k0_chk18 v62 v77) := fun v62 v77 => decidable_of_iff' _ (Iff.of_eq (k0_chk18.eq_1 v62 v77))
theorem k0_idx18_inb : ∀ (v62 : IVec S16 32) (v77 : IVec S16 32) (k0_hw18 : k0_chk18 v62 v77), ∀ a x, ((![v62, v77] : Fin 2 → IVec S16 32) a x).toNat < S128x128.size a := fun v62 v77 k0_hw18 => k0_hw18

def k0_chk19 (v62 : IVec S16 32) (v85 : IVec S16 32) : Prop :=
  (∀ a x, ((![v62, v85] : Fin 2 → IVec S16 32) a x).toNat < S128x128.size a)
instance k0_chk19.dec : ∀ (v62 : IVec S16 32) (v85 : IVec S16 32), Decidable (k0_chk19 v62 v85) := fun v62 v85 => decidable_of_iff' _ (Iff.of_eq (k0_chk19.eq_1 v62 v85))
theorem k0_idx19_inb : ∀ (v62 : IVec S16 32) (v85 : IVec S16 32) (k0_hw19 : k0_chk19 v62 v85), ∀ a x, ((![v62, v85] : Fin 2 → IVec S16 32) a x).toNat < S128x128.size a := fun v62 v85 k0_hw19 => k0_hw19

def k0_chk20 (v62 : IVec S16 32) (v88 : IVec S16 32) : Prop :=
  (∀ a x, ((![v62, v88] : Fin 2 → IVec S16 32) a x).toNat < S128x128.size a)
instance k0_chk20.dec : ∀ (v62 : IVec S16 32) (v88 : IVec S16 32), Decidable (k0_chk20 v62 v88) := fun v62 v88 => decidable_of_iff' _ (Iff.of_eq (k0_chk20.eq_1 v62 v88))
theorem k0_idx20_inb : ∀ (v62 : IVec S16 32) (v88 : IVec S16 32) (k0_hw20 : k0_chk20 v62 v88), ∀ a x, ((![v62, v88] : Fin 2 → IVec S16 32) a x).toNat < S128x128.size a := fun v62 v88 k0_hw20 => k0_hw20

def k0_chk21 (v62 : IVec S16 32) (v96 : IVec S16 32) : Prop :=
  (∀ a x, ((![v62, v96] : Fin 2 → IVec S16 32) a x).toNat < S128x128.size a)
instance k0_chk21.dec : ∀ (v62 : IVec S16 32) (v96 : IVec S16 32), Decidable (k0_chk21 v62 v96) := fun v62 v96 => decidable_of_iff' _ (Iff.of_eq (k0_chk21.eq_1 v62 v96))
theorem k0_idx21_inb : ∀ (v62 : IVec S16 32) (v96 : IVec S16 32) (k0_hw21 : k0_chk21 v62 v96), ∀ a x, ((![v62, v96] : Fin 2 → IVec S16 32) a x).toNat < S128x128.size a := fun v62 v96 k0_hw21 => k0_hw21

def k0_chk22 (v62 : IVec S16 32) (v99 : IVec S16 32) : Prop :=
  (∀ a x, ((![v62, v99] : Fin 2 → IVec S16 32) a x).toNat < S128x128.size a)
instance k0_chk22.dec : ∀ (v62 : IVec S16 32) (v99 : IVec S16 32), Decidable (k0_chk22 v62 v99) := fun v62 v99 => decidable_of_iff' _ (Iff.of_eq (k0_chk22.eq_1 v62 v99))
theorem k0_idx22_inb : ∀ (v62 : IVec S16 32) (v99 : IVec S16 32) (k0_hw22 : k0_chk22 v62 v99), ∀ a x, ((![v62, v99] : Fin 2 → IVec S16 32) a x).toNat < S128x128.size a := fun v62 v99 k0_hw22 => k0_hw22

def k0_chk23 (v62 : IVec S16 32) (v107 : IVec S16 32) : Prop :=
  (∀ a x, ((![v62, v107] : Fin 2 → IVec S16 32) a x).toNat < S128x128.size a)
instance k0_chk23.dec : ∀ (v62 : IVec S16 32) (v107 : IVec S16 32), Decidable (k0_chk23 v62 v107) := fun v62 v107 => decidable_of_iff' _ (Iff.of_eq (k0_chk23.eq_1 v62 v107))
theorem k0_idx23_inb : ∀ (v62 : IVec S16 32) (v107 : IVec S16 32) (k0_hw23 : k0_chk23 v62 v107), ∀ a x, ((![v62, v107] : Fin 2 → IVec S16 32) a x).toNat < S128x128.size a := fun v62 v107 k0_hw23 => k0_hw23

def k0_chk24 (v62 : IVec S16 32) (v110 : IVec S16 32) : Prop :=
  (∀ a x, ((![v62, v110] : Fin 2 → IVec S16 32) a x).toNat < S128x128.size a)
instance k0_chk24.dec : ∀ (v62 : IVec S16 32) (v110 : IVec S16 32), Decidable (k0_chk24 v62 v110) := fun v62 v110 => decidable_of_iff' _ (Iff.of_eq (k0_chk24.eq_1 v62 v110))
theorem k0_idx24_inb : ∀ (v62 : IVec S16 32) (v110 : IVec S16 32) (k0_hw24 : k0_chk24 v62 v110), ∀ a x, ((![v62, v110] : Fin 2 → IVec S16 32) a x).toNat < S128x128.size a := fun v62 v110 k0_hw24 => k0_hw24

def k0_chk25 (v62 : IVec S16 32) (v118 : IVec S16 32) : Prop :=
  (∀ a x, ((![v62, v118] : Fin 2 → IVec S16 32) a x).toNat < S128x128.size a)
instance k0_chk25.dec : ∀ (v62 : IVec S16 32) (v118 : IVec S16 32), Decidable (k0_chk25 v62 v118) := fun v62 v118 => decidable_of_iff' _ (Iff.of_eq (k0_chk25.eq_1 v62 v118))
theorem k0_idx25_inb : ∀ (v62 : IVec S16 32) (v118 : IVec S16 32) (k0_hw25 : k0_chk25 v62 v118), ∀ a x, ((![v62, v118] : Fin 2 → IVec S16 32) a x).toNat < S128x128.size a := fun v62 v118 k0_hw25 => k0_hw25

def k0_chk26 (v62 : IVec S16 32) (v121 : IVec S16 32) : Prop :=
  (∀ a x, ((![v62, v121] : Fin 2 → IVec S16 32) a x).toNat < S128x128.size a)
instance k0_chk26.dec : ∀ (v62 : IVec S16 32) (v121 : IVec S16 32), Decidable (k0_chk26 v62 v121) := fun v62 v121 => decidable_of_iff' _ (Iff.of_eq (k0_chk26.eq_1 v62 v121))
theorem k0_idx26_inb : ∀ (v62 : IVec S16 32) (v121 : IVec S16 32) (k0_hw26 : k0_chk26 v62 v121), ∀ a x, ((![v62, v121] : Fin 2 → IVec S16 32) a x).toNat < S128x128.size a := fun v62 v121 k0_hw26 => k0_hw26

def k0_chk27 (v62 : IVec S16 32) (v129 : IVec S16 32) : Prop :=
  (∀ a x, ((![v62, v129] : Fin 2 → IVec S16 32) a x).toNat < S128x128.size a)
instance k0_chk27.dec : ∀ (v62 : IVec S16 32) (v129 : IVec S16 32), Decidable (k0_chk27 v62 v129) := fun v62 v129 => decidable_of_iff' _ (Iff.of_eq (k0_chk27.eq_1 v62 v129))
theorem k0_idx27_inb : ∀ (v62 : IVec S16 32) (v129 : IVec S16 32) (k0_hw27 : k0_chk27 v62 v129), ∀ a x, ((![v62, v129] : Fin 2 → IVec S16 32) a x).toNat < S128x128.size a := fun v62 v129 k0_hw27 => k0_hw27

def k0_chk28 (v62 : IVec S16 32) (v132 : IVec S16 32) : Prop :=
  (∀ a x, ((![v62, v132] : Fin 2 → IVec S16 32) a x).toNat < S128x128.size a)
instance k0_chk28.dec : ∀ (v62 : IVec S16 32) (v132 : IVec S16 32), Decidable (k0_chk28 v62 v132) := fun v62 v132 => decidable_of_iff' _ (Iff.of_eq (k0_chk28.eq_1 v62 v132))
theorem k0_idx28_inb : ∀ (v62 : IVec S16 32) (v132 : IVec S16 32) (k0_hw28 : k0_chk28 v62 v132), ∀ a x, ((![v62, v132] : Fin 2 → IVec S16 32) a x).toNat < S128x128.size a := fun v62 v132 k0_hw28 => k0_hw28

def k0_chk29 (v62 : IVec S16 32) (v140 : IVec S16 32) : Prop :=
  (∀ a x, ((![v62, v140] : Fin 2 → IVec S16 32) a x).toNat < S128x128.size a)
instance k0_chk29.dec : ∀ (v62 : IVec S16 32) (v140 : IVec S16 32), Decidable (k0_chk29 v62 v140) := fun v62 v140 => decidable_of_iff' _ (Iff.of_eq (k0_chk29.eq_1 v62 v140))
theorem k0_idx29_inb : ∀ (v62 : IVec S16 32) (v140 : IVec S16 32) (k0_hw29 : k0_chk29 v62 v140), ∀ a x, ((![v62, v140] : Fin 2 → IVec S16 32) a x).toNat < S128x128.size a := fun v62 v140 k0_hw29 => k0_hw29

def k0_chk30 (v62 : IVec S16 32) (v143 : IVec S16 32) : Prop :=
  (∀ a x, ((![v62, v143] : Fin 2 → IVec S16 32) a x).toNat < S128x128.size a)
instance k0_chk30.dec : ∀ (v62 : IVec S16 32) (v143 : IVec S16 32), Decidable (k0_chk30 v62 v143) := fun v62 v143 => decidable_of_iff' _ (Iff.of_eq (k0_chk30.eq_1 v62 v143))
theorem k0_idx30_inb : ∀ (v62 : IVec S16 32) (v143 : IVec S16 32) (k0_hw30 : k0_chk30 v62 v143), ∀ a x, ((![v62, v143] : Fin 2 → IVec S16 32) a x).toNat < S128x128.size a := fun v62 v143 k0_hw30 => k0_hw30

def k0_chk31 (v62 : IVec S16 32) (v151 : IVec S16 32) : Prop :=
  (∀ a x, ((![v62, v151] : Fin 2 → IVec S16 32) a x).toNat < S128x128.size a)
instance k0_chk31.dec : ∀ (v62 : IVec S16 32) (v151 : IVec S16 32), Decidable (k0_chk31 v62 v151) := fun v62 v151 => decidable_of_iff' _ (Iff.of_eq (k0_chk31.eq_1 v62 v151))
theorem k0_idx31_inb : ∀ (v62 : IVec S16 32) (v151 : IVec S16 32) (k0_hw31 : k0_chk31 v62 v151), ∀ a x, ((![v62, v151] : Fin 2 → IVec S16 32) a x).toNat < S128x128.size a := fun v62 v151 k0_hw31 => k0_hw31

def k0_chk32 (v62 : IVec S16 32) (v154 : IVec S16 32) : Prop :=
  (∀ a x, ((![v62, v154] : Fin 2 → IVec S16 32) a x).toNat < S128x128.size a)
instance k0_chk32.dec : ∀ (v62 : IVec S16 32) (v154 : IVec S16 32), Decidable (k0_chk32 v62 v154) := fun v62 v154 => decidable_of_iff' _ (Iff.of_eq (k0_chk32.eq_1 v62 v154))
theorem k0_idx32_inb : ∀ (v62 : IVec S16 32) (v154 : IVec S16 32) (k0_hw32 : k0_chk32 v62 v154), ∀ a x, ((![v62, v154] : Fin 2 → IVec S16 32) a x).toNat < S128x128.size a := fun v62 v154 k0_hw32 => k0_hw32
def k0_off3 (k0_t3 : Fin k0_t3_loop.trips) : Fin 1 → Nat :=
  let c128_i32_94 : BitVec 32 := 128#32
  let c0_i32_40 : BitVec 32 := 0#32
  let c1_i32_42 : BitVec 32 := 1#32
  let arg13 : BitVec 32 := Scf.iv c0_i32_40 c1_i32_42 k0_t3
  let c16_i32_93 : BitVec 32 := 16#32
  let v66 : BitVec 32 := Scalar.muli arg13 c16_i32_93
  let v67 : BitVec 32 := Scalar.addi c128_i32_94 v66
  let v68 : Index := Scalar.indexCast v67
  ![v68.toNat]
@[reducible] def k0_t5_loop : Scf.Loop 32 :=
  let c0_i32_63 : BitVec 32 := 0#32
  let c8_i32_64 : BitVec 32 := 8#32
  let v44 : BitVec 32 := Scalar.addi c0_i32_63 c8_i32_64
  let c1_i32_65 : BitVec 32 := 1#32
  ⟨c0_i32_63, v44, c1_i32_65⟩
@[reducible] def k0_t6_loop : Scf.Loop 32 :=
  let c0_i32_89 : BitVec 32 := 0#32
  let c8_i32_90 : BitVec 32 := 8#32
  let v64 : BitVec 32 := Scalar.addi c0_i32_89 c8_i32_90
  let c1_i32_91 : BitVec 32 := 1#32
  ⟨c0_i32_89, v64, c1_i32_91⟩

def k0_chk33 (v62 : IVec S16 32) (v74 : IVec S16 32) : Prop :=
  (∀ a x, ((![v62, v74] : Fin 2 → IVec S16 32) a x).toNat < S128x128.size a)
instance k0_chk33.dec : ∀ (v62 : IVec S16 32) (v74 : IVec S16 32), Decidable (k0_chk33 v62 v74) := fun v62 v74 => decidable_of_iff' _ (Iff.of_eq (k0_chk33.eq_1 v62 v74))
theorem k0_idx33_inb : ∀ (v62 : IVec S16 32) (v74 : IVec S16 32) (k0_hw33 : k0_chk33 v62 v74), ∀ a x, ((![v62, v74] : Fin 2 → IVec S16 32) a x).toNat < S128x128.size a := fun v62 v74 k0_hw33 => k0_hw33

def k0_chk34 (v62 : IVec S16 32) (v77 : IVec S16 32) : Prop :=
  (∀ a x, ((![v62, v77] : Fin 2 → IVec S16 32) a x).toNat < S128x128.size a)
instance k0_chk34.dec : ∀ (v62 : IVec S16 32) (v77 : IVec S16 32), Decidable (k0_chk34 v62 v77) := fun v62 v77 => decidable_of_iff' _ (Iff.of_eq (k0_chk34.eq_1 v62 v77))
theorem k0_idx34_inb : ∀ (v62 : IVec S16 32) (v77 : IVec S16 32) (k0_hw34 : k0_chk34 v62 v77), ∀ a x, ((![v62, v77] : Fin 2 → IVec S16 32) a x).toNat < S128x128.size a := fun v62 v77 k0_hw34 => k0_hw34

def k0_chk35 (v62 : IVec S16 32) (v85 : IVec S16 32) : Prop :=
  (∀ a x, ((![v62, v85] : Fin 2 → IVec S16 32) a x).toNat < S128x128.size a)
instance k0_chk35.dec : ∀ (v62 : IVec S16 32) (v85 : IVec S16 32), Decidable (k0_chk35 v62 v85) := fun v62 v85 => decidable_of_iff' _ (Iff.of_eq (k0_chk35.eq_1 v62 v85))
theorem k0_idx35_inb : ∀ (v62 : IVec S16 32) (v85 : IVec S16 32) (k0_hw35 : k0_chk35 v62 v85), ∀ a x, ((![v62, v85] : Fin 2 → IVec S16 32) a x).toNat < S128x128.size a := fun v62 v85 k0_hw35 => k0_hw35

def k0_chk36 (v62 : IVec S16 32) (v88 : IVec S16 32) : Prop :=
  (∀ a x, ((![v62, v88] : Fin 2 → IVec S16 32) a x).toNat < S128x128.size a)
instance k0_chk36.dec : ∀ (v62 : IVec S16 32) (v88 : IVec S16 32), Decidable (k0_chk36 v62 v88) := fun v62 v88 => decidable_of_iff' _ (Iff.of_eq (k0_chk36.eq_1 v62 v88))
theorem k0_idx36_inb : ∀ (v62 : IVec S16 32) (v88 : IVec S16 32) (k0_hw36 : k0_chk36 v62 v88), ∀ a x, ((![v62, v88] : Fin 2 → IVec S16 32) a x).toNat < S128x128.size a := fun v62 v88 k0_hw36 => k0_hw36

def k0_chk37 (v62 : IVec S16 32) (v96 : IVec S16 32) : Prop :=
  (∀ a x, ((![v62, v96] : Fin 2 → IVec S16 32) a x).toNat < S128x128.size a)
instance k0_chk37.dec : ∀ (v62 : IVec S16 32) (v96 : IVec S16 32), Decidable (k0_chk37 v62 v96) := fun v62 v96 => decidable_of_iff' _ (Iff.of_eq (k0_chk37.eq_1 v62 v96))
theorem k0_idx37_inb : ∀ (v62 : IVec S16 32) (v96 : IVec S16 32) (k0_hw37 : k0_chk37 v62 v96), ∀ a x, ((![v62, v96] : Fin 2 → IVec S16 32) a x).toNat < S128x128.size a := fun v62 v96 k0_hw37 => k0_hw37

def k0_chk38 (v62 : IVec S16 32) (v99 : IVec S16 32) : Prop :=
  (∀ a x, ((![v62, v99] : Fin 2 → IVec S16 32) a x).toNat < S128x128.size a)
instance k0_chk38.dec : ∀ (v62 : IVec S16 32) (v99 : IVec S16 32), Decidable (k0_chk38 v62 v99) := fun v62 v99 => decidable_of_iff' _ (Iff.of_eq (k0_chk38.eq_1 v62 v99))
theorem k0_idx38_inb : ∀ (v62 : IVec S16 32) (v99 : IVec S16 32) (k0_hw38 : k0_chk38 v62 v99), ∀ a x, ((![v62, v99] : Fin 2 → IVec S16 32) a x).toNat < S128x128.size a := fun v62 v99 k0_hw38 => k0_hw38

def k0_chk39 (v62 : IVec S16 32) (v107 : IVec S16 32) : Prop :=
  (∀ a x, ((![v62, v107] : Fin 2 → IVec S16 32) a x).toNat < S128x128.size a)
instance k0_chk39.dec : ∀ (v62 : IVec S16 32) (v107 : IVec S16 32), Decidable (k0_chk39 v62 v107) := fun v62 v107 => decidable_of_iff' _ (Iff.of_eq (k0_chk39.eq_1 v62 v107))
theorem k0_idx39_inb : ∀ (v62 : IVec S16 32) (v107 : IVec S16 32) (k0_hw39 : k0_chk39 v62 v107), ∀ a x, ((![v62, v107] : Fin 2 → IVec S16 32) a x).toNat < S128x128.size a := fun v62 v107 k0_hw39 => k0_hw39

def k0_chk40 (v62 : IVec S16 32) (v110 : IVec S16 32) : Prop :=
  (∀ a x, ((![v62, v110] : Fin 2 → IVec S16 32) a x).toNat < S128x128.size a)
instance k0_chk40.dec : ∀ (v62 : IVec S16 32) (v110 : IVec S16 32), Decidable (k0_chk40 v62 v110) := fun v62 v110 => decidable_of_iff' _ (Iff.of_eq (k0_chk40.eq_1 v62 v110))
theorem k0_idx40_inb : ∀ (v62 : IVec S16 32) (v110 : IVec S16 32) (k0_hw40 : k0_chk40 v62 v110), ∀ a x, ((![v62, v110] : Fin 2 → IVec S16 32) a x).toNat < S128x128.size a := fun v62 v110 k0_hw40 => k0_hw40

def k0_chk41 (v62 : IVec S16 32) (v118 : IVec S16 32) : Prop :=
  (∀ a x, ((![v62, v118] : Fin 2 → IVec S16 32) a x).toNat < S128x128.size a)
instance k0_chk41.dec : ∀ (v62 : IVec S16 32) (v118 : IVec S16 32), Decidable (k0_chk41 v62 v118) := fun v62 v118 => decidable_of_iff' _ (Iff.of_eq (k0_chk41.eq_1 v62 v118))
theorem k0_idx41_inb : ∀ (v62 : IVec S16 32) (v118 : IVec S16 32) (k0_hw41 : k0_chk41 v62 v118), ∀ a x, ((![v62, v118] : Fin 2 → IVec S16 32) a x).toNat < S128x128.size a := fun v62 v118 k0_hw41 => k0_hw41

def k0_chk42 (v62 : IVec S16 32) (v121 : IVec S16 32) : Prop :=
  (∀ a x, ((![v62, v121] : Fin 2 → IVec S16 32) a x).toNat < S128x128.size a)
instance k0_chk42.dec : ∀ (v62 : IVec S16 32) (v121 : IVec S16 32), Decidable (k0_chk42 v62 v121) := fun v62 v121 => decidable_of_iff' _ (Iff.of_eq (k0_chk42.eq_1 v62 v121))
theorem k0_idx42_inb : ∀ (v62 : IVec S16 32) (v121 : IVec S16 32) (k0_hw42 : k0_chk42 v62 v121), ∀ a x, ((![v62, v121] : Fin 2 → IVec S16 32) a x).toNat < S128x128.size a := fun v62 v121 k0_hw42 => k0_hw42

def k0_chk43 (v62 : IVec S16 32) (v129 : IVec S16 32) : Prop :=
  (∀ a x, ((![v62, v129] : Fin 2 → IVec S16 32) a x).toNat < S128x128.size a)
instance k0_chk43.dec : ∀ (v62 : IVec S16 32) (v129 : IVec S16 32), Decidable (k0_chk43 v62 v129) := fun v62 v129 => decidable_of_iff' _ (Iff.of_eq (k0_chk43.eq_1 v62 v129))
theorem k0_idx43_inb : ∀ (v62 : IVec S16 32) (v129 : IVec S16 32) (k0_hw43 : k0_chk43 v62 v129), ∀ a x, ((![v62, v129] : Fin 2 → IVec S16 32) a x).toNat < S128x128.size a := fun v62 v129 k0_hw43 => k0_hw43

def k0_chk44 (v62 : IVec S16 32) (v132 : IVec S16 32) : Prop :=
  (∀ a x, ((![v62, v132] : Fin 2 → IVec S16 32) a x).toNat < S128x128.size a)
instance k0_chk44.dec : ∀ (v62 : IVec S16 32) (v132 : IVec S16 32), Decidable (k0_chk44 v62 v132) := fun v62 v132 => decidable_of_iff' _ (Iff.of_eq (k0_chk44.eq_1 v62 v132))
theorem k0_idx44_inb : ∀ (v62 : IVec S16 32) (v132 : IVec S16 32) (k0_hw44 : k0_chk44 v62 v132), ∀ a x, ((![v62, v132] : Fin 2 → IVec S16 32) a x).toNat < S128x128.size a := fun v62 v132 k0_hw44 => k0_hw44

def k0_chk45 (v62 : IVec S16 32) (v140 : IVec S16 32) : Prop :=
  (∀ a x, ((![v62, v140] : Fin 2 → IVec S16 32) a x).toNat < S128x128.size a)
instance k0_chk45.dec : ∀ (v62 : IVec S16 32) (v140 : IVec S16 32), Decidable (k0_chk45 v62 v140) := fun v62 v140 => decidable_of_iff' _ (Iff.of_eq (k0_chk45.eq_1 v62 v140))
theorem k0_idx45_inb : ∀ (v62 : IVec S16 32) (v140 : IVec S16 32) (k0_hw45 : k0_chk45 v62 v140), ∀ a x, ((![v62, v140] : Fin 2 → IVec S16 32) a x).toNat < S128x128.size a := fun v62 v140 k0_hw45 => k0_hw45

def k0_chk46 (v62 : IVec S16 32) (v143 : IVec S16 32) : Prop :=
  (∀ a x, ((![v62, v143] : Fin 2 → IVec S16 32) a x).toNat < S128x128.size a)
instance k0_chk46.dec : ∀ (v62 : IVec S16 32) (v143 : IVec S16 32), Decidable (k0_chk46 v62 v143) := fun v62 v143 => decidable_of_iff' _ (Iff.of_eq (k0_chk46.eq_1 v62 v143))
theorem k0_idx46_inb : ∀ (v62 : IVec S16 32) (v143 : IVec S16 32) (k0_hw46 : k0_chk46 v62 v143), ∀ a x, ((![v62, v143] : Fin 2 → IVec S16 32) a x).toNat < S128x128.size a := fun v62 v143 k0_hw46 => k0_hw46

def k0_chk47 (v62 : IVec S16 32) (v151 : IVec S16 32) : Prop :=
  (∀ a x, ((![v62, v151] : Fin 2 → IVec S16 32) a x).toNat < S128x128.size a)
instance k0_chk47.dec : ∀ (v62 : IVec S16 32) (v151 : IVec S16 32), Decidable (k0_chk47 v62 v151) := fun v62 v151 => decidable_of_iff' _ (Iff.of_eq (k0_chk47.eq_1 v62 v151))
theorem k0_idx47_inb : ∀ (v62 : IVec S16 32) (v151 : IVec S16 32) (k0_hw47 : k0_chk47 v62 v151), ∀ a x, ((![v62, v151] : Fin 2 → IVec S16 32) a x).toNat < S128x128.size a := fun v62 v151 k0_hw47 => k0_hw47

def k0_chk48 (v62 : IVec S16 32) (v154 : IVec S16 32) : Prop :=
  (∀ a x, ((![v62, v154] : Fin 2 → IVec S16 32) a x).toNat < S128x128.size a)
instance k0_chk48.dec : ∀ (v62 : IVec S16 32) (v154 : IVec S16 32), Decidable (k0_chk48 v62 v154) := fun v62 v154 => decidable_of_iff' _ (Iff.of_eq (k0_chk48.eq_1 v62 v154))
theorem k0_idx48_inb : ∀ (v62 : IVec S16 32) (v154 : IVec S16 32) (k0_hw48 : k0_chk48 v62 v154), ∀ a x, ((![v62, v154] : Fin 2 → IVec S16 32) a x).toNat < S128x128.size a := fun v62 v154 k0_hw48 => k0_hw48
def k0_off4 (k0_t5 : Fin k0_t5_loop.trips) : Fin 1 → Nat :=
  let c256_i32_94 : BitVec 32 := 256#32
  let c0_i32_63 : BitVec 32 := 0#32
  let c1_i32_65 : BitVec 32 := 1#32
  let arg13 : BitVec 32 := Scf.iv c0_i32_63 c1_i32_65 k0_t5
  let c16_i32_93 : BitVec 32 := 16#32
  let v66 : BitVec 32 := Scalar.muli arg13 c16_i32_93
  let v67 : BitVec 32 := Scalar.addi c256_i32_94 v66
  let v68 : Index := Scalar.indexCast v67
  ![v68.toNat]
@[reducible] def k0_t7_loop : Scf.Loop 32 :=
  let c0_i32_85 : BitVec 32 := 0#32
  let c8_i32_86 : BitVec 32 := 8#32
  let v58 : BitVec 32 := Scalar.addi c0_i32_85 c8_i32_86
  let c1_i32_87 : BitVec 32 := 1#32
  ⟨c0_i32_85, v58, c1_i32_87⟩
@[reducible] def k0_t8_loop : Scf.Loop 32 :=
  let c0_i32_89 : BitVec 32 := 0#32
  let c8_i32_90 : BitVec 32 := 8#32
  let v64 : BitVec 32 := Scalar.addi c0_i32_89 c8_i32_90
  let c1_i32_91 : BitVec 32 := 1#32
  ⟨c0_i32_89, v64, c1_i32_91⟩

def k0_chk49 (v62 : IVec S16 32) (v74 : IVec S16 32) : Prop :=
  (∀ a x, ((![v62, v74] : Fin 2 → IVec S16 32) a x).toNat < S128x128.size a)
instance k0_chk49.dec : ∀ (v62 : IVec S16 32) (v74 : IVec S16 32), Decidable (k0_chk49 v62 v74) := fun v62 v74 => decidable_of_iff' _ (Iff.of_eq (k0_chk49.eq_1 v62 v74))
theorem k0_idx49_inb : ∀ (v62 : IVec S16 32) (v74 : IVec S16 32) (k0_hw49 : k0_chk49 v62 v74), ∀ a x, ((![v62, v74] : Fin 2 → IVec S16 32) a x).toNat < S128x128.size a := fun v62 v74 k0_hw49 => k0_hw49

def k0_chk50 (v62 : IVec S16 32) (v77 : IVec S16 32) : Prop :=
  (∀ a x, ((![v62, v77] : Fin 2 → IVec S16 32) a x).toNat < S128x128.size a)
instance k0_chk50.dec : ∀ (v62 : IVec S16 32) (v77 : IVec S16 32), Decidable (k0_chk50 v62 v77) := fun v62 v77 => decidable_of_iff' _ (Iff.of_eq (k0_chk50.eq_1 v62 v77))
theorem k0_idx50_inb : ∀ (v62 : IVec S16 32) (v77 : IVec S16 32) (k0_hw50 : k0_chk50 v62 v77), ∀ a x, ((![v62, v77] : Fin 2 → IVec S16 32) a x).toNat < S128x128.size a := fun v62 v77 k0_hw50 => k0_hw50

def k0_chk51 (v62 : IVec S16 32) (v85 : IVec S16 32) : Prop :=
  (∀ a x, ((![v62, v85] : Fin 2 → IVec S16 32) a x).toNat < S128x128.size a)
instance k0_chk51.dec : ∀ (v62 : IVec S16 32) (v85 : IVec S16 32), Decidable (k0_chk51 v62 v85) := fun v62 v85 => decidable_of_iff' _ (Iff.of_eq (k0_chk51.eq_1 v62 v85))
theorem k0_idx51_inb : ∀ (v62 : IVec S16 32) (v85 : IVec S16 32) (k0_hw51 : k0_chk51 v62 v85), ∀ a x, ((![v62, v85] : Fin 2 → IVec S16 32) a x).toNat < S128x128.size a := fun v62 v85 k0_hw51 => k0_hw51

def k0_chk52 (v62 : IVec S16 32) (v88 : IVec S16 32) : Prop :=
  (∀ a x, ((![v62, v88] : Fin 2 → IVec S16 32) a x).toNat < S128x128.size a)
instance k0_chk52.dec : ∀ (v62 : IVec S16 32) (v88 : IVec S16 32), Decidable (k0_chk52 v62 v88) := fun v62 v88 => decidable_of_iff' _ (Iff.of_eq (k0_chk52.eq_1 v62 v88))
theorem k0_idx52_inb : ∀ (v62 : IVec S16 32) (v88 : IVec S16 32) (k0_hw52 : k0_chk52 v62 v88), ∀ a x, ((![v62, v88] : Fin 2 → IVec S16 32) a x).toNat < S128x128.size a := fun v62 v88 k0_hw52 => k0_hw52

def k0_chk53 (v62 : IVec S16 32) (v96 : IVec S16 32) : Prop :=
  (∀ a x, ((![v62, v96] : Fin 2 → IVec S16 32) a x).toNat < S128x128.size a)
instance k0_chk53.dec : ∀ (v62 : IVec S16 32) (v96 : IVec S16 32), Decidable (k0_chk53 v62 v96) := fun v62 v96 => decidable_of_iff' _ (Iff.of_eq (k0_chk53.eq_1 v62 v96))
theorem k0_idx53_inb : ∀ (v62 : IVec S16 32) (v96 : IVec S16 32) (k0_hw53 : k0_chk53 v62 v96), ∀ a x, ((![v62, v96] : Fin 2 → IVec S16 32) a x).toNat < S128x128.size a := fun v62 v96 k0_hw53 => k0_hw53

def k0_chk54 (v62 : IVec S16 32) (v99 : IVec S16 32) : Prop :=
  (∀ a x, ((![v62, v99] : Fin 2 → IVec S16 32) a x).toNat < S128x128.size a)
instance k0_chk54.dec : ∀ (v62 : IVec S16 32) (v99 : IVec S16 32), Decidable (k0_chk54 v62 v99) := fun v62 v99 => decidable_of_iff' _ (Iff.of_eq (k0_chk54.eq_1 v62 v99))
theorem k0_idx54_inb : ∀ (v62 : IVec S16 32) (v99 : IVec S16 32) (k0_hw54 : k0_chk54 v62 v99), ∀ a x, ((![v62, v99] : Fin 2 → IVec S16 32) a x).toNat < S128x128.size a := fun v62 v99 k0_hw54 => k0_hw54

def k0_chk55 (v62 : IVec S16 32) (v107 : IVec S16 32) : Prop :=
  (∀ a x, ((![v62, v107] : Fin 2 → IVec S16 32) a x).toNat < S128x128.size a)
instance k0_chk55.dec : ∀ (v62 : IVec S16 32) (v107 : IVec S16 32), Decidable (k0_chk55 v62 v107) := fun v62 v107 => decidable_of_iff' _ (Iff.of_eq (k0_chk55.eq_1 v62 v107))
theorem k0_idx55_inb : ∀ (v62 : IVec S16 32) (v107 : IVec S16 32) (k0_hw55 : k0_chk55 v62 v107), ∀ a x, ((![v62, v107] : Fin 2 → IVec S16 32) a x).toNat < S128x128.size a := fun v62 v107 k0_hw55 => k0_hw55

def k0_chk56 (v62 : IVec S16 32) (v110 : IVec S16 32) : Prop :=
  (∀ a x, ((![v62, v110] : Fin 2 → IVec S16 32) a x).toNat < S128x128.size a)
instance k0_chk56.dec : ∀ (v62 : IVec S16 32) (v110 : IVec S16 32), Decidable (k0_chk56 v62 v110) := fun v62 v110 => decidable_of_iff' _ (Iff.of_eq (k0_chk56.eq_1 v62 v110))
theorem k0_idx56_inb : ∀ (v62 : IVec S16 32) (v110 : IVec S16 32) (k0_hw56 : k0_chk56 v62 v110), ∀ a x, ((![v62, v110] : Fin 2 → IVec S16 32) a x).toNat < S128x128.size a := fun v62 v110 k0_hw56 => k0_hw56

def k0_chk57 (v62 : IVec S16 32) (v118 : IVec S16 32) : Prop :=
  (∀ a x, ((![v62, v118] : Fin 2 → IVec S16 32) a x).toNat < S128x128.size a)
instance k0_chk57.dec : ∀ (v62 : IVec S16 32) (v118 : IVec S16 32), Decidable (k0_chk57 v62 v118) := fun v62 v118 => decidable_of_iff' _ (Iff.of_eq (k0_chk57.eq_1 v62 v118))
theorem k0_idx57_inb : ∀ (v62 : IVec S16 32) (v118 : IVec S16 32) (k0_hw57 : k0_chk57 v62 v118), ∀ a x, ((![v62, v118] : Fin 2 → IVec S16 32) a x).toNat < S128x128.size a := fun v62 v118 k0_hw57 => k0_hw57

def k0_chk58 (v62 : IVec S16 32) (v121 : IVec S16 32) : Prop :=
  (∀ a x, ((![v62, v121] : Fin 2 → IVec S16 32) a x).toNat < S128x128.size a)
instance k0_chk58.dec : ∀ (v62 : IVec S16 32) (v121 : IVec S16 32), Decidable (k0_chk58 v62 v121) := fun v62 v121 => decidable_of_iff' _ (Iff.of_eq (k0_chk58.eq_1 v62 v121))
theorem k0_idx58_inb : ∀ (v62 : IVec S16 32) (v121 : IVec S16 32) (k0_hw58 : k0_chk58 v62 v121), ∀ a x, ((![v62, v121] : Fin 2 → IVec S16 32) a x).toNat < S128x128.size a := fun v62 v121 k0_hw58 => k0_hw58

def k0_chk59 (v62 : IVec S16 32) (v129 : IVec S16 32) : Prop :=
  (∀ a x, ((![v62, v129] : Fin 2 → IVec S16 32) a x).toNat < S128x128.size a)
instance k0_chk59.dec : ∀ (v62 : IVec S16 32) (v129 : IVec S16 32), Decidable (k0_chk59 v62 v129) := fun v62 v129 => decidable_of_iff' _ (Iff.of_eq (k0_chk59.eq_1 v62 v129))
theorem k0_idx59_inb : ∀ (v62 : IVec S16 32) (v129 : IVec S16 32) (k0_hw59 : k0_chk59 v62 v129), ∀ a x, ((![v62, v129] : Fin 2 → IVec S16 32) a x).toNat < S128x128.size a := fun v62 v129 k0_hw59 => k0_hw59

def k0_chk60 (v62 : IVec S16 32) (v132 : IVec S16 32) : Prop :=
  (∀ a x, ((![v62, v132] : Fin 2 → IVec S16 32) a x).toNat < S128x128.size a)
instance k0_chk60.dec : ∀ (v62 : IVec S16 32) (v132 : IVec S16 32), Decidable (k0_chk60 v62 v132) := fun v62 v132 => decidable_of_iff' _ (Iff.of_eq (k0_chk60.eq_1 v62 v132))
theorem k0_idx60_inb : ∀ (v62 : IVec S16 32) (v132 : IVec S16 32) (k0_hw60 : k0_chk60 v62 v132), ∀ a x, ((![v62, v132] : Fin 2 → IVec S16 32) a x).toNat < S128x128.size a := fun v62 v132 k0_hw60 => k0_hw60

def k0_chk61 (v62 : IVec S16 32) (v140 : IVec S16 32) : Prop :=
  (∀ a x, ((![v62, v140] : Fin 2 → IVec S16 32) a x).toNat < S128x128.size a)
instance k0_chk61.dec : ∀ (v62 : IVec S16 32) (v140 : IVec S16 32), Decidable (k0_chk61 v62 v140) := fun v62 v140 => decidable_of_iff' _ (Iff.of_eq (k0_chk61.eq_1 v62 v140))
theorem k0_idx61_inb : ∀ (v62 : IVec S16 32) (v140 : IVec S16 32) (k0_hw61 : k0_chk61 v62 v140), ∀ a x, ((![v62, v140] : Fin 2 → IVec S16 32) a x).toNat < S128x128.size a := fun v62 v140 k0_hw61 => k0_hw61

def k0_chk62 (v62 : IVec S16 32) (v143 : IVec S16 32) : Prop :=
  (∀ a x, ((![v62, v143] : Fin 2 → IVec S16 32) a x).toNat < S128x128.size a)
instance k0_chk62.dec : ∀ (v62 : IVec S16 32) (v143 : IVec S16 32), Decidable (k0_chk62 v62 v143) := fun v62 v143 => decidable_of_iff' _ (Iff.of_eq (k0_chk62.eq_1 v62 v143))
theorem k0_idx62_inb : ∀ (v62 : IVec S16 32) (v143 : IVec S16 32) (k0_hw62 : k0_chk62 v62 v143), ∀ a x, ((![v62, v143] : Fin 2 → IVec S16 32) a x).toNat < S128x128.size a := fun v62 v143 k0_hw62 => k0_hw62

def k0_chk63 (v62 : IVec S16 32) (v151 : IVec S16 32) : Prop :=
  (∀ a x, ((![v62, v151] : Fin 2 → IVec S16 32) a x).toNat < S128x128.size a)
instance k0_chk63.dec : ∀ (v62 : IVec S16 32) (v151 : IVec S16 32), Decidable (k0_chk63 v62 v151) := fun v62 v151 => decidable_of_iff' _ (Iff.of_eq (k0_chk63.eq_1 v62 v151))
theorem k0_idx63_inb : ∀ (v62 : IVec S16 32) (v151 : IVec S16 32) (k0_hw63 : k0_chk63 v62 v151), ∀ a x, ((![v62, v151] : Fin 2 → IVec S16 32) a x).toNat < S128x128.size a := fun v62 v151 k0_hw63 => k0_hw63

def k0_chk64 (v62 : IVec S16 32) (v154 : IVec S16 32) : Prop :=
  (∀ a x, ((![v62, v154] : Fin 2 → IVec S16 32) a x).toNat < S128x128.size a)
instance k0_chk64.dec : ∀ (v62 : IVec S16 32) (v154 : IVec S16 32), Decidable (k0_chk64 v62 v154) := fun v62 v154 => decidable_of_iff' _ (Iff.of_eq (k0_chk64.eq_1 v62 v154))
theorem k0_idx64_inb : ∀ (v62 : IVec S16 32) (v154 : IVec S16 32) (k0_hw64 : k0_chk64 v62 v154), ∀ a x, ((![v62, v154] : Fin 2 → IVec S16 32) a x).toNat < S128x128.size a := fun v62 v154 k0_hw64 => k0_hw64
def k0_off5 (k0_t7 : Fin k0_t7_loop.trips) : Fin 1 → Nat :=
  let c384_i32_94 : BitVec 32 := 384#32
  let c0_i32_85 : BitVec 32 := 0#32
  let c1_i32_87 : BitVec 32 := 1#32
  let arg13 : BitVec 32 := Scf.iv c0_i32_85 c1_i32_87 k0_t7
  let c16_i32_93 : BitVec 32 := 16#32
  let v66 : BitVec 32 := Scalar.muli arg13 c16_i32_93
  let v67 : BitVec 32 := Scalar.addi c384_i32_94 v66
  let v68 : Index := Scalar.indexCast v67
  ![v68.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  concatenates_S1000000x64_S1000000x64_S1000000x128_d1 : Shape.Concatenates [S1000000x64, S1000000x64] S1000000x128 1
  inb_S4x128_S1x128_0_0 : ∀ a, (![0, 0] : Fin 2 → Nat) a + S1x128.size a ≤ S4x128.size a
  squeezes_S1x128_S128 : S1x128.Squeezes S128
  inb_S1000000x128_S1000000x128_0_0 : ∀ a, (![0, 0] : Fin 2 → Nat) a + S1000000x128.size a ≤ S1000000x128.size a
  gathers_S1000000x128_S128x128 : S1000000x128.Gathers 0 S128x128
  iota_S16_d0_w32_scVector : S16.Iotas .scVector 32 [0]
  h_S128x128 : 0 < S128x128.numel
  h_S16 : 0 < S16.numel
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  hcc0_scratch5 : 0 + S_.numel ≤ 11
  hcc0_scratch6 : 1 + S_.numel ≤ 11
  hcc0_scoped0 : 2 + S_.numel ≤ 11
  hcc0_scoped1 : 3 + S_.numel ≤ 11
  hcc0_scoped2 : 4 + S_.numel ≤ 11
  hcc0_scoped3 : 5 + S_.numel ≤ 11
  hcc0_scoped4 : 6 + S_.numel ≤ 11
  hcc0_scoped5 : 7 + S_.numel ≤ 11
  hcc0_scoped6 : 8 + S_.numel ≤ 11
  hcc0_scoped7 : 9 + S_.numel ≤ 11
  hcc0_scoped8 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (128 * r.val))) a + S128.size a ≤ S16384.size a
  k0_t1_ok : k0_t1_loop.OK
  k0_t2_ok : k0_t2_loop.OK
  k0_off2_inb : ∀ k0_t1 : Fin k0_t1_loop.trips, ∀ a, (k0_off2 k0_t1) a + S16.size a ≤ S512.size a
  k0_t3_ok : k0_t3_loop.OK
  k0_t4_ok : k0_t4_loop.OK
  k0_off3_inb : ∀ k0_t3 : Fin k0_t3_loop.trips, ∀ a, (k0_off3 k0_t3) a + S16.size a ≤ S512.size a
  k0_t5_ok : k0_t5_loop.OK
  k0_t6_ok : k0_t6_loop.OK
  k0_off4_inb : ∀ k0_t5 : Fin k0_t5_loop.trips, ∀ a, (k0_off4 k0_t5) a + S16.size a ≤ S512.size a
  k0_t7_ok : k0_t7_loop.OK
  k0_t8_ok : k0_t8_loop.OK
  k0_off5_inb : ∀ k0_t7 : Fin k0_t7_loop.trips, ∀ a, (k0_off5 k0_t7) a + S16.size a ≤ S512.size a
  k0_off6_inb : ∀ i : grid0.Coords, ∀ a, (k0_off6 i) a + S512.size a ≤ S16384.size a

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
abbrev cc0_scoped6 : DmaSems sig S_ := SemArray.consecutive 8 S_ hcc0_scoped6
abbrev cc0_scoped7 : DmaSems sig S_ := SemArray.consecutive 9 S_ hcc0_scoped7
abbrev cc0_scoped8 : DmaSems sig S_ := SemArray.consecutive 10 S_ hcc0_scoped8

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 53
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x64, .f32⟩
  | .hbm, ⟨46, _⟩ => ⟨S16384x64, .i1⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16384x64, .f32⟩
  | .hbm, ⟨51, _⟩ => ⟨S_, .f32⟩
  | .hbm, ⟨52, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.DotSpec.lean ====
/-
  The function both programs compute, stated once over literal shapes and importing no program: for every pair `j` of
  the batch, the inner product over the 64 embedding coordinates of the user table's row named by `users j` and the
  item table's row named by `items j`. A 32-bit word names a row through `rowOf`; a word below the number of rows names
  itself, and only such words occur under the precondition.
-/
import Idealize.ShloMosaic.PureOps.Ideal
import Idealize.ShloMosaic.Lib.ValueIdx

noncomputable section

open scoped BigOperators

namespace Cert.DotSpec

open Idealize.ShloMosaic Idealize.ShloMosaic.ValueIdx

/-- The batch and a table, as literal shapes. -/
abbrev SB : Shape := ⟨1, ![16384]⟩
abbrev ST : Shape := ⟨2, ![1000000, 64]⟩

/-- The row of a table that a 32-bit word names. -/
def rowOf (w : BitVec 32) : Fin 1000000 := ⟨w.toNat % 1000000, Nat.mod_lt _ (by norm_num)⟩

theorem rowOf_val_of_lt {w : BitVec 32} (h : w.toNat < 1000000) : (rowOf w).val = w.toNat := Nat.mod_eq_of_lt h

/-- Pair `j`'s score: the sum over the embedding coordinate `d` of (user row)·(item row). -/
def G (users items : IVec SB 32) (ut it : FVec Ideal ST .f32) : FVec Ideal SB .f32 :=
  fun j => ∑ d : Fin 64, ut (ix2 (rowOf (users j)) d) * it (ix2 (rowOf (items j)) d)

/-- What the precondition says of an index array, in a form neutral between the programs: every word names a row. -/
def InRange (idx : IVec SB 32) : Prop := ∀ j, (idx j).toNat < 1000000

end Cert.DotSpec

end
-- ==== Proof.PreRange.lean ====
/-
  The precondition's value is a one-bit word: the conjunction of four "for all" tests, two over the float tables (every
  entry has finite magnitude) and two over the index arrays (every word w has 0 ≤ w and w ≤ 999999, both read signed).
  Where that value is 1, each conjunct is 1; a conjunction over all elements that is 1 had a 1 at every element; and a
  32-bit word that reads signed in [0, 999999] reads unsigned below 1000000, so it names a row of a 1000000-row table.
  The float conjuncts are split off and never opened, so the statement holds at every float instance.
-/
import proofs.«203366_g62191126446181_cont_9to1c4b_889_14_alg».proof.Pre_input_domain
import proofs.«203366_g62191126446181_cont_9to1c4b_889_14_alg».proof.Proof.DotSpec
import Idealize.ShloMosaic.Lib.ReduceAll
import Idealize.ShloMosaic.Lib.ValueIdx

namespace Cert.PreRange

open Idealize.ShloMosaic Idealize.ShloMosaic.ValueIdx

/-- The rank-0 shape has exactly one index. -/
instance : Subsingleton Cert.Pre_input_domain.S_.Idx := ⟨fun a b => funext fun d => d.elim0⟩

/-- A 32-bit word w with 0 ≤ w ≤ 999999 as a signed integer satisfies w < 1000000 as a natural number: a nonnegative
    signed reading has the top bit clear, and then the signed and unsigned readings coincide. -/
theorem toNat_lt_of_signed_range (w : BitVec 32) (h0 : IntOp.cmpi .sge w 0#32 = 1#1)
    (h1 : IntOp.cmpi .sle w 999999#32 = 1#1) : w.toNat < 1000000 := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  have hc := BitVec.toInt_eq_toNat_cond w
  split at hc <;> omega

variable {F : FTy → Type} [FloatOps F] [Cert.Pre_input_domain.Facts]

/-- Where the precondition's value is all ones, every word of both index arrays names a row of its table. -/
theorem inRange_of_pre (users items : IVec Cert.Pre_input_domain.S16384 32)
    (ut it : FVec F Cert.Pre_input_domain.S1000000x64 .f32)
    (h : Cert.Pre_input_domain.fn (F := F) users items ut it = fun _ => 1#1) :
    Cert.DotSpec.InRange users ∧ Cert.DotSpec.InRange items := by
  -- the value at its one index, as the nested conjunction ((finite user_table ∧ finite item_table) ∧ users ok) ∧ items ok
  have e := congrFun h ix0
  dsimp only [Cert.Pre_input_domain.fn, Cert.Pre_input_domain.fn_part1] at e
  obtain ⟨e15, eI⟩ := IntOp.andi_eq_one.1 e
  obtain ⟨-, eU⟩ := IntOp.andi_eq_one.1 e15
  refine ⟨?_, ?_⟩ <;> intro j
  · -- element j of the users test: (users j ≥ 0) ∧ (users j ≤ 999999), the constants broadcast from scalars
    obtain ⟨h0, h1⟩ := IntOp.andi_eq_one.1 (Host.reduce_andi_all _ _ _ _ _ eU j)
    exact toNat_lt_of_signed_range (users j) h0 h1
  · -- element j of the items test, the same
    obtain ⟨h0, h1⟩ := IntOp.andi_eq_one.1 (Host.reduce_andi_all _ _ _ _ _ eI j)
    exact toNat_lt_of_signed_range (items j) h0 h1

end Cert.PreRange
-- ==== Proof.KOut.lean ====
/-
  What the kernel leaves in its result array, as ONE function of the index arrays and of the concatenated table
  `cat = [user_table | item_table]` (128 columns), for any float instance: pair `j`'s entry is the running sum,
  started from the zero word and extended one product at a time in the order d = 0, 1, …, 63, of
  `cat[users j, d] · cat[items j, d + 64]`.
-/
import Idealize.ShloMosaic.PureOps
import Idealize.ShloMosaic.Lib.ValueIdx
import proofs.«203366_g62191126446181_cont_9to1c4b_889_14_alg».proof.Proof.DotSpec

noncomputable section

namespace Cert.KOut

open Idealize.ShloMosaic Idealize.ShloMosaic.ValueIdx Cert.DotSpec

variable {F : FTy → Type} [FloatOps F]

/-- The concatenated table's shape. -/
abbrev SC : Shape := ⟨2, ![1000000, 128]⟩

/-- Column `d` of the user half, and of the item half, of a concatenated row. -/
def colU (d : ℕ) : Fin 128 := ⟨d % 128, Nat.mod_lt _ (by norm_num)⟩
def colV (d : ℕ) : Fin 128 := ⟨(d + 64) % 128, Nat.mod_lt _ (by norm_num)⟩

/-- The running sum after `n` products, from the zero word. -/
def dotAcc (u v : ℕ → F .f32) : ℕ → F .f32
  | 0 => Scalar.ofBits .f32 0x00000000#32
  | n + 1 => FloatOps.addf (dotAcc u v n) (FloatOps.mulf (u n) (v n))

/-- The result array. -/
def OUT (users items : IVec SB 32) (cat : FVec F SC .f32) : FVec F SB .f32 :=
  fun j => dotAcc (fun d => cat (ix2 (rowOf (users j)) (colU d))) (fun d => cat (ix2 (rowOf (items j)) (colV d))) 64

end Cert.KOut

end
-- ==== Proof.KOutValue.lean ====
/-
  The concatenated table [user_table | item_table] has 128 columns: column c of row r is user_table[r, c] for c < 64
  and item_table[r, c - 64] for 64 ≤ c. So the column the running sum reads for the user half at step d < 64, d itself,
  holds user_table[r, d], and the column it reads for the item half, d + 64, holds item_table[r, d].
  Over the extended reals the float addition and multiplication are + and *, and the zero word is 0; extended reals
  under + form a commutative monoid, so the running sum s₀ = 0, sₙ₊₁ = sₙ + uₙ·vₙ is the finite sum Σ_{d<n} u_d·v_d with
  no finiteness hypothesis. At n = 64 and the two columns read as above this is the specification's inner product.
-/
import proofs.«203366_g62191126446181_cont_9to1c4b_889_14_alg».proof.KernelIdeal
import proofs.«203366_g62191126446181_cont_9to1c4b_889_14_alg».proof.Proof.KOut
import proofs.«203366_g62191126446181_cont_9to1c4b_889_14_alg».proof.Proof.DotSpec
import Idealize.ShloMosaic.Lib.Pipeline.Value
import Idealize.ShloMosaic.Lib.ValueIdx
import Idealize.ShloMosaic.PureOps.Ideal.Laws

open scoped BigOperators

namespace Cert.KOutValue

open Idealize.ShloMosaic Idealize.ShloMosaic.ValueIdx Cert.KernelIdeal

variable [Cert.KernelIdeal.Facts]

section Columns

variable {F : FTy → Type} [FloatOps F]

/-- A column d < 64 of the concatenation lies in the first piece: it holds the user table's entry at column d. -/
theorem cat_left (ut it : FVec F S1000000x64 .f32) (r : Fin 1000000) (d : Fin 64) :
    concatenate S1000000x128 1 [⟨S1000000x64, ut⟩, ⟨S1000000x64, it⟩]
        Facts₀.concatenates_S1000000x64_S1000000x64_S1000000x128_d1 (ix2 r ⟨d.val, by omega⟩) = ut (ix2 r d) :=
  concatenate_pair_apply_left (t := S1000000x128) 1 ut it _ (ix2 r ⟨d.val, by omega⟩) rfl (ix2 r d) fun b =>
    match b with
    | ⟨0, _⟩ => rfl
    | ⟨1, _⟩ => rfl

/-- A column d + 64, d < 64, lies in the second piece, 64 columns in: it holds the item table's entry at column d. -/
theorem cat_right (ut it : FVec F S1000000x64 .f32) (r : Fin 1000000) (d : Fin 64) :
    concatenate S1000000x128 1 [⟨S1000000x64, ut⟩, ⟨S1000000x64, it⟩]
        Facts₀.concatenates_S1000000x64_S1000000x64_S1000000x128_d1 (ix2 r ⟨d.val + 64, by omega⟩) = it (ix2 r d) :=
  concatenate_pair_apply_right (t := S1000000x128) 1 ut it _ (ix2 r ⟨d.val + 64, by omega⟩) rfl rfl (ix2 r d)
    (fun b hb =>
      match b, hb with
      | ⟨0, _⟩, _ => rfl
      | ⟨1, _⟩, hb => absurd rfl hb)
    rfl

end Columns

/-- Over the extended reals, the running sum from the zero word after n products is the sum of the first n products. -/
theorem dotAcc_eq_sum (u v : ℕ → Ideal .f32) (n : ℕ) :
    Cert.KOut.dotAcc (F := Ideal) u v n = ∑ d ∈ Finset.range n, u d * v d := by
  induction n with
  | zero =>
    rw [Finset.sum_range_zero]
    exact Ideal.ofBits_zero_f32
  | succ n ih =>
    rw [Finset.sum_range_succ, ← ih]
    rfl

/-- Over the extended reals, with the concatenation [user_table | item_table] as its table, the result array is the
    specification: pair j's entry is Σ_{d<64} user_table[users j, d] · item_table[items j, d]. -/
theorem OUT_eq_G (users items : IVec Cert.DotSpec.SB 32) (ut it : FVec Ideal S1000000x64 .f32) :
    Cert.KOut.OUT (F := Ideal) users items
        (concatenate S1000000x128 1 [⟨S1000000x64, ut⟩, ⟨S1000000x64, it⟩]
          Facts₀.concatenates_S1000000x64_S1000000x64_S1000000x128_d1)
      = Cert.DotSpec.G users items ut it := by
  funext j
  unfold Cert.KOut.OUT Cert.DotSpec.G
  rw [dotAcc_eq_sum, Finset.sum_range]
  refine Finset.sum_congr rfl fun d _ => ?_
  -- below 64 the two column maps do not wrap: they are d and d + 64
  have hU : Cert.KOut.colU d.val = ⟨d.val, by omega⟩ := Fin.ext (Nat.mod_eq_of_lt (by omega))
  have hV : Cert.KOut.colV d.val = ⟨d.val + 64, by omega⟩ := Fin.ext (Nat.mod_eq_of_lt (by omega))
  rw [hU, hV, cat_left, cat_right]

end Cert.KOutValue
-- ==== Proof.KISetup.lean ====
/-
  The idealized kernel as the launch theorem sees it: the one SparseCore call (a vector-subcore kernel on 2 SparseCores of
  16 tiles each), the body table, the variants, the call's stated facts, and the resource algebra — the handshakes' rounds
  beside the local transfers' counters. Generic in the float instance.
-/
import proofs.«203366_g62191126446181_cont_9to1c4b_889_14_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203366_g62191126446181_cont_9to1c4b_889_14_alg».proof.Proof.Gen.KernelIdeal
import proofs.«203366_g62191126446181_cont_9to1c4b_889_14_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library beside the transfers' counters. -/
abbrev UH : Type := URounds (GSem nD τ sig) ℕ
abbrev UU : Type := UH × Counters

/-- The model of assertions. -/
abbrev MM (F : FTy → Type) : Type := MT nD τ sig (HIx 1) (Elt F) ℕ UU ℕ

abbrev EH : Emb UH (MT nD τ sig (HIx 1) (Elt F) ℕ UU ℕ) := embL

end Cert.Proof.KI

end
-- ==== Proof.KITile.lean ====
/-
  A tile of the idealized kernel and what the launch hands it of its own: eleven transfer semaphores at zero and five
  scratch buffers (two index lists [4,128], two row buffers [128,128], the tile's 512 results).
-/
import proofs.«203366_g62191126446181_cont_9to1c4b_889_14_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile and what it owns -/

abbrev cV (L : grid0.Coords) : Fin τ.nSC := (L 0).castLE hcore0
abbrev jV (L : grid0.Coords) : Fin τ.nSub := (L 1).castLE hsub0
/-- The thread of tile `L` of device `d`. -/
abbrev thr (d : Dev nD) (L : grid0.Coords) : Thread nD τ := V d (cV L) (jV L)

theorem cell_ne {t : Thread nD τ} {a b : DmaSem sig} (h : a ≠ b) : ((t, SemLoc.dma a) : GSem nD τ sig) ≠ (t, SemLoc.dma b) :=
  fun e => h (by injection e with _ e2; injection e2)

section Own
variable (d : Dev nD) (L : grid0.Coords)

/-- The tile's eleven transfer semaphores, each at zero, and the rest of its scoped cells. -/
theorem ownSems0_V :
    (ownSems0 (thr d L) : sProp 𝕄)
      = iprop(semVal (thr d L, SemLoc.dma cc0_scratch5.sem) 0 ∗ semVal (thr d L, SemLoc.dma cc0_scratch6.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0
          ∗ bigSep ((((((((((((ownCells (thr d L)).erase (thr d L, SemLoc.dma cc0_scratch5.sem)).erase (thr d L, SemLoc.dma cc0_scratch6.sem)).erase (thr d L, SemLoc.dma cc0_scoped0.sem)).erase (thr d L, SemLoc.dma cc0_scoped1.sem)).erase (thr d L, SemLoc.dma cc0_scoped2.sem)).erase (thr d L, SemLoc.dma cc0_scoped3.sem)).erase (thr d L, SemLoc.dma cc0_scoped4.sem)).erase (thr d L, SemLoc.dma cc0_scoped5.sem)).erase (thr d L, SemLoc.dma cc0_scoped6.sem)).erase (thr d L, SemLoc.dma cc0_scoped7.sem)).erase (thr d L, SemLoc.dma cc0_scoped8.sem)) fun g => semVal g 0) := by
  unfold SparseCore.Cfg.ownSems0
  rw [SparseCore.bigSep_erase' ((mem_ownCells (g := (thr d L, SemLoc.dma cc0_scratch5.sem))).mpr ⟨rfl, by show (SemLoc.dma cc0_scratch5.sem : SemLoc sig).isScoped .scVector = true; decide⟩),
    SparseCore.bigSep_erase' (Finset.mem_erase.mpr ⟨cell_ne (by decide), (mem_ownCells (g := (thr d L, SemLoc.dma cc0_scratch6.sem))).mpr ⟨rfl, by show (SemLoc.dma cc0_scratch6.sem : SemLoc sig).isScoped .scVector = true; decide⟩⟩),
    SparseCore.bigSep_erase' (Finset.mem_erase.mpr ⟨cell_ne (by decide), Finset.mem_erase.mpr ⟨cell_ne (by decide), (mem_ownCells (g := (thr d L, SemLoc.dma cc0_scoped0.sem))).mpr ⟨rfl, by show (SemLoc.dma cc0_scoped0.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := (thr d L, SemLoc.dma cc0_scoped1.sem))).mpr ⟨rfl, by show (SemLoc.dma cc0_scoped1.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped2.sem))).mpr ⟨rfl, by show (SemLoc.dma cc0_scoped2.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped3.sem))).mpr ⟨rfl, by show (SemLoc.dma cc0_scoped3.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped4.sem))).mpr ⟨rfl, by show (SemLoc.dma cc0_scoped4.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped5.sem))).mpr ⟨rfl, by show (SemLoc.dma cc0_scoped5.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped6.sem))).mpr ⟨rfl, by show (SemLoc.dma cc0_scoped6.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped7.sem))).mpr ⟨rfl, by show (SemLoc.dma cc0_scoped7.sem : SemLoc sig).isScoped .scVector = true; decide⟩⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped8.sem))).mpr ⟨rfl, by show (SemLoc.dma cc0_scoped8.sem : SemLoc sig).isScoped .scVector = true; decide⟩⟩⟩⟩⟩⟩⟩⟩⟩⟩⟩)]

/-- The tile's five scratch buffers, each at some contents, and the rest of its own buffers. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

end Own

end Cert.Proof.KI

end
-- ==== Proof.KIIface.lean ====
/-
  The interface between a tile's task and the launch: the arrays, each tile's number, read share and 512 entries of the
  result array, the concatenated table and the result array as pure functions of the launch memory, and what a tile is
  handed and hands back.
-/
import proofs.«203366_g62191126446181_cont_9to1c4b_889_14_alg».proof.Proof.KITile
import proofs.«203366_g62191126446181_cont_9to1c4b_889_14_alg».proof.Proof.KOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

variable (m : (ℓ : Loc nD τ sig) → Buf (Elt F) ℓ)

/-! ## Tiles by number -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's number among the 32: it works on entries `[512·w, 512·w + 512)` of the batch. -/
def wL (L : grid0.Coords) : Fin 32 :=
  ⟨2 * (L 1).val + (L 0).val, by have h0 : (L 0).val < 2 := (L 0).isLt; have h1 : (L 1).val < 16 := (L 1).isLt; omega⟩

/-! ## Shares: the full share halved five times, one leaf per tile -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Tile `w`'s read share of an array every tile reads. -/
abbrev qsh (w : Fin 32) : PosShare TreeShare := leaf 5 fullShare w

/-! ## The arrays -/

abbrev uLoc (d : Dev nD) : Loc nD τ sig := (SparseCore.T d).loc main_arg0
abbrev iLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev cLoc (d : Dev nD) : Loc nD τ sig := (SparseCore.T d).loc main_v0
abbrev oLoc (d : Dev nD) : Loc nD τ sig := (SparseCore.T d).loc main_v1

/-- The tile's 512 entries of the result array, as the body slices them. -/
abbrev oSl (L : grid0.Coords) : Memref sig .scVector .hbm S512 .f32 :=
  (oW).slice (Rect.unit (s := S16384) (k0_off6 L) S512.size (k0_off6_inb L)) (fun _ => rfl)
/-- Their index set. -/
def oSet (L : grid0.Coords) : Finset S16384.Idx := (oSl L).view.set

variable [FloatOps F]

/-- The concatenated table `[user_table | item_table]` the host builds before the call. -/
def CAT (d : Dev nD) : Buf (Elt F) (cLoc d) :=
  concatenate S1000000x128 1 [⟨S1000000x64, m (utLoc d)⟩, ⟨S1000000x64, m (itLoc d)⟩] concatenates_S1000000x64_S1000000x64_S1000000x128_d1

/-- The result array the kernel leaves. -/
def OUTm (d : Dev nD) : Buf (Elt F) (oLoc d) := Cert.KOut.OUT (m (uLoc d)) (m (iLoc d)) (CAT m d)

/-- What a tile is handed: read shares of the two index arrays and of the concatenated table, and its own 512 entries of
    the result array; -/
def tilePre (d : Dev nD) (L : grid0.Coords) : sProp 𝕄 :=
  iprop((uLoc d ↦{qsh (wL L)} m (uLoc d)) ∗ (iLoc d ↦{qsh (wL L)} m (iLoc d)) ∗ (cLoc d ↦{qsh (wL L)} CAT m d)
    ∗ (oLoc d ↦[oSet L]{fullShare} m (oLoc d)))
/-- and what it hands back: the same, its entries of the result array now the scores. -/
def tilePost (d : Dev nD) (L : grid0.Coords) : sProp 𝕄 :=
  iprop((uLoc d ↦{qsh (wL L)} m (uLoc d)) ∗ (iLoc d ↦{qsh (wL L)} m (iLoc d)) ∗ (cLoc d ↦{qsh (wL L)} CAT m d)
    ∗ (oLoc d ↦[oSet L]{fullShare} OUTm m d))

omit [FloatOps F] in
instance tilePre_storable [FloatOps F] (d : Dev nD) (L : grid0.Coords) : BI.Storable (upEmb : UEmb _ 𝕄) (tilePre m d L) := by
  unfold tilePre; infer_instance
omit [FloatOps F] in
instance tilePost_storable [FloatOps F] (d : Dev nD) (L : grid0.Coords) : BI.Storable (upEmb : UEmb _ 𝕄) (tilePost m d L) := by
  unfold tilePost; infer_instance

/-! ## The arrays and scratch buffers as the tile's memrefs address them -/

section Pts
variable (d : Dev nD) (L : grid0.Coords)
omit [FloatOps F] in
theorem pts_uW (q : PosShare TreeShare) (f : Buf (Elt F) (uLoc d)) : ((uW).view.loc (thr d L) ↦{q} f : sProp 𝕄) = uLoc d ↦{q} f := rfl
omit [FloatOps F] in
theorem pts_iW (q : PosShare TreeShare) (f : Buf (Elt F) (iLoc d)) : ((iW).view.loc (thr d L) ↦{q} f : sProp 𝕄) = iLoc d ↦{q} f := rfl
omit [FloatOps F] in
theorem pts_cW (q : PosShare TreeShare) (f : Buf (Elt F) (cLoc d)) : ((cW).view.loc (thr d L) ↦{q} f : sProp 𝕄) = cLoc d ↦{q} f := rfl
omit [FloatOps F] in
theorem pts_oSl (f : Buf (Elt F) (oLoc d)) :
    ((oSl L).view.loc (thr d L) ↦[(oSl L).view.set]{fullShare} f : sProp 𝕄) = oLoc d ↦[oSet L]{fullShare} f := rfl
omit [FloatOps F] in
theorem pts_b0 (f : Buf (Elt F) ((thr d L).loc cc0_scratch0)) : ((b0).view.loc (thr d L) ↦{fullShare} f : sProp 𝕄) = (thr d L).loc cc0_scratch0 ↦{fullShare} f := rfl
omit [FloatOps F] in
theorem pts_b1 (f : Buf (Elt F) ((thr d L).loc cc0_scratch1)) : ((b1).view.loc (thr d L) ↦{fullShare} f : sProp 𝕄) = (thr d L).loc cc0_scratch1 ↦{fullShare} f := rfl
omit [FloatOps F] in
theorem pts_b2 (f : Buf (Elt F) ((thr d L).loc cc0_scratch2)) : ((b2).view.loc (thr d L) ↦{fullShare} f : sProp 𝕄) = (thr d L).loc cc0_scratch2 ↦{fullShare} f := rfl
omit [FloatOps F] in
theorem pts_b3 (f : Buf (Elt F) ((thr d L).loc cc0_scratch3)) : ((b3).view.loc (thr d L) ↦{fullShare} f : sProp 𝕄) = (thr d L).loc cc0_scratch3 ↦{fullShare} f := rfl
omit [FloatOps F] in
theorem pts_b4 (f : Buf (Elt F) ((thr d L).loc cc0_scratch4)) : ((b4).view.loc (thr d L) ↦{fullShare} f : sProp 𝕄) = (thr d L).loc cc0_scratch4 ↦{fullShare} f := rfl
end Pts

end Cert.Proof.KI

end
-- ==== Proof.RefRun.lean ====
/-
  The reference program's @main read as ONE straight line of host operations, and what that line computes.

  @main calls the table look-up `_take` twice (once per table) and `_take` calls `_where` once; a call executes the
  callee's body on the caller's operands, so unfolding the three definitions at their call sites leaves forty-nine
  elementwise, broadcast, reduce and gather operations in program order, each writing a buffer of its own. Running
  them in order from the launch contents leaves the result buffer at the composition of their functions applied to the
  four argument arrays: `refTerm`, written below in the stages the program itself has (the wrapped index, its column
  form, the in-range mask, one table look-up, then product and row sum). The arguments are written by no operation.
-/
import proofs.«203366_g62191126446181_cont_9to1c4b_889_14_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## What the line computes, stage by stage -/

/-- The index as `_take` first normalizes it: a word that is negative as a signed integer gets the row count added
    (Python's indexing from the end), any other word is kept. -/
def wrapIdx (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The normalized index as a column: one start index per batch element, the gather's operand. -/
def colIdx (idx : IVec S16384 32) : IVec S16384x1 32 :=
  broadcastInDim S16384x1 ![0] bcast_S16384_S16384x1_0 (wrapIdx idx)

/-- Per batch element, whether the normalized index is a row number: `0 ≤ i` and `i ≤ 999999` as signed integers,
    the conjunction folded over the column's single entry from `true`. -/
def inRangeMask (idx : IVec S16384 32) : IVec S16384 1 :=
  Host.reduce IntOp.andi
    (andi (cmpi .sge (colIdx idx) (broadcastInDim S16384x1 ![] bcast_S_S16384x1 (constantI S_ 32 0#32)))
      (cmpi .sle (colIdx idx)
        (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- One look-up: batch element `j`'s row of the table where the index is a row number, a row of quiet NaNs where it is
    not. -/
def takeTerm (tbl : FVec F S1000000x64 .f32) (idx : IVec S16384 32) : FVec F S16384x64 .f32 :=
  select (broadcastInDim S16384x64 ![0] bcast_S16384_S16384x64_0 (inRangeMask idx))
    (Host.gather gather_S1000000x64_S16384x1_S16384x64_1_0_n_n_0_1_164 tbl (colIdx idx))
    (broadcastInDim S16384x64 ![] bcast_S_S16384x64 (constant S_ .f32 0x7FC00000#32))

/-- The whole reference: the two look-ups multiplied coordinate by coordinate, each row summed from zero. -/
def refTerm (users items : IVec S16384 32) (ut it : FVec F S1000000x64 .f32) : FVec F S16384 .f32 :=
  Host.reduceAdd (mulf (takeTerm ut users) (takeTerm it items)) (constant S_ .f32 0x00000000#32)
    reducesTo_S16384x64_S16384_d1 h_S_

/-! ## The line -/

/-- @main's forty-nine operations in order, the calls unfolded: `_take` on the user table and the user indices is
    twenty-three (six to compare with zero and add the row count, `_where`'s one select, then the column form, the two
    range tests and their conjunction, its fold over the unit axis, the gather, the mask broadcast over the row, the
    NaN row, the select), the same on the item table and the item indices, then the product, the zero and the row sum. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S1000000x64_S16384x1_S16384x64_1_0_n_n_0_1_164 x i),
    TRef.unary main_call1.v12 main_call1.v14 (broadcastInDim S16384x64 ![0] bcast_S16384_S16384x64_0),
    TRef.nullary main_call1.cst (constant S_ .f32 0x7FC00000#32),
    TRef.unary main_call1.cst main_call1.v15 (broadcastInDim S16384x64 ![] bcast_S_S16384x64),
    TRef.ternary main_call1.v14 main_call1.v13 main_call1.v15 main_call1.v16 select,
    binary main_v0 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) ]

-- forty-nine sequencing steps re-associated to the right: one level of nesting per statement
set_option maxRecDepth 1024 in
/-- @main is that straight line: the functions' definitions unfolded at their calls and the records at their fields,
    both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub ..⟩

/-! ## The run -/

/-- What the line leaves in the result buffer, from any contents `V`: each operation's result read at its own buffer
    is its function of its operands' contents, and at every other buffer what was there; composed over the forty-nine,
    the stages of `refTerm` at the four argument buffers' contents. -/
theorem out_eq (V : Valuation τ sig (Elt F)) :
    after ops V (Proc.devRef .tc main_v3)
      = refTerm (V (Proc.devRef .tc main_arg0)) (V (Proc.devRef .tc main_arg1)) (V (Proc.devRef .tc main_arg2))
          (V (Proc.devRef .tc main_arg3)) := by
  after_results_simp
  -- a typed reference moves contents along the equation "the buffer's type is the value's type", which at a literal
  -- reference is an equation between one type and itself: each transport is the identity; what remains is the stages
  simp only [refTerm, takeTerm, inRangeMask, colIdx, wrapIdx, TRef.ofBuf, TRef.toBuf, cast_cast, cast_eq]

/-- No operation of the line writes an argument buffer. -/
theorem arg0_eq (V : Valuation τ sig (Elt F)) : after ops V (Proc.devRef .tc main_arg0) = V (Proc.devRef .tc main_arg0) := by
  after_results_simp
theorem arg1_eq (V : Valuation τ sig (Elt F)) : after ops V (Proc.devRef .tc main_arg1) = V (Proc.devRef .tc main_arg1) := by
  after_results_simp
theorem arg2_eq (V : Valuation τ sig (Elt F)) : after ops V (Proc.devRef .tc main_arg2) = V (Proc.devRef .tc main_arg2) := by
  after_results_simp
theorem arg3_eq (V : Valuation τ sig (Elt F)) : after ops V (Proc.devRef .tc main_arg3) = V (Proc.devRef .tc main_arg3) := by
  after_results_simp

/-- On every device, for any float values, from any memory with zero counters: every weakly fair execution of @main
    terminates with the result buffer at `refTerm` of the four arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v3).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefValue

end
-- ==== Proof.LibRows.lean ====
import Idealize.ShloMosaic.Lib.ValueIdx
import Idealize.ShloMosaic.Lib.Pipeline.Value
import Idealize.ShloMosaic.PureOps.Ideal.Laws

/-!
General facts used by the bridge between the two programs.

* A row gather: `stablehlo.gather` of a table `[N, C]` at start indices `[R, 1]` (offset axis 1, collapsed axis 0)
  reads, at result index `(e, q)`, row `clamp (idx[e, 0])` of the table at column `q`. The row depends on `e` and on
  the indices only, so gathering rows commutes with any function applied row by row.
* A finite sum over `Fin (a + b)` splits into the sum over the first `a` and the sum over the last `b` indices;
  stated for the three extents the concatenated operands of this network have.
-/

noncomputable section

namespace Idealize.ShloMosaic.RowGather

open Idealize.ShloMosaic Idealize.ShloMosaic.ValueIdx

variable {α : Type}

/-- The dimension numbers of a row gather: table `[N, C]`, start indices `[R, 1]`, result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a result row `e` reads: its start index, read signed and clamped into `[0, N - 1]`. -/
def row {N R w : Nat} (hN : 0 < N) (idx : IVec ⟨2, ![R, 1]⟩ w) (e : Fin R) : Fin N :=
  ⟨min (idx (ix2 e (0 : Fin 1))).toInt.toNat (N - 1), by omega⟩

/-- THE ROW GATHER READ AT `(e, q)`: the table at row `row idx e`, column `q`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowDims N R C wf) x idx (ix2 e q) = x (ix2 (row hN idx e) q) := by
  unfold Host.gather
  congr 1
  funext a
  refine Fin.ext ?_
  match a with
  | ⟨0, _⟩ =>
    show (rowDims N R C wf).start (ix2 e q) idx 0 + (rowDims N R C wf).batchCoord (ix2 e q) 0
      + (rowDims N R C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e q) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e q) idx 1 + (rowDims N R C wf).batchCoord (ix2 e q) 1
      + (rowDims N R C wf).offCoord (ix2 e q) 1 = _
    rw [GatherDims.batchCoord_eq_zero _ _ _ List.not_mem_nil]
    have hst : (rowDims N R C wf).start (ix2 e q) idx 1 = 0 := by
      unfold GatherDims.start
      rw [dif_neg (show ¬ (1 : Fin 2) ∈ (rowDims N R C wf).startIndexMap from
        fun h => absurd (congrArg Fin.val (List.mem_singleton.mp h)) (by simp))]
    rw [hst]
    simp only [Nat.add_zero, Nat.zero_add]
    rfl

/-- Rows gathered from a table that is a row-by-row function `f` of another table are `f` of the gathered rows:
    both read row `row idx e`. -/
theorem gather_rows_of_rows {β : Type} {N R C C' w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C)
    (g : Fin N → Fin C → α) (hx : ∀ n c, x (ix2 n c) = g n c) :
    Host.gather (rowDims N R C wf) x idx (ix2 e q) = g (row hN idx e) q := by
  rw [gather_rows_apply hN wf x idx e q, hx]

end Idealize.ShloMosaic.RowGather

/-! ## Splitting a finite sum at the joints of a concatenation -/

namespace Idealize.ShloMosaic.SumSplit

variable {M : Type*} [AddCommMonoid M]

/-- A sum over `Fin (a + b)` is the sum over the first `a` indices plus the sum over the last `b`. -/
theorem sum_two (a b : Nat) (f : Fin (a + b) → M) :
    ∑ k : Fin (a + b), f k = ∑ k : Fin a, f ⟨k.val, by omega⟩ + ∑ k : Fin b, f ⟨a + k.val, by omega⟩ := by
  rw [Fin.sum_univ_add]
  rfl

/-- A sum over `Fin (a + b + c)` in three stretches. -/
theorem sum_three (a b c : Nat) (f : Fin (a + b + c) → M) :
    ∑ k : Fin (a + b + c), f k
      = ∑ k : Fin a, f ⟨k.val, by omega⟩ + ∑ k : Fin b, f ⟨a + k.val, by omega⟩
        + ∑ k : Fin c, f ⟨a + b + k.val, by omega⟩ := by
  rw [sum_two (a + b) c f, sum_two a b fun k => f ⟨k.val, by omega⟩]

/-- A dense layer over a concatenation of two operands: the two partial products add up to the product with the
    whole weight, on the extended reals (only associativity of the sum is used). -/
theorem dense_two (a b : Nat) (f : Fin a → EReal) (g : Fin b → EReal) (C W : Fin (a + b) → EReal) (β : EReal)
    (hf : ∀ k : Fin a, C ⟨k.val, by omega⟩ = f k) (hg : ∀ k : Fin b, C ⟨a + k.val, by omega⟩ = g k) :
    (∑ k : Fin a, f k * W ⟨k.val, by omega⟩ + ∑ k : Fin b, g k * W ⟨a + k.val, by omega⟩) + β
      = ∑ k : Fin (a + b), C k * W k + β := by
  rw [sum_two a b fun k => C k * W k]
  simp only [hf, hg]

/-- The same over three operands. -/
theorem dense_three (a b c : Nat) (f : Fin a → EReal) (g : Fin b → EReal) (h : Fin c → EReal)
    (C W : Fin (a + b + c) → EReal) (β : EReal)
    (hf : ∀ k : Fin a, C ⟨k.val, by omega⟩ = f k) (hg : ∀ k : Fin b, C ⟨a + k.val, by omega⟩ = g k)
    (hh : ∀ k : Fin c, C ⟨a + b + k.val, by omega⟩ = h k) :
    (∑ k : Fin a, f k * W ⟨k.val, by omega⟩ + ∑ k : Fin b, g k * W ⟨a + k.val, by omega⟩
        + ∑ k : Fin c, h k * W ⟨a + b + k.val, by omega⟩) + β
      = ∑ k : Fin (a + b + c), C k * W k + β := by
  rw [sum_three a b c fun k => C k * W k]
  simp only [hf, hg, hh]

/-- The three message projections, each with its own bias (two of them zero), against one dense layer over the
    concatenation: the biases gather at the end. -/
theorem message_sum (S1 S2 S3 β : EReal) : (S1 + 0) + (S2 + β) + (S3 + 0) = (S1 + S2 + S3) + β := by
  rw [add_zero, add_zero]
  abel

end Idealize.ShloMosaic.SumSplit

end
-- ==== Proof.RefValue.lean ====
/-
  At the exact instance, for index arrays whose every word names a row, the reference's term is the specification.

  A word `w` with `w.toNat < 1000000` is below `2^31`, so as a signed integer it is `w.toNat` itself: it is not negative
  (the look-up's first test fails and the row count is not added), it passes both range tests `0 ≤ w` and `w ≤ 999999`
  (the mask bit is `1` and the gathered row is selected, never the row of NaNs), and clamping it into `[0, 999999]`
  for the gather changes nothing. So each look-up reads, at batch element `r` and coordinate `d`, the table at row
  `w.toNat` and column `d` — the row the specification's `rowOf w` names. The product of two look-ups at an index is the
  product of the two table entries, and the row sum from zero is, on the extended reals, the sum over the 64 coordinates.
-/
import proofs.«203366_g62191126446181_cont_9to1c4b_889_14_alg».proof.Proof.RefRun
import proofs.«203366_g62191126446181_cont_9to1c4b_889_14_alg».proof.Proof.DotSpec
import proofs.«203366_g62191126446181_cont_9to1c4b_889_14_alg».proof.Proof.LibRows
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-! ## Words that name a row -/

section Words
variable {w : BitVec 32}

/-- A word below the row count is below `2^31`: read as a signed integer it is its own value. -/
theorem toInt_of_row (h : w.toNat < 1000000) : w.toInt = (w.toNat : Int) :=
  BitVec.toInt_eq_toNat_of_lt (by omega)

/-- So clamping reads it unchanged. -/
theorem toNat_toInt_of_row (h : w.toNat < 1000000) : w.toInt.toNat = w.toNat := by
  rw [toInt_of_row h]; omega

/-- It is not negative … -/
theorem slt_zero_of_row (h : w.toNat < 1000000) : IntOp.cmpi .slt w 0#32 = 0#1 := by
  have hf : w.slt 0#32 = false := by
    rw [Bool.eq_false_iff]
    intro hh
    have hlt := BitVec.slt_iff_toInt_lt.mp hh
    rw [toInt_of_row h, BitVec.toInt_zero] at hlt
    omega
  show BitVec.ofBool (w.slt 0#32) = 0#1
  rw [hf]; rfl

/-- … it is at least zero … -/
theorem sge_zero_of_row (h : w.toNat < 1000000) : IntOp.cmpi .sge w 0#32 = 1#1 := by
  have ht : (0#32).sle w = true :=
    BitVec.sle_iff_toInt_le.mpr (by rw [toInt_of_row h, BitVec.toInt_zero]; omega)
  show BitVec.ofBool ((0#32).sle w) = 1#1
  rw [ht]; rfl

/-- … and at most the last row's number. -/
theorem sle_last_of_row (h : w.toNat < 1000000) : IntOp.cmpi .sle w 999999#32 = 1#1 := by
  have hc : (999999#32 : BitVec 32).toInt = 999999 := by decide
  have ht : w.sle 999999#32 = true :=
    BitVec.sle_iff_toInt_le.mpr (by rw [toInt_of_row h, hc]; omega)
  show BitVec.ofBool (w.sle 999999#32) = 1#1
  rw [ht]; rfl

end Words

/-! ## Two small facts about the shapes -/

/-- A fold over a one-element range is one application. -/
theorem fold_fin_one {α : Type} (f : α → α → α) [Std.Commutative f] [Std.Associative f] (b : α) (g : Fin 1 → α) :
    (Finset.univ : Finset (Fin 1)).fold f b g = f (g 0) b := by
  have hu : (Finset.univ : Finset (Fin 1)) = {0} := by decide
  rw [hu, Finset.fold_singleton]

/-- Over batch element `r`, the column's one entry is `(r, 0)`. -/
theorem lift_col (hR : S16384x1.Reduces [1] S16384) (r : Fin 16384) (k : Fin 1) :
    hR.lift (ix1 r) k = ix2 r (0 : Fin 1) := by
  funext c; refine Fin.ext ?_
  match c with
  | ⟨0, _⟩ => rfl
  | ⟨1, _⟩ =>
    show k.val = 0
    have := k.isLt; omega

/-- Over batch element `r`, coordinate `k` of its row is `(r, k)`. -/
theorem lift_row (hR : S16384x64.Reduces [1] S16384) (r : Fin 16384) (k : Fin 64) :
    hR.lift (ix1 r) k = ix2 r k := by
  funext c; refine Fin.ext ?_
  match c with
  | ⟨0, _⟩ => rfl
  | ⟨1, _⟩ => rfl

/-! ## The stages at an index, for an index array whose every word names a row -/

section Stages
variable (idx : IVec S16384 32) (h : Cert.DotSpec.InRange idx)
include h

/-- The index is not negative, so it is kept. -/
theorem wrapIdx_apply (j : S16384.Idx) : wrapIdx idx j = idx j := by
  show Scalar.select (IntOp.cmpi .slt (idx j) 0#32) (IntOp.addi (idx j) 1000000#32) (idx j) = idx j
  rw [slt_zero_of_row (h j), select_zero]

/-- The column's entry for batch element `r` is that element's index. -/
theorem colIdx_apply (r : Fin 16384) : colIdx idx (ix2 r (0 : Fin 1)) = idx (ix1 r) :=
  (broadcastInDim_apply ![0] bcast_S16384_S16384x1_0 (wrapIdx idx) (ix2 r (0 : Fin 1)) (ix1 r)
    (fun a => match a with | ⟨0, _⟩ => rfl)).trans (wrapIdx_apply idx h _)

/-- Both range tests pass: the mask bit is `1`. -/
theorem inRangeMask_apply (r : Fin 16384) : inRangeMask idx (ix1 r) = 1#1 := by
  have hR : S16384x1.Reduces [1] S16384 := by decide
  unfold inRangeMask
  rw [Host.reduce_eq_fold_single IntOp.andi _ _ reducesTo_S16384x1_S16384_d1 hR h_S_ (ix1 r)]
  refine (fold_fin_one IntOp.andi _ _).trans ?_
  show IntOp.andi
      (IntOp.andi (IntOp.cmpi .sge (colIdx idx (hR.lift (ix1 r) (0 : Fin 1))) 0#32)
        (IntOp.cmpi .sle (colIdx idx (hR.lift (ix1 r) (0 : Fin 1))) 999999#32)) 1#1 = 1#1
  rw [lift_col hR r 0, colIdx_apply idx h r, sge_zero_of_row (h _), sle_last_of_row (h _)]
  rfl

/-- One look-up at batch element `r`, coordinate `d`: the table at the row the word names. -/
theorem takeTerm_apply {F : FTy → Type} [FloatOps F] (tbl : FVec F S1000000x64 .f32) (r : Fin 16384) (d : Fin 64) :
    takeTerm tbl idx (ix2 r d) = tbl (ix2 (Cert.DotSpec.rowOf (idx (ix1 r))) d) := by
  have hm : broadcastInDim S16384x64 ![0] bcast_S16384_S16384x64_0 (inRangeMask idx) (ix2 r d) = 1#1 :=
    (broadcastInDim_apply ![0] bcast_S16384_S16384x64_0 (inRangeMask idx) (ix2 r d) (ix1 r)
      (fun a => match a with | ⟨0, _⟩ => rfl)).trans (inRangeMask_apply idx h r)
  have hN : 0 < 1000000 := by norm_num
  have hg : Host.gather gather_S1000000x64_S16384x1_S16384x64_1_0_n_n_0_1_164 tbl (colIdx idx) (ix2 r d)
      = tbl (ix2 (RowGather.row hN (colIdx idx) r) d) :=
    RowGather.gather_rows_apply hN gather_S1000000x64_S16384x1_S16384x64_1_0_n_n_0_1_164_wf tbl (colIdx idx) r d
  have hrow : RowGather.row hN (colIdx idx) r = Cert.DotSpec.rowOf (idx (ix1 r)) := by
    refine Fin.ext ?_
    show min (colIdx idx (ix2 r (0 : Fin 1))).toInt.toNat (1000000 - 1) = (idx (ix1 r)).toNat % 1000000
    have hw := h (ix1 r)
    rw [colIdx_apply idx h r, toNat_toInt_of_row hw, Nat.mod_eq_of_lt hw]
    exact Nat.min_eq_left (by omega)
  unfold takeTerm
  rw [select_apply, hm, select_one, hg, hrow]

end Stages

/-! ## The theorem -/

/-- At the exact instance, for index arrays whose every word names a row, the reference's term IS the specification. -/
theorem refTerm_eq_G (users items : IVec S16384 32) (ut it : FVec Ideal S1000000x64 .f32)
    (hu : Cert.DotSpec.InRange users) (hi : Cert.DotSpec.InRange items) :
    refTerm (F := Ideal) users items ut it = Cert.DotSpec.G users items ut it := by
  have hR : S16384x64.Reduces [1] S16384 := by decide
  funext j
  obtain ⟨r, rfl⟩ : ∃ r : Fin 16384, j = ix1 r := ⟨j 0, eq_ix1 j⟩
  unfold refTerm
  rw [hostReduceAdd_apply, Ideal.hostReduceAdd_single reducesTo_S16384x64_S16384_d1 hR]
  show Ideal.ofBits .f32 0x00000000#32
        + ∑ k : Fin 64, mulf (takeTerm ut users) (takeTerm it items) (hR.lift (ix1 r) k)
      = ∑ d : Fin 64, ut (ix2 (Cert.DotSpec.rowOf (users (ix1 r))) d) * it (ix2 (Cert.DotSpec.rowOf (items (ix1 r))) d)
  rw [Ideal.ofBits_zero_f32, zero_add]
  refine Finset.sum_congr rfl fun k _ => ?_
  rw [lift_row hR r k, mulf_apply, takeTerm_apply users hu ut r k, takeTerm_apply items hi it r k]

end Cert.ReferenceIdeal.RefValue

end
-- ==== Proof.Assemble.lean ====
/-
  The certificate's five claims from two facts about the kernel, taken here as hypotheses, and what is already proved of
  the reference and of the specification.

  The hypotheses say of the kernel program, read over the extended reals (`hKI`) and over bit patterns (`hKB`): from any
  memory whose two index arrays hold only row numbers, every weakly fair execution terminates without fault and leaves
  the four argument arrays as they were — and, in the first reading, leaves the result array at the running inner
  product `OUTm` of the rows the indices name, taken from the concatenation `[user_table | item_table]`.

  The precondition bounds every index word into `[0, 999999]`, so the index arrays hold only row numbers; this discharges
  the range hypotheses of both runs, which gives the two kernel frames (the first run's post loses its result conjunct).
  The reference's frame is its run with the result conjunct dropped. Nothing was rewritten between the kernel and its
  reading over the extended reals, so that claim is `True`. For the last claim the common result is `OUTm`: the kernel
  leaves it by hypothesis; the reference leaves its composed term of ITS arguments, which equal the kernel's by
  assumption, and on row numbers that term is the specification `G`, which `OUTm` over the concatenated table also is.
-/
import proofs.«203366_g62191126446181_cont_9to1c4b_889_14_alg».proof.Defs
import proofs.«203366_g62191126446181_cont_9to1c4b_889_14_alg».proof.Proof.Gen.Kernel
import proofs.«203366_g62191126446181_cont_9to1c4b_889_14_alg».proof.Proof.Gen.KernelIdeal
import proofs.«203366_g62191126446181_cont_9to1c4b_889_14_alg».proof.Proof.Gen.ReferenceIdeal
import proofs.«203366_g62191126446181_cont_9to1c4b_889_14_alg».proof.Proof.Gen.Pre_input_domain
import proofs.«203366_g62191126446181_cont_9to1c4b_889_14_alg».proof.Proof.PreRange
import proofs.«203366_g62191126446181_cont_9to1c4b_889_14_alg».proof.Proof.KOutValue
import proofs.«203366_g62191126446181_cont_9to1c4b_889_14_alg».proof.Proof.KIIface
import proofs.«203366_g62191126446181_cont_9to1c4b_889_14_alg».proof.Proof.RefRun
import proofs.«203366_g62191126446181_cont_9to1c4b_889_14_alg».proof.Proof.RefValue

noncomputable section

namespace Cert.Proof.Assemble

open Idealize.ShloMosaic Idealize.SL.Sem

/-- The five claims, given the kernel's two runs. -/
theorem claim_of
    (hKI : ∀ (m : (ℓ : Loc Cert.KernelIdeal.nD Cert.KernelIdeal.τ Cert.KernelIdeal.sig) → Buf (Elt Ideal) ℓ)
        (ρ : Dev Cert.KernelIdeal.nD → PrngReg),
      (∀ d, Cert.DotSpec.InRange (m (Cert.Proof.KI.uLoc d))) → (∀ d, Cert.DotSpec.InRange (m (Cert.Proof.KI.iLoc d))) →
      θ_run (Cert.KernelIdeal.defs (F := Ideal)) (Cert.KernelIdeal.threads (F := Ideal)) ⟨m, fun _ => 0, ρ⟩
        (fun r => ∀ c, r.2.mem (Cert.Proof.KI.oLoc c) = Cert.Proof.KI.OUTm m c
          ∧ r.2.mem (Cert.Proof.KI.uLoc c) = m (Cert.Proof.KI.uLoc c)
          ∧ r.2.mem (Cert.Proof.KI.iLoc c) = m (Cert.Proof.KI.iLoc c)
          ∧ r.2.mem (Cert.Proof.KI.utLoc c) = m (Cert.Proof.KI.utLoc c)
          ∧ r.2.mem (Cert.Proof.KI.itLoc c) = m (Cert.Proof.KI.itLoc c)))
    (hKB : ∀ (m : (ℓ : Loc Cert.Kernel.nD Cert.Kernel.τ Cert.Kernel.sig) → Buf (Elt Bits) ℓ)
        (ρ : Dev Cert.Kernel.nD → PrngReg),
      (∀ d : Dev Cert.Kernel.nD, Cert.DotSpec.InRange (m ((d.tc : Thread Cert.Kernel.nD Cert.Kernel.τ).loc Cert.Kernel.main_arg0))) →
      (∀ d : Dev Cert.Kernel.nD, Cert.DotSpec.InRange (m ((d.tc : Thread Cert.Kernel.nD Cert.Kernel.τ).loc Cert.Kernel.main_arg1))) →
      θ_run (Cert.Kernel.defs (F := Bits)) (Cert.Kernel.threads (F := Bits)) ⟨m, fun _ => 0, ρ⟩
        (fun r => ∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))) :
    Cert.Claim := by
  refine ⟨Cert.Kernel.Gen.facts, Cert.KernelIdeal.Gen.facts, Cert.ReferenceIdeal.Gen.facts, Cert.Pre_input_domain.Gen.facts,
    ?_, ?_, ?_, trivial, ?_⟩
  · -- the kernel over bit patterns: the precondition puts every index word among the row numbers
    intro m g hpre
    have hr := fun d => Cert.PreRange.inRange_of_pre (F := Bits) _ _ _ _ (hpre d)
    exact hKB m g (fun d => (hr d).1) (fun d => (hr d).2)
  · -- the kernel over the extended reals: the same, the result conjunct dropped
    intro m g hpre
    have hr := fun d => Cert.PreRange.inRange_of_pre (F := Ideal) _ _ _ _ (hpre d)
    exact (θ_run _ _ _).mono (fun _ h c => ⟨(h c).2.1, (h c).2.2.1, (h c).2.2.2.1, (h c).2.2.2.2⟩)
      (hKI m g (fun d => (hr d).1) (fun d => (hr d).2))
  · -- the reference: its run, the result conjunct dropped
    intro m g _
    exact (θ_run Cert.ReferenceIdeal.defs _ _).mono (fun _ h c => (h c).2)
      (Cert.ReferenceIdeal.RefValue.run (F := Ideal) m g)
  · -- both end at one value: the kernel's result array, which is the specification, as the reference's term is
    intro m g m' g' hpre hagree
    have hr := fun d => Cert.PreRange.inRange_of_pre (F := Ideal) _ _ _ _ (hpre d)
    refine ⟨fun c => Cert.Proof.KI.OUTm m c, hKI m g (fun d => (hr d).1) (fun d => (hr d).2), ?_⟩
    refine (θ_run Cert.ReferenceIdeal.defs _ _).mono (fun _ h c => ⟨(h c).1.trans ?_, (h c).2⟩)
      (Cert.ReferenceIdeal.RefValue.run (F := Ideal) m' g')
    rw [(hagree c).1, (hagree c).2.1, (hagree c).2.2.1, (hagree c).2.2.2,
      Cert.ReferenceIdeal.RefValue.refTerm_eq_G _ _ _ _ (hr c).1 (hr c).2]
    exact (Cert.KOutValue.OUT_eq_G _ _ _ _).symm

end Cert.Proof.Assemble

end
-- ==== Proof.KILaunchTiles.lean ====
/-
  The 32 tiles are the pairs (SparseCore c < 2, tile s < 16), numbered w = 2·s + c; the correspondence is one to one.
  An array every tile reads is handed out as read shares: the full share halved five times has 32 leaves, and a
  points-to at a share is the separating conjunction of the points-tos at the leaves below it (a share is the sum of
  its two halves, by induction on the depth). Re-indexed from numbers to pairs, the full points-to of an array is the
  conjunction over c and s of tile (c, s)'s read share of it.
-/
import proofs.«203366_g62191126446181_cont_9to1c4b_889_14_alg».proof.Proof.KIIface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

/-! ## Tiles as pairs and as numbers -/

/-- Tile `s` of SparseCore `c` has number `2·s + c`; a number `w` is tile `w / 2` of SparseCore `w % 2`. -/
def tileEquiv : Fin 2 × Fin 16 ≃ Fin 32 where
  toFun p := ⟨2 * p.2.val + p.1.val, by have h1 := p.1.isLt; have h2 := p.2.isLt; omega⟩
  invFun w := (⟨w.val % 2, Nat.mod_lt _ (by norm_num)⟩, ⟨w.val / 2, by have h := w.isLt; omega⟩)
  left_inv p := by
    obtain ⟨c, s⟩ := p
    have hc := c.isLt
    have hs := s.isLt
    exact Prod.ext (Fin.ext (show (2 * s.val + c.val) % 2 = c.val by omega)) (Fin.ext (show (2 * s.val + c.val) / 2 = s.val by omega))
  right_inv w := Fin.ext (show 2 * (w.val / 2) + w.val % 2 = w.val by omega)

theorem tileEquiv_val (c : Fin 2) (s : Fin 16) : (tileEquiv (c, s)).val = 2 * s.val + c.val := rfl

/-- The number of the tile at grid point (c, s). -/
theorem wL_coordsV (c : Fin 2) (s : Fin 16) : wL (coordsV c s) = tileEquiv (c, s) := Fin.ext rfl

/-! ## A share and its leaves -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- The full points-to of an array every tile reads, as the tiles' read shares of it, SparseCore by SparseCore. -/
theorem pts_tiles {ℓ : Loc nD τ sig} (f : Buf (Elt F) ℓ) :
    (ℓ ↦{fullShare} f : sProp 𝕄)
      = bigSep Finset.univ fun c : Fin 2 => bigSep Finset.univ fun s : Fin 16 => ℓ ↦{qsh (wL (coordsV c s))} f := by
  refine (pointsTo_leaves (F := F) Finset.univ f 5 fullShare).trans ?_
  refine (bigSep_univ_equiv tileEquiv (fun w : Fin 32 => (ℓ ↦{qsh w} f : sProp 𝕄))).trans ?_
  refine (bigSep_univ_prod (fun p : Fin 2 × Fin 16 => (ℓ ↦{qsh (tileEquiv p)} f : sProp 𝕄))).trans ?_
  refine bigSep_congr fun c _ => bigSep_congr fun s _ => ?_
  rw [wL_coordsV]

end Cert.Proof.KI

end
-- ==== Proof.KILaunchOut.lean ====
/-
  The result array has 16384 entries; tile number w writes the 512 entries from 512·w. The tile's slice, as the body
  takes it, is the unit-stride interval of 512 entries from the offset 1024·s + 512·c = 512·(2·s + c). Intervals of
  different numbers are disjoint, and every index i lies in the interval of number i / 512; so the full points-to of the
  result array is the separating conjunction, over the pairs (c, s), of the points-tos on the tiles' intervals, whatever
  the contents.
-/
import proofs.«203366_g62191126446181_cont_9to1c4b_889_14_alg».proof.Proof.KILaunchTiles

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

/-! ## A tile's entries of the result array -/

/-- The tile's index set is the interval its slice names. -/
theorem oSet_eq (L : grid0.Coords) : oSet L = (Rect.unit (s := S16384) (k0_off6 L) S512.size (k0_off6_inb L)).set := by
  unfold oSet
  show ((View.whole (main_v1_scv : Ref sig .scVector)).slice _).set = _
  rw [View.set_slice]; exact Finset.map_refl

/-- Index `i` is one of tile `L`'s exactly when it lies in the 512 entries from `512 · (wL L)`. -/
theorem mem_oSet (L : grid0.Coords) (i : S16384.Idx) :
    i ∈ oSet L ↔ 512 * (wL L).val ≤ (i 0).val ∧ (i 0).val < 512 * (wL L).val + 512 := by
  rw [oSet_eq, Rect.mem_set_unit, Fin.forall_fin_one, k0_off6_eq]
  show (1024 * (L 1).val + 512 * (L 0).val ≤ (i 0).val ∧ (i 0).val < 1024 * (L 1).val + 512 * (L 0).val + 512)
    ↔ (512 * (2 * (L 1).val + (L 0).val) ≤ (i 0).val ∧ (i 0).val < 512 * (2 * (L 1).val + (L 0).val) + 512)
  omega

/-- Different tiles' entries are disjoint. -/
theorem oTiles_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) := by
  rintro ⟨c, s⟩ _ ⟨c', s'⟩ _ hne
  refine Finset.disjoint_left.2 fun i hi hi' => hne (tileEquiv.injective (Fin.ext ?_))
  rw [mem_oSet, wL_coordsV] at hi hi'
  dsimp only at hi hi'
  omega

/-- Every entry is some tile's. -/
theorem oTiles_cover : (Finset.univ : Finset (Fin 2 × Fin 16)).biUnion (fun p => oSet (coordsV p.1 p.2)) = Finset.univ := by
  ext i
  simp only [Finset.mem_biUnion, Finset.mem_univ, true_and, iff_true]
  have hi : (i 0).val < 16384 := (i 0).isLt
  refine ⟨tileEquiv.symm ⟨(i 0).val / 512, by omega⟩, ?_⟩
  rw [mem_oSet, wL_coordsV, Prod.mk.eta, Equiv.apply_symm_apply]
  show 512 * ((i 0).val / 512) ≤ (i 0).val ∧ (i 0).val < 512 * ((i 0).val / 512) + 512
  omega

/-- The whole result array, at any contents, is its 32 tiles' entries, SparseCore by SparseCore. -/
theorem oPts_tiles (d : Dev nD) (f : Buf (Elt F) (oLoc d)) :
    (oLoc d ↦{fullShare} f : sProp 𝕄)
      = bigSep Finset.univ fun c : Fin 2 => bigSep Finset.univ fun s : Fin 16 => oLoc d ↦[oSet (coordsV c s)]{fullShare} f := by
  have h1 : (oLoc d ↦[(Finset.univ : Finset (Fin 2 × Fin 16)).biUnion fun p => oSet (coordsV p.1 p.2)]{fullShare} f : sProp 𝕄)
      = bigSep Finset.univ fun p : Fin 2 × Fin 16 => oLoc d ↦[oSet (coordsV p.1 p.2)]{fullShare} f :=
    pointsTo_biUnion Finset.univ (ℓ := oLoc d) (fun p : Fin 2 × Fin 16 => oSet (coordsV p.1 p.2)) oTiles_disjoint
  rw [oTiles_cover] at h1
  exact h1.trans (bigSep_univ_prod (fun p : Fin 2 × Fin 16 => (oLoc d ↦[oSet (coordsV p.1 p.2)]{fullShare} f : sProp 𝕄)))

end Cert.Proof.KI

end
-- ==== Proof.KIVal.lean ====
/-
  The values inside one tile's task, as pure facts about index vectors, loads and running sums.

  A round holds 128 gathered rows of the concatenated table in each of two 128 × 128 buffers. Group g (of 8) works on
  rows 16·g … 16·g + 15, one per lane; step t (of 8) of a group reads, for dd = 0 … 7, column 8·t + dd of the first
  buffer and column 8·t + dd + 64 of the second at those rows, and adds their product to the lane's running sum. The
  induction variables are 32-bit words below 8, so every row number is below 128 and every column number below 128:
  the indexed loads stay inside the buffers, and the numbers are read off the words without wrapping.
  So lane x of a load reads buffer entry (16·g + x, 8·t + dd) or (16·g + x, 8·t + dd + 64), and one step extends each
  lane's running sum, in the order dd = 0 … 7, by exactly the next eight terms of the sum the specification's result
  array is defined by. After eight steps the lane holds all 64 terms; since the buffers' row r is the table row the
  tile's (128·c + r)-th index names, that is the result array's entry for that pair, and storing the sixteen lanes at
  [128·c + 16·g, +16) of the score buffer extends its finished prefix by sixteen entries.
-/
import proofs.«203366_g62191126446181_cont_9to1c4b_889_14_alg».proof.Proof.KIIface
import Idealize.ShloMosaic.Lib.WritesUnit

noncomputable section

namespace Cert.Proof.KI

open Cert.KernelIdeal Cert.KernelIdeal.Gen
open Idealize.ShloMosaic Idealize.ShloMosaic.ValueIdx

/-! ## The index vectors -/

/-- Lane x of the row vector of the group whose induction word is `a` names row 16·a + x. -/
def rowv (a : BitVec 32) : IVec S16 32 :=
  addi (iota .scVector S16 32 [0] iota_S16_d0_w32_scVector) (broadcast S16 (Scalar.muli a 16#32))
/-- Every lane of the dd-th column vector of the step whose induction word is `a` names column 8·a + dd. -/
def colv (a dd : BitVec 32) : IVec S16 32 :=
  addi (broadcast S16 0#32) (broadcast S16 (Scalar.addi (Scalar.muli a 8#32) dd))
/-- … and of its partner, 64 columns on. -/
def colv64 (a dd : BitVec 32) : IVec S16 32 := addi (colv a dd) (broadcast S16 64#32)

/-- Trip k < 8 of a loop from 0 by 1 has induction word k. -/
theorem iv_toNat (k : ℕ) (hk : k < 8) : (Scf.iv 0#32 1#32 k).toNat = k := by
  unfold Scf.iv
  simp only [BitVec.toNat_add, BitVec.toNat_mul, BitVec.toNat_ofNat]
  omega
theorem iv_lt (k : ℕ) (hk : k < 8) : (Scf.iv 0#32 1#32 k).toNat < 8 := by rw [iv_toNat k hk]; exact hk

theorem rowv_apply (a : BitVec 32) (x : S16.Idx) : rowv a x = BitVec.ofNat 32 (x 0).val + a * 16#32 := by
  unfold rowv
  simp [addi, iota, broadcast, Scalar.muli, IntOp.muli, IntOp.addi]
theorem colv_apply (a dd : BitVec 32) (x : S16.Idx) : colv a dd x = 0#32 + (a * 8#32 + dd) := rfl
theorem colv64_apply (a dd : BitVec 32) (x : S16.Idx) : colv64 a dd x = 0#32 + (a * 8#32 + dd) + 64#32 := rfl

/-- The numbers the lanes hold, for induction words below 8 and dd below 8: no sum wraps. -/
theorem rowv_toNat (a : BitVec 32) (ha : a.toNat < 8) (x : S16.Idx) : (rowv a x).toNat = 16 * a.toNat + (x 0).val := by
  rw [rowv_apply]
  have hx : (x 0).val < 16 := (x 0).isLt
  simp only [BitVec.toNat_add, BitVec.toNat_mul, BitVec.toNat_ofNat]
  omega
theorem colv_toNat (a dd : BitVec 32) (ha : a.toNat < 8) (hdd : dd.toNat < 8) (x : S16.Idx) :
    (colv a dd x).toNat = 8 * a.toNat + dd.toNat := by
  rw [colv_apply]
  simp only [BitVec.toNat_add, BitVec.toNat_mul, BitVec.toNat_ofNat]
  omega
theorem colv64_toNat (a dd : BitVec 32) (ha : a.toNat < 8) (hdd : dd.toNat < 8) (x : S16.Idx) :
    (colv64 a dd x).toNat = 8 * a.toNat + dd.toNat + 64 := by
  rw [colv64_apply]
  simp only [BitVec.toNat_add, BitVec.toNat_mul, BitVec.toNat_ofNat]
  omega

theorem rowv_lt (a : BitVec 32) (ha : a.toNat < 8) (x : S16.Idx) : (rowv a x).toNat < 128 := by
  rw [rowv_toNat a ha x]; have hx : (x 0).val < 16 := (x 0).isLt; omega
theorem colv_lt (a dd : BitVec 32) (ha : a.toNat < 8) (hdd : dd.toNat < 8) (x : S16.Idx) : (colv a dd x).toNat < 128 := by
  rw [colv_toNat a dd ha hdd x]; omega
theorem colv64_lt (a dd : BitVec 32) (ha : a.toNat < 8) (hdd : dd.toNat < 8) (x : S16.Idx) : (colv64 a dd x).toNat < 128 := by
  rw [colv64_toNat a dd ha hdd x]; omega

/-! ## The loads stay inside the buffers -/

/-- A pair of index vectors whose every lane is below 128 is inside a 128 × 128 buffer. -/
theorem chk_ok (rows cols : IVec S16 32) (hr : ∀ x, (rows x).toNat < 128) (hc : ∀ x, (cols x).toNat < 128) :
    ∀ a x, ((![rows, cols] : Fin 2 → IVec S16 32) a x).toNat < S128x128.size a := by
  intro a x
  match a with
  | ⟨0, _⟩ => exact hr x
  | ⟨1, _⟩ => exact hc x

/-- Group g's rows with step t's dd-th columns … -/
theorem chk_col (g t : ℕ) (hg : g < 8) (ht : t < 8) (dd : BitVec 32) (hdd : dd.toNat < 8) :
    ∀ a x, ((![rowv (Scf.iv 0#32 1#32 g), colv (Scf.iv 0#32 1#32 t) dd] : Fin 2 → IVec S16 32) a x).toNat < S128x128.size a :=
  chk_ok _ _ (rowv_lt _ (iv_lt g hg)) (colv_lt _ _ (iv_lt t ht) hdd)
/-- … and with their partners 64 columns on. -/
theorem chk_col64 (g t : ℕ) (hg : g < 8) (ht : t < 8) (dd : BitVec 32) (hdd : dd.toNat < 8) :
    ∀ a x, ((![rowv (Scf.iv 0#32 1#32 g), colv64 (Scf.iv 0#32 1#32 t) dd] : Fin 2 → IVec S16 32) a x).toNat < S128x128.size a :=
  chk_ok _ _ (rowv_lt _ (iv_lt g hg)) (colv64_lt _ _ (iv_lt t ht) hdd)

open Lean Meta Elab Tactic in
/-- Closes a bound `∀ a x, (![rows, cols] a x).toNat < 128`, under whatever name it is stated, for group g's row vector
    and one of step t's sixteen column vectors, given `hg : g < 8` and `ht : t < 8`: by `chk_col64` when the column
    vector's defining sum ends in `+ 64`, by `chk_col` when it does not. -/
elab "chk_disch " hg:term:max ppSpace ht:term:max : tactic => withMainContext do
  let goal ← getMainGoal
  let ty ← instantiateMVars (← goal.getType)
  let cols := ty.appArg!
  let mut e := cols
  for _ in [0:12] do
    e ← whnfCore (← instantiateMVars e)
    if e.isAppOf ``Idealize.ShloMosaic.addi then break
    match ← unfoldDefinition? e with
    | some e' => e := e'
    | none => break
  let plus64 := e.isAppOf ``Idealize.ShloMosaic.addi &&
    (e.appArg!.find? fun t => t.rawNatLit? == some 64).isSome
  if plus64 then evalTactic (← `(tactic| exact chk_col64 _ _ $hg $ht _ (by decide)))
  else evalTactic (← `(tactic| exact chk_col _ _ $hg $ht _ (by decide)))

/-! ## What the loops maintain -/

section Predicates
variable {F : FTy → Type} [FloatOps F] (m : (ℓ : Loc nD τ sig) → Buf (Elt F) ℓ) (d : Dev nD) (L : grid0.Coords)

/-- Row 16·g + x of a 128-row buffer, lane x of group g (reduced mod 128, so that it needs no proof). -/
def r16 (g : ℕ) (x : S16.Idx) : Fin 128 := ⟨(16 * g + (x 0).val) % 128, Nat.mod_lt _ (by norm_num)⟩

/-- After t steps of group g, lane x of the carried vector is the running sum of the first 8·t products of row
    16·g + x: the first buffer's column dd times the second buffer's column dd + 64. -/
def Pa (U : Buf (Elt F) ((thr d L).loc cc0_scratch2)) (V : Buf (Elt F) ((thr d L).loc cc0_scratch3))
    (g t : ℕ) (acc : FVec F S16 .f32) : Prop :=
  ∀ x : S16.Idx, acc x = Cert.KOut.dotAcc (fun dd => U (ix2 (r16 g x) (Cert.KOut.colU dd)))
    (fun dd => V (ix2 (r16 g x) (Cert.KOut.colV dd))) (8 * t)

/-- After g groups of round c, the first 128·c + 16·g entries of the score buffer are the tile's entries of the
    result array. -/
def Pf (c g : ℕ) (f : Buf (Elt F) ((thr d L).loc cc0_scratch4)) : Prop :=
  ∀ p, p < 128 * c + 16 * g →
    f (ix1 ⟨p % 512, Nat.mod_lt _ (by norm_num)⟩)
      = OUTm m d (ix1 ⟨(512 * (wL L).val + p) % 16384, Nat.mod_lt _ (by norm_num)⟩)

/-- In round c the first row buffer holds, at row r, the concatenated table's row named by the tile's
    (128·c + r)-th user index … -/
def RowsU (c : ℕ) (U : Buf (Elt F) ((thr d L).loc cc0_scratch2)) : Prop :=
  ∀ (r q : Fin 128), U (ix2 r q)
    = CAT m d (ix2 (Cert.DotSpec.rowOf (m (uLoc d) (ix1 ⟨(512 * (wL L).val + 128 * c + r.val) % 16384, Nat.mod_lt _ (by norm_num)⟩))) q)

/-- … and the second, the row named by its (128·c + r)-th item index. -/
def RowsV (c : ℕ) (V : Buf (Elt F) ((thr d L).loc cc0_scratch3)) : Prop :=
  ∀ (r q : Fin 128), V (ix2 r q)
    = CAT m d (ix2 (Cert.DotSpec.rowOf (m (iLoc d) (ix1 ⟨(512 * (wL L).val + 128 * c + r.val) % 16384, Nat.mod_lt _ (by norm_num)⟩))) q)

end Predicates

/-! ## One step of a group: eight more products on each lane's running sum -/

section Step
variable {F : FTy → Type} [FloatOps F] (d : Dev nD) (L : grid0.Coords)
  (U : Buf (Elt F) ((thr d L).loc cc0_scratch2)) (V : Buf (Elt F) ((thr d L).loc cc0_scratch3))

/-- Before the first step the carried vector is the zero word on every lane: the empty running sum. -/
theorem Pa_init (g : ℕ) : Pa d L U V g 0 (broadcast S16 (Scalar.ofBits .f32 0x00000000#32 : F .f32)) :=
  fun _ => rfl

/-- Lane x of the load of the first buffer at group g's rows and step t's dd-th columns: row 16·g + x, column 8·t + dd. -/
theorem ld_col (g t : ℕ) (hg : g < 8) (ht : t < 8) (dd : ℕ) (hdd : dd < 8)
    (h : ∀ a x, ((![rowv (Scf.iv 0#32 1#32 g), colv (Scf.iv 0#32 1#32 t) (BitVec.ofNat 32 dd)] : Fin 2 → IVec S16 32) a x).toNat < S128x128.size a)
    (x : S16.Idx) :
    loadIdx (View.readAt (Elt F) (Memref.whole cc0_scratch2).view (LoadRect.whole S128x128) U) ![rowv (Scf.iv 0#32 1#32 g), colv (Scf.iv 0#32 1#32 t) (BitVec.ofNat 32 dd)] h x
      = U (ix2 (r16 g x) (Cert.KOut.colU (8 * t + dd))) := by
  have hR : View.readAt (Elt F) (Memref.whole cc0_scratch2).view (LoadRect.whole S128x128) U = U :=
    Memref.readAt_whole (Elt F) cc0_scratch2 U
  rw [hR]
  show U (idxAt _ h x) = _
  refine congrArg U (funext fun a => Fin.ext ?_)
  have hx : (x 0).val < 16 := (x 0).isLt
  have hdd' : (BitVec.ofNat 32 dd).toNat = dd := by rw [BitVec.toNat_ofNat]; omega
  match a with
  | ⟨0, _⟩ =>
    show (rowv (Scf.iv 0#32 1#32 g) x).toNat = (16 * g + (x 0).val) % 128
    rw [rowv_toNat _ (iv_lt g hg), iv_toNat g hg]; omega
  | ⟨1, _⟩ =>
    show (colv (Scf.iv 0#32 1#32 t) (BitVec.ofNat 32 dd) x).toNat = (8 * t + dd) % 128
    rw [colv_toNat _ _ (iv_lt t ht) (by omega), iv_toNat t ht, hdd']; omega

/-- … and of the second buffer at the partner columns: row 16·g + x, column 8·t + dd + 64. -/
theorem ld_col64 (g t : ℕ) (hg : g < 8) (ht : t < 8) (dd : ℕ) (hdd : dd < 8)
    (h : ∀ a x, ((![rowv (Scf.iv 0#32 1#32 g), colv64 (Scf.iv 0#32 1#32 t) (BitVec.ofNat 32 dd)] : Fin 2 → IVec S16 32) a x).toNat < S128x128.size a)
    (x : S16.Idx) :
    loadIdx (View.readAt (Elt F) (Memref.whole cc0_scratch3).view (LoadRect.whole S128x128) V) ![rowv (Scf.iv 0#32 1#32 g), colv64 (Scf.iv 0#32 1#32 t) (BitVec.ofNat 32 dd)] h x
      = V (ix2 (r16 g x) (Cert.KOut.colV (8 * t + dd))) := by
  have hR : View.readAt (Elt F) (Memref.whole cc0_scratch3).view (LoadRect.whole S128x128) V = V :=
    Memref.readAt_whole (Elt F) cc0_scratch3 V
  rw [hR]
  show V (idxAt _ h x) = _
  refine congrArg V (funext fun a => Fin.ext ?_)
  have hx : (x 0).val < 16 := (x 0).isLt
  have hdd' : (BitVec.ofNat 32 dd).toNat = dd := by rw [BitVec.toNat_ofNat]; omega
  match a with
  | ⟨0, _⟩ =>
    show (rowv (Scf.iv 0#32 1#32 g) x).toNat = (16 * g + (x 0).val) % 128
    rw [rowv_toNat _ (iv_lt g hg), iv_toNat g hg]; omega
  | ⟨1, _⟩ =>
    show (colv64 (Scf.iv 0#32 1#32 t) (BitVec.ofNat 32 dd) x).toNat = (8 * t + dd + 64) % 128
    rw [colv64_toNat _ _ (iv_lt t ht) (by omega), iv_toNat t ht, hdd']; omega

/-- Eight more steps of the running sum, written out. -/
theorem dotAcc_add8 (u v : ℕ → F .f32) (n : ℕ) :
    Cert.KOut.dotAcc u v (n + 8) =
      FloatOps.addf (FloatOps.addf (FloatOps.addf (FloatOps.addf (FloatOps.addf (FloatOps.addf (FloatOps.addf (FloatOps.addf
        (Cert.KOut.dotAcc u v n) (FloatOps.mulf (u n) (v n))) (FloatOps.mulf (u (n + 1)) (v (n + 1))))
        (FloatOps.mulf (u (n + 2)) (v (n + 2)))) (FloatOps.mulf (u (n + 3)) (v (n + 3)))) (FloatOps.mulf (u (n + 4)) (v (n + 4))))
        (FloatOps.mulf (u (n + 5)) (v (n + 5)))) (FloatOps.mulf (u (n + 6)) (v (n + 6)))) (FloatOps.mulf (u (n + 7)) (v (n + 7))) := rfl

/-- THE STEP: if the carried vector holds the running sums of the first 8·t products, then the vector the step yields —
    the carried one plus, in order dd = 0 … 7, the product of the two loads at columns 8·t + dd and 8·t + dd + 64 — holds
    those of the first 8·(t + 1). -/
theorem trip_step (g t : ℕ) (hg : g < 8) (ht : t < 8) (acc : FVec F S16 .f32)
    {hU0 : ∀ a x, ((![rowv (Scf.iv 0#32 1#32 g), colv (Scf.iv 0#32 1#32 t) 0#32] : Fin 2 → IVec S16 32) a x).toNat < S128x128.size a}
    {hV0 : ∀ a x, ((![rowv (Scf.iv 0#32 1#32 g), colv64 (Scf.iv 0#32 1#32 t) 0#32] : Fin 2 → IVec S16 32) a x).toNat < S128x128.size a}
    {hU1 : ∀ a x, ((![rowv (Scf.iv 0#32 1#32 g), colv (Scf.iv 0#32 1#32 t) 1#32] : Fin 2 → IVec S16 32) a x).toNat < S128x128.size a}
    {hV1 : ∀ a x, ((![rowv (Scf.iv 0#32 1#32 g), colv64 (Scf.iv 0#32 1#32 t) 1#32] : Fin 2 → IVec S16 32) a x).toNat < S128x128.size a}
    {hU2 : ∀ a x, ((![rowv (Scf.iv 0#32 1#32 g), colv (Scf.iv 0#32 1#32 t) 2#32] : Fin 2 → IVec S16 32) a x).toNat < S128x128.size a}
    {hV2 : ∀ a x, ((![rowv (Scf.iv 0#32 1#32 g), colv64 (Scf.iv 0#32 1#32 t) 2#32] : Fin 2 → IVec S16 32) a x).toNat < S128x128.size a}
    {hU3 : ∀ a x, ((![rowv (Scf.iv 0#32 1#32 g), colv (Scf.iv 0#32 1#32 t) 3#32] : Fin 2 → IVec S16 32) a x).toNat < S128x128.size a}
    {hV3 : ∀ a x, ((![rowv (Scf.iv 0#32 1#32 g), colv64 (Scf.iv 0#32 1#32 t) 3#32] : Fin 2 → IVec S16 32) a x).toNat < S128x128.size a}
    {hU4 : ∀ a x, ((![rowv (Scf.iv 0#32 1#32 g), colv (Scf.iv 0#32 1#32 t) 4#32] : Fin 2 → IVec S16 32) a x).toNat < S128x128.size a}
    {hV4 : ∀ a x, ((![rowv (Scf.iv 0#32 1#32 g), colv64 (Scf.iv 0#32 1#32 t) 4#32] : Fin 2 → IVec S16 32) a x).toNat < S128x128.size a}
    {hU5 : ∀ a x, ((![rowv (Scf.iv 0#32 1#32 g), colv (Scf.iv 0#32 1#32 t) 5#32] : Fin 2 → IVec S16 32) a x).toNat < S128x128.size a}
    {hV5 : ∀ a x, ((![rowv (Scf.iv 0#32 1#32 g), colv64 (Scf.iv 0#32 1#32 t) 5#32] : Fin 2 → IVec S16 32) a x).toNat < S128x128.size a}
    {hU6 : ∀ a x, ((![rowv (Scf.iv 0#32 1#32 g), colv (Scf.iv 0#32 1#32 t) 6#32] : Fin 2 → IVec S16 32) a x).toNat < S128x128.size a}
    {hV6 : ∀ a x, ((![rowv (Scf.iv 0#32 1#32 g), colv64 (Scf.iv 0#32 1#32 t) 6#32] : Fin 2 → IVec S16 32) a x).toNat < S128x128.size a}
    {hU7 : ∀ a x, ((![rowv (Scf.iv 0#32 1#32 g), colv (Scf.iv 0#32 1#32 t) 7#32] : Fin 2 → IVec S16 32) a x).toNat < S128x128.size a}
    {hV7 : ∀ a x, ((![rowv (Scf.iv 0#32 1#32 g), colv64 (Scf.iv 0#32 1#32 t) 7#32] : Fin 2 → IVec S16 32) a x).toNat < S128x128.size a}
    (hacc : Pa d L U V g t acc) :
    Pa d L U V g (t + 1)
      (k0_pay74
        (k0_pay21
          (k0_pay12 acc (loadIdx (View.readAt (Elt F) (Memref.whole cc0_scratch2).view (LoadRect.whole S128x128) U) ![rowv (Scf.iv 0#32 1#32 g), colv (Scf.iv 0#32 1#32 t) 0#32] hU0) (loadIdx (View.readAt (Elt F) (Memref.whole cc0_scratch3).view (LoadRect.whole S128x128) V) ![rowv (Scf.iv 0#32 1#32 g), colv64 (Scf.iv 0#32 1#32 t) 0#32] hV0)
            (loadIdx (View.readAt (Elt F) (Memref.whole cc0_scratch2).view (LoadRect.whole S128x128) U) ![rowv (Scf.iv 0#32 1#32 g), colv (Scf.iv 0#32 1#32 t) 1#32] hU1) (loadIdx (View.readAt (Elt F) (Memref.whole cc0_scratch3).view (LoadRect.whole S128x128) V) ![rowv (Scf.iv 0#32 1#32 g), colv64 (Scf.iv 0#32 1#32 t) 1#32] hV1)
            (loadIdx (View.readAt (Elt F) (Memref.whole cc0_scratch2).view (LoadRect.whole S128x128) U) ![rowv (Scf.iv 0#32 1#32 g), colv (Scf.iv 0#32 1#32 t) 2#32] hU2) (loadIdx (View.readAt (Elt F) (Memref.whole cc0_scratch3).view (LoadRect.whole S128x128) V) ![rowv (Scf.iv 0#32 1#32 g), colv64 (Scf.iv 0#32 1#32 t) 2#32] hV2))
          (loadIdx (View.readAt (Elt F) (Memref.whole cc0_scratch2).view (LoadRect.whole S128x128) U) ![rowv (Scf.iv 0#32 1#32 g), colv (Scf.iv 0#32 1#32 t) 3#32] hU3) (loadIdx (View.readAt (Elt F) (Memref.whole cc0_scratch3).view (LoadRect.whole S128x128) V) ![rowv (Scf.iv 0#32 1#32 g), colv64 (Scf.iv 0#32 1#32 t) 3#32] hV3)
          (loadIdx (View.readAt (Elt F) (Memref.whole cc0_scratch2).view (LoadRect.whole S128x128) U) ![rowv (Scf.iv 0#32 1#32 g), colv (Scf.iv 0#32 1#32 t) 4#32] hU4) (loadIdx (View.readAt (Elt F) (Memref.whole cc0_scratch3).view (LoadRect.whole S128x128) V) ![rowv (Scf.iv 0#32 1#32 g), colv64 (Scf.iv 0#32 1#32 t) 4#32] hV4)
          (loadIdx (View.readAt (Elt F) (Memref.whole cc0_scratch2).view (LoadRect.whole S128x128) U) ![rowv (Scf.iv 0#32 1#32 g), colv (Scf.iv 0#32 1#32 t) 5#32] hU5) (loadIdx (View.readAt (Elt F) (Memref.whole cc0_scratch3).view (LoadRect.whole S128x128) V) ![rowv (Scf.iv 0#32 1#32 g), colv64 (Scf.iv 0#32 1#32 t) 5#32] hV5)
          (loadIdx (View.readAt (Elt F) (Memref.whole cc0_scratch2).view (LoadRect.whole S128x128) U) ![rowv (Scf.iv 0#32 1#32 g), colv (Scf.iv 0#32 1#32 t) 6#32] hU6) (loadIdx (View.readAt (Elt F) (Memref.whole cc0_scratch3).view (LoadRect.whole S128x128) V) ![rowv (Scf.iv 0#32 1#32 g), colv64 (Scf.iv 0#32 1#32 t) 6#32] hV6))
        (loadIdx (View.readAt (Elt F) (Memref.whole cc0_scratch2).view (LoadRect.whole S128x128) U) ![rowv (Scf.iv 0#32 1#32 g), colv (Scf.iv 0#32 1#32 t) 7#32] hU7) (loadIdx (View.readAt (Elt F) (Memref.whole cc0_scratch3).view (LoadRect.whole S128x128) V) ![rowv (Scf.iv 0#32 1#32 g), colv64 (Scf.iv 0#32 1#32 t) 7#32] hV7)) := by
  intro x
  show FloatOps.addf (FloatOps.addf (FloatOps.addf (FloatOps.addf (FloatOps.addf (FloatOps.addf (FloatOps.addf (FloatOps.addf
        (acc x) (FloatOps.mulf ((loadIdx (View.readAt (Elt F) (Memref.whole cc0_scratch2).view (LoadRect.whole S128x128) U) ![rowv (Scf.iv 0#32 1#32 g), colv (Scf.iv 0#32 1#32 t) 0#32] hU0) x) ((loadIdx (View.readAt (Elt F) (Memref.whole cc0_scratch3).view (LoadRect.whole S128x128) V) ![rowv (Scf.iv 0#32 1#32 g), colv64 (Scf.iv 0#32 1#32 t) 0#32] hV0) x))) (FloatOps.mulf ((loadIdx (View.readAt (Elt F) (Memref.whole cc0_scratch2).view (LoadRect.whole S128x128) U) ![rowv (Scf.iv 0#32 1#32 g), colv (Scf.iv 0#32 1#32 t) 1#32] hU1) x) ((loadIdx (View.readAt (Elt F) (Memref.whole cc0_scratch3).view (LoadRect.whole S128x128) V) ![rowv (Scf.iv 0#32 1#32 g), colv64 (Scf.iv 0#32 1#32 t) 1#32] hV1) x)))
        (FloatOps.mulf ((loadIdx (View.readAt (Elt F) (Memref.whole cc0_scratch2).view (LoadRect.whole S128x128) U) ![rowv (Scf.iv 0#32 1#32 g), colv (Scf.iv 0#32 1#32 t) 2#32] hU2) x) ((loadIdx (View.readAt (Elt F) (Memref.whole cc0_scratch3).view (LoadRect.whole S128x128) V) ![rowv (Scf.iv 0#32 1#32 g), colv64 (Scf.iv 0#32 1#32 t) 2#32] hV2) x))) (FloatOps.mulf ((loadIdx (View.readAt (Elt F) (Memref.whole cc0_scratch2).view (LoadRect.whole S128x128) U) ![rowv (Scf.iv 0#32 1#32 g), colv (Scf.iv 0#32 1#32 t) 3#32] hU3) x) ((loadIdx (View.readAt (Elt F) (Memref.whole cc0_scratch3).view (LoadRect.whole S128x128) V) ![rowv (Scf.iv 0#32 1#32 g), colv64 (Scf.iv 0#32 1#32 t) 3#32] hV3) x))) (FloatOps.mulf ((loadIdx (View.readAt (Elt F) (Memref.whole cc0_scratch2).view (LoadRect.whole S128x128) U) ![rowv (Scf.iv 0#32 1#32 g), colv (Scf.iv 0#32 1#32 t) 4#32] hU4) x) ((loadIdx (View.readAt (Elt F) (Memref.whole cc0_scratch3).view (LoadRect.whole S128x128) V) ![rowv (Scf.iv 0#32 1#32 g), colv64 (Scf.iv 0#32 1#32 t) 4#32] hV4) x)))
        (FloatOps.mulf ((loadIdx (View.readAt (Elt F) (Memref.whole cc0_scratch2).view (LoadRect.whole S128x128) U) ![rowv (Scf.iv 0#32 1#32 g), colv (Scf.iv 0#32 1#32 t) 5#32] hU5) x) ((loadIdx (View.readAt (Elt F) (Memref.whole cc0_scratch3).view (LoadRect.whole S128x128) V) ![rowv (Scf.iv 0#32 1#32 g), colv64 (Scf.iv 0#32 1#32 t) 5#32] hV5) x))) (FloatOps.mulf ((loadIdx (View.readAt (Elt F) (Memref.whole cc0_scratch2).view (LoadRect.whole S128x128) U) ![rowv (Scf.iv 0#32 1#32 g), colv (Scf.iv 0#32 1#32 t) 6#32] hU6) x) ((loadIdx (View.readAt (Elt F) (Memref.whole cc0_scratch3).view (LoadRect.whole S128x128) V) ![rowv (Scf.iv 0#32 1#32 g), colv64 (Scf.iv 0#32 1#32 t) 6#32] hV6) x))) (FloatOps.mulf ((loadIdx (View.readAt (Elt F) (Memref.whole cc0_scratch2).view (LoadRect.whole S128x128) U) ![rowv (Scf.iv 0#32 1#32 g), colv (Scf.iv 0#32 1#32 t) 7#32] hU7) x) ((loadIdx (View.readAt (Elt F) (Memref.whole cc0_scratch3).view (LoadRect.whole S128x128) V) ![rowv (Scf.iv 0#32 1#32 g), colv64 (Scf.iv 0#32 1#32 t) 7#32] hV7) x)) = _
  rw [hacc x, show 8 * (t + 1) = 8 * t + 8 by ring, dotAcc_add8,
    ld_col d L U g t hg ht 0 (by decide), ld_col d L U g t hg ht 1 (by decide), ld_col d L U g t hg ht 2 (by decide), ld_col d L U g t hg ht 3 (by decide),
    ld_col d L U g t hg ht 4 (by decide), ld_col d L U g t hg ht 5 (by decide), ld_col d L U g t hg ht 6 (by decide), ld_col d L U g t hg ht 7 (by decide),
    ld_col64 d L V g t hg ht 0 (by decide), ld_col64 d L V g t hg ht 1 (by decide), ld_col64 d L V g t hg ht 2 (by decide), ld_col64 d L V g t hg ht 3 (by decide),
    ld_col64 d L V g t hg ht 4 (by decide), ld_col64 d L V g t hg ht 5 (by decide), ld_col64 d L V g t hg ht 6 (by decide), ld_col64 d L V g t hg ht 7 (by decide)]
  rfl

end Step

/-! ## One group: sixteen more entries of the score buffer -/

section Group
variable {F : FTy → Type} [FloatOps F] (m : (ℓ : Loc nD τ sig) → Buf (Elt F) ℓ) (d : Dev nD) (L : grid0.Coords)

/-- The loops of this kernel make eight trips. -/
theorem trips8 : Scf.trips (0#32 : BitVec 32) (Scalar.addi 0#32 8#32) 1#32 = 8 := by decide

/-- THE GROUP: in round c, with the two row buffers holding the rows the tile's (128·c + r)-th indices name, after the
    eight steps of group g the carried vector holds, on lane x, the full 64-term running sum of row 16·g + x — the
    result array's entry for the tile's (128·c + 16·g + x)-th pair. Stored into the score buffer at
    [128·c + 16·g, 128·c + 16·g + 16) it extends the finished prefix by sixteen entries and leaves the rest as it was. -/
theorem group_step (c g : ℕ) (hc : c < 4) (hg : g < 8)
    (U : Buf (Elt F) ((thr d L).loc cc0_scratch2)) (V : Buf (Elt F) ((thr d L).loc cc0_scratch3))
    (hU : RowsU m d L c U) (hV : RowsV m d L c V)
    (f : Buf (Elt F) ((thr d L).loc cc0_scratch4)) (acc : FVec F S16 .f32) (n : ℕ) (hn : n = 8)
    (hacc : Pa d L U V g n acc) (hf : Pf m d L c g f)
    (off : Fin 1 → ℕ) (inb : ∀ a, off a + S16.size a ≤ S512.size a) (hoff : off 0 = 128 * c + 16 * g) :
    Pf m d L c (g + 1)
      ((Memref.whole cc0_scratch4).view.writes (Elt F) f [⟨Rect.unit (s := S512) off S16.size inb, acc⟩]) := by
  subst hn
  have hoff' : off = ![128 * c + 16 * g] := funext fun a => by
    obtain rfl : a = 0 := Subsingleton.elim _ _
    exact hoff
  intro p hp
  have hw := (wL L).isLt
  by_cases hlt : p < 128 * c + 16 * g
  · -- an entry finished before: the store does not reach it
    have hp512 : p % 512 = p := Nat.mod_eq_of_lt (by omega)
    refine Eq.trans ?_ (hf p hlt)
    exact View.read_writes_cons_unit_of_not_mem (Memref.whole cc0_scratch4).view f inb acc []
      (ix1 ⟨p % 512, Nat.mod_lt _ (by norm_num)⟩) hoff' 0 (Or.inl (by show p % 512 < 128 * c + 16 * g; omega))
  · -- one of the sixteen new entries: lane p − (128·c + 16·g) of the carried vector
    have hx0 : p - (128 * c + 16 * g) < 16 := by omega
    have hp512 : p % 512 = p := Nat.mod_eq_of_lt (by omega)
    let x : S16.Idx := ix1 ⟨p - (128 * c + 16 * g), hx0⟩
    have hrd : ((Memref.whole cc0_scratch4).view.writes (Elt F) f [⟨Rect.unit (s := S512) off S16.size inb, acc⟩])
        (ix1 ⟨p % 512, Nat.mod_lt _ (by norm_num)⟩) = acc x :=
      View.read_writes_cons_unit_of_mem (Memref.whole cc0_scratch4).view f inb acc []
        (ix1 ⟨p % 512, Nat.mod_lt _ (by norm_num)⟩) x hoff' (fun a =>
          match a with
          | ⟨0, _⟩ => by
            show p % 512 = (128 * c + 16 * g) + (p - (128 * c + 16 * g))
            omega)
    rw [hrd, hacc x]
    have hr : (r16 g x).val = 16 * g + (p - (128 * c + 16 * g)) := by
      show (16 * g + (p - (128 * c + 16 * g))) % 128 = _
      exact Nat.mod_eq_of_lt (by omega)
    have hj : (⟨(512 * (wL L).val + 128 * c + (r16 g x).val) % 16384, Nat.mod_lt _ (by norm_num)⟩ : Fin 16384)
        = ⟨(512 * (wL L).val + p) % 16384, Nat.mod_lt _ (by norm_num)⟩ := Fin.ext (by
      show (512 * (wL L).val + 128 * c + (r16 g x).val) % 16384 = (512 * (wL L).val + p) % 16384
      rw [hr]; congr 1; omega)
    show Cert.KOut.dotAcc _ _ 64 = Cert.KOut.dotAcc _ _ 64
    congr 1
    · funext dd; rw [hU (r16 g x) (Cert.KOut.colU dd), hj]
    · funext dd; rw [hV (r16 g x) (Cert.KOut.colV dd), hj]

/-- Before the first group of the first round nothing is claimed. -/
theorem Pf_zero (f : Buf (Elt F) ((thr d L).loc cc0_scratch4)) : Pf m d L 0 0 f :=
  fun p hp => absurd hp (by omega)

/-- The eight groups of a round finish its 128 entries: the next round starts from there. -/
theorem Pf_next (c n : ℕ) (hn : n = 8) (f : Buf (Elt F) ((thr d L).loc cc0_scratch4)) (h : Pf m d L c n f) :
    Pf m d L (c + 1) 0 f := by
  subst hn; exact fun p hp => h p (by omega)

/-- After the fourth round all 512 entries of the score buffer are the tile's entries of the result array. -/
theorem Pf_done (n : ℕ) (hn : n = 8) (f : Buf (Elt F) ((thr d L).loc cc0_scratch4)) (h : Pf m d L 3 n f) :
    ∀ p, p < 512 → f (ix1 ⟨p % 512, Nat.mod_lt _ (by norm_num)⟩)
      = OUTm m d (ix1 ⟨(512 * (wL L).val + p) % 16384, Nat.mod_lt _ (by norm_num)⟩) := by
  subst hn; exact fun p hp => h p (by omega)

end Group

end Cert.Proof.KI

end
-- ==== Proof.KIMem.lean ====
/-
  Two facts about where a tile's transfers put their words. The last transfer copies the 512 words of the score buffer
  onto the tile's slice of the result array: entry x of the buffer lands at index 512·w + x of the array, w the tile's
  number. So if the buffer's entry p is the score of pair 512·w + p for every p < 512, then after the transfer the
  result array holds, on the tile's 512 indices, the scores.
  Each round's gather fills a 128 × 128 row buffer from the concatenated table: row r of the buffer is the table's row
  named by the r-th word of a list row, and that list row has just received 128 consecutive index words of the tile,
  those from 512·w + 128·c in round c. The precondition's range makes each word its own row number. So the buffer holds
  at (r, q) the table's entry at (the row index 128·c + r of the tile names, q).
-/
import proofs.«203366_g62191126446181_cont_9to1c4b_889_14_alg».proof.Proof.KIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

open Idealize.ShloMosaic.ValueIdx

variable (m : (ℓ : Loc nD τ sig) → Buf (Elt F) ℓ)
variable [FloatOps F]

/-! ## The score buffer written out -/

/-- Once the score buffer, holding at each entry `p` the score of pair `512·w + p`, is written through the tile's slice
    of the result array, the array holds the scores on the slice's indices. -/
theorem out_ok (d : Dev nD) (L : grid0.Coords) (f4 : Buf (Elt F) ((thr d L).loc cc0_scratch4))
    (hf : ∀ p, p < 512 → f4 (ix1 ⟨p % 512, Nat.mod_lt _ (by norm_num)⟩)
      = OUTm m d (ix1 ⟨(512 * (wL L).val + p) % 16384, Nat.mod_lt _ (by norm_num)⟩))
    (g : Buf (Elt F) (oLoc d)) :
    ∀ i ∈ (oSl L).view.set,
      (oSl L).view.writes (Elt F) g [⟨Rect.whole S512, ReadAs.same.apply (View.read (Elt F) (b4).view f4)⟩] i = OUTm m d i := by
  intro i hi
  obtain ⟨x, -, rfl⟩ := Finset.mem_map.1 hi
  have hx : ((oSl L).view.slice (Rect.whole S512)).emb x = (oSl L).view.emb x := by
    rw [View.emb_slice]
    show (oSl L).view.emb ((Rect.whole S512).emb x) = _
    rw [Rect.emb_whole_apply]
  rw [View.writes_singleton, ← hx, View.write_emb_of_mem _ _ (Finset.mem_univ x), hx]
  show f4 x = OUTm m d ((oSl L).view.emb x)
  have hp : (x 0).val < 512 := (x 0).isLt
  have e1 : (ix1 ⟨(x 0).val % 512, Nat.mod_lt _ (by norm_num)⟩ : S512.Idx) = x := by
    funext a
    match a with
    | ⟨0, _⟩ => exact Fin.ext (Nat.mod_eq_of_lt hp)
  have e2 : (ix1 ⟨(512 * (wL L).val + (x 0).val) % 16384, Nat.mod_lt _ (by norm_num)⟩ : S16384.Idx) = (oSl L).view.emb x := by
    funext a
    match a with
    | ⟨0, _⟩ =>
      apply Fin.ext
      show (512 * (wL L).val + (x 0).val) % 16384 = k0_off6 L 0 + 1 * (x 0).val
      rw [k0_off6_eq]
      show (512 * (2 * (L 1).val + (L 0).val) + (x 0).val) % 16384 = (1024 * (L 1).val + 512 * (L 0).val) + 1 * (x 0).val
      have h0 : (L 0).val < 2 := (L 0).isLt
      have h1 : (L 1).val < 16 := (L 1).isLt
      omega
  have h := hf (x 0).val hp
  rw [e1, e2] at h
  exact h

/-! ## The gathered rows -/

omit [FloatOps F] in
/-- A whole-shape payload written through a whole scratch buffer is the buffer's new contents. -/
theorem write_whole_apply {κ : Kind} (b : Ref sig κ) (g0 : (View.whole b).ty.Contents (Elt F))
    (w : (Rect.whole b.ty.shape).shape.Idx → Elt F b.ty.elt) (x : b.ty.shape.Idx) :
    ((View.whole b).slice (Rect.whole b.ty.shape)).write (Elt F) g0 w Finset.univ x = w x := by
  have hx : ((View.whole b).slice (Rect.whole b.ty.shape)).emb x = x := by
    rw [View.emb_slice]
    show (View.whole b).emb ((Rect.whole b.ty.shape).emb x) = x
    rw [Rect.emb_whole_apply]; rfl
  have h := View.write_emb_of_mem (v := (View.whole b).slice (Rect.whole b.ty.shape)) (Val := Elt F) g0 w (Finset.mem_univ x)
  rw [hx] at h
  exact h

omit [FloatOps F] in
/-- The gather's payload at row r, column q: the table at the row the list's r-th word names, column q. -/
theorem gather_apply (hg : S1000000x128.Gathers 0 S128x128) (T : S1000000x128.Idx → Elt F .f32)
    (rr : Fin (S128x128.size hg.axis') → Fin (S1000000x128.size hg.axis)) (r q : Fin 128) :
    SparseCore.gatherPayload hg T rr (ix2 r q) = T (ix2 (rr r) q) := by
  unfold SparseCore.gatherPayload
  congr 1
  funext a
  match a with
  | ⟨0, _⟩ => exact Shape.Gathers.idx_axis hg rr (ix2 r q)
  | ⟨1, _⟩ => exact Fin.ext (Shape.Gathers.idx_of_ne hg rr (ix2 r q) ⟨1, by decide⟩ (by decide))

omit [FloatOps F] in
/-- Round c's 128 index words start at entry 512·w + 128·c of an index array. -/
theorem off1_eq (L : grid0.Coords) (c : Fin 4) : k0_off1 L (BitVec.ofNat 32 (128 * c.val)) 0 = 512 * (wL L).val + 128 * c.val := by
  rw [k0_off1_eq]
  show 1024 * (L 1).val + 512 * (L 0).val + 128 * c.val = 512 * (2 * (L 1).val + (L 0).val) + 128 * c.val
  omega

/-- Round c's user rows: the first row buffer, written with the gather of the concatenated table through the list row
    that has just received the tile's user indices 128·c … 128·c + 127, holds at row r the table's row named by user
    index 128·c + r of the tile. The list row's view, what it held before, the offset and every proof argument are
    arbitrary. -/
theorem rowsU_ok (d : Dev nD) (L : grid0.Coords) (c : ℕ)
    (v : View sig .scVector .vmem S128 .i32) (g : v.ty.Contents (Elt F))
    (off : Fin 1 → ℕ) (hoff : ∀ a, off a + S128.size a ≤ S16384.size a)
    (hst : ∀ a, (Rect.unit (s := S16384) off S128.size hoff).stride a = 1)
    (hoffc : off 0 = 512 * (wL L).val + 128 * c)
    (hg : S1000000x128.Gathers 0 S128x128)
    (hinb : ∀ a, (![0, 0] : Fin 2 → ℕ) a + S1000000x128.size a ≤ S1000000x128.size a)
    (hst' : ∀ a, (Rect.unit (s := S1000000x128) ![0, 0] S1000000x128.size hinb).stride a = 1)
    (hn : S128.numel = S128x128.size hg.axis')
    (hin : ∀ x, (View.read (Elt F) v (View.write (Elt F) v g (ReadAs.same.apply
        (View.read (Elt F) ((uW).slice (Rect.unit (s := S16384) off S128.size hoff) hst).view (m (uLoc d)))) Finset.univ) x).toNat
          < S1000000x128.size hg.axis)
    (g0 : (b2).view.ty.Contents (Elt F)) :
    RowsU m d L c ((b2).view.writes (Elt F) g0 [⟨Rect.whole cc0_scratch2.ty.shape,
      SparseCore.gatherPayload hg (View.read (Elt F) ((cW).slice (Rect.unit (s := S1000000x128) ![0, 0] S1000000x128.size hinb) hst').view (CAT m d))
        (SparseCore.rows (View.read (Elt F) v (View.write (Elt F) v g (ReadAs.same.apply
          (View.read (Elt F) ((uW).slice (Rect.unit (s := S16384) off S128.size hoff) hst).view (m (uLoc d)))) Finset.univ)) hn hin)⟩]) := by
  intro r q
  rw [View.writes_singleton]
  refine (write_whole_apply (F := F) cc0_scratch2 g0 _ (ix2 r q)).trans ?_
  rw [gather_apply]
  -- the word the list row holds at entry k is user index 128·c + k of the tile
  have hword : ∀ k : S128.Idx, View.read (Elt F) v (View.write (Elt F) v g (ReadAs.same.apply
        (View.read (Elt F) ((uW).slice (Rect.unit (s := S16384) off S128.size hoff) hst).view (m (uLoc d)))) Finset.univ) k
      = m (uLoc d) (ix1 ⟨(512 * (wL L).val + 128 * c + (k 0).val) % 16384, Nat.mod_lt _ (by norm_num)⟩) := by
    intro k
    rw [View.read_write_univ]
    show m (uLoc d) (((uW).slice (Rect.unit (s := S16384) off S128.size hoff) hst).view.emb k) = _
    congr 1
    funext a
    match a with
    | ⟨0, _⟩ =>
      apply Fin.ext
      show off 0 + 1 * (k 0).val = (512 * (wL L).val + 128 * c + (k 0).val) % 16384
      have h1 := hoff 0
      have h2 : S128.size 0 = 128 := rfl
      have h3 : S16384.size 0 = 16384 := rfl
      have hk0 : (k 0).val < 128 := (k 0).isLt
      omega
  -- entry r of the list, in row-major order, is the entry at coordinate r
  have hk0 : ((S128.rowMajor.symm (Fin.cast hn.symm r)) 0).val = r.val := by
    have h := Shape.rowMajor_val_one (S128.rowMajor.symm (Fin.cast hn.symm r))
    rw [Equiv.apply_symm_apply] at h
    exact h.symm
  have hrow : (SparseCore.rows (View.read (Elt F) v (View.write (Elt F) v g (ReadAs.same.apply
        (View.read (Elt F) ((uW).slice (Rect.unit (s := S16384) off S128.size hoff) hst).view (m (uLoc d)))) Finset.univ)) hn hin r).val
      = (Cert.DotSpec.rowOf (m (uLoc d) (ix1 ⟨(512 * (wL L).val + 128 * c + r.val) % 16384, Nat.mod_lt _ (by norm_num)⟩))).val := by
    have hlt := hin (S128.rowMajor.symm (Fin.cast hn.symm r))
    rw [hword, hk0] at hlt
    rw [Cert.DotSpec.rowOf_val_of_lt hlt]
    show (View.read (Elt F) v _ (S128.rowMajor.symm (Fin.cast hn.symm r))).toNat = _
    rw [hword, hk0]
  rw [View.read_apply]
  show CAT m d (((cW).slice (Rect.unit (s := S1000000x128) ![0, 0] S1000000x128.size hinb) hst').view.emb (ix2 _ q)) = _
  refine congrArg (CAT m d) ?_
  funext a
  match a with
  | ⟨0, _⟩ =>
    apply Fin.ext
    show 0 + 1 * (SparseCore.rows _ hn hin r).val = (Cert.DotSpec.rowOf _).val
    rw [hrow]; omega
  | ⟨1, _⟩ =>
    apply Fin.ext
    show 0 + 1 * q.val = q.val
    omega

/-- Round c's item rows: the second row buffer, written with the gather of the concatenated table through the list row
    that has just received the tile's item indices 128·c … 128·c + 127, holds at row r the table's row named by item
    index 128·c + r of the tile. The list row's view, what it held before, the offset and every proof argument are
    arbitrary. -/
theorem rowsV_ok (d : Dev nD) (L : grid0.Coords) (c : ℕ)
    (v : View sig .scVector .vmem S128 .i32) (g : v.ty.Contents (Elt F))
    (off : Fin 1 → ℕ) (hoff : ∀ a, off a + S128.size a ≤ S16384.size a)
    (hst : ∀ a, (Rect.unit (s := S16384) off S128.size hoff).stride a = 1)
    (hoffc : off 0 = 512 * (wL L).val + 128 * c)
    (hg : S1000000x128.Gathers 0 S128x128)
    (hinb : ∀ a, (![0, 0] : Fin 2 → ℕ) a + S1000000x128.size a ≤ S1000000x128.size a)
    (hst' : ∀ a, (Rect.unit (s := S1000000x128) ![0, 0] S1000000x128.size hinb).stride a = 1)
    (hn : S128.numel = S128x128.size hg.axis')
    (hin : ∀ x, (View.read (Elt F) v (View.write (Elt F) v g (ReadAs.same.apply
        (View.read (Elt F) ((iW).slice (Rect.unit (s := S16384) off S128.size hoff) hst).view (m (iLoc d)))) Finset.univ) x).toNat
          < S1000000x128.size hg.axis)
    (g0 : (b3).view.ty.Contents (Elt F)) :
    RowsV m d L c ((b3).view.writes (Elt F) g0 [⟨Rect.whole cc0_scratch3.ty.shape,
      SparseCore.gatherPayload hg (View.read (Elt F) ((cW).slice (Rect.unit (s := S1000000x128) ![0, 0] S1000000x128.size hinb) hst').view (CAT m d))
        (SparseCore.rows (View.read (Elt F) v (View.write (Elt F) v g (ReadAs.same.apply
          (View.read (Elt F) ((iW).slice (Rect.unit (s := S16384) off S128.size hoff) hst).view (m (iLoc d)))) Finset.univ)) hn hin)⟩]) := by
  intro r q
  rw [View.writes_singleton]
  refine (write_whole_apply (F := F) cc0_scratch3 g0 _ (ix2 r q)).trans ?_
  rw [gather_apply]
  -- the word the list row holds at entry k is item index 128·c + k of the tile
  have hword : ∀ k : S128.Idx, View.read (Elt F) v (View.write (Elt F) v g (ReadAs.same.apply
        (View.read (Elt F) ((iW).slice (Rect.unit (s := S16384) off S128.size hoff) hst).view (m (iLoc d)))) Finset.univ) k
      = m (iLoc d) (ix1 ⟨(512 * (wL L).val + 128 * c + (k 0).val) % 16384, Nat.mod_lt _ (by norm_num)⟩) := by
    intro k
    rw [View.read_write_univ]
    show m (iLoc d) (((iW).slice (Rect.unit (s := S16384) off S128.size hoff) hst).view.emb k) = _
    congr 1
    funext a
    match a with
    | ⟨0, _⟩ =>
      apply Fin.ext
      show off 0 + 1 * (k 0).val = (512 * (wL L).val + 128 * c + (k 0).val) % 16384
      have h1 := hoff 0
      have h2 : S128.size 0 = 128 := rfl
      have h3 : S16384.size 0 = 16384 := rfl
      have hk0 : (k 0).val < 128 := (k 0).isLt
      omega
  -- entry r of the list, in row-major order, is the entry at coordinate r
  have hk0 : ((S128.rowMajor.symm (Fin.cast hn.symm r)) 0).val = r.val := by
    have h := Shape.rowMajor_val_one (S128.rowMajor.symm (Fin.cast hn.symm r))
    rw [Equiv.apply_symm_apply] at h
    exact h.symm
  have hrow : (SparseCore.rows (View.read (Elt F) v (View.write (Elt F) v g (ReadAs.same.apply
        (View.read (Elt F) ((iW).slice (Rect.unit (s := S16384) off S128.size hoff) hst).view (m (iLoc d)))) Finset.univ)) hn hin r).val
      = (Cert.DotSpec.rowOf (m (iLoc d) (ix1 ⟨(512 * (wL L).val + 128 * c + r.val) % 16384, Nat.mod_lt _ (by norm_num)⟩))).val := by
    have hlt := hin (S128.rowMajor.symm (Fin.cast hn.symm r))
    rw [hword, hk0] at hlt
    rw [Cert.DotSpec.rowOf_val_of_lt hlt]
    show (View.read (Elt F) v _ (S128.rowMajor.symm (Fin.cast hn.symm r))).toNat = _
    rw [hword, hk0]
  rw [View.read_apply]
  show CAT m d (((cW).slice (Rect.unit (s := S1000000x128) ![0, 0] S1000000x128.size hinb) hst').view.emb (ix2 _ q)) = _
  refine congrArg (CAT m d) ?_
  funext a
  match a with
  | ⟨0, _⟩ =>
    apply Fin.ext
    show 0 + 1 * (SparseCore.rows _ hn hin r).val = (Cert.DotSpec.rowOf _).val
    rw [hrow]; omega
  | ⟨1, _⟩ =>
    apply Fin.ext
    show 0 + 1 * q.val = q.val
    omega

end Cert.Proof.KI

end
-- ==== Proof.KIBody.lean ====
/-
  One tile's task: four rounds of (fetch 128 user indices and 128 item indices; gather the 128 concatenated rows each
  list names; for each of the 128 pairs accumulate the 64 products of the user half of one row with the item half of
  the other), then the 512 scores written out to the tile's entries of the result array.
  Proved here: handed read shares of the two index arrays and of the concatenated table and its own 512 entries of the
  result array, the task runs to its end without fault and hands the same back, those entries now holding the scores of
  the tile's 512 pairs.
-/
import proofs.«203366_g62191126446181_cont_9to1c4b_889_14_alg».proof.Proof.KIIface
import proofs.«203366_g62191126446181_cont_9to1c4b_889_14_alg».proof.Proof.KIVal
import proofs.«203366_g62191126446181_cont_9to1c4b_889_14_alg».proof.Proof.KIMem

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

variable (m : (ℓ : Loc nD τ sig) → Buf (Elt F) ℓ)
variable [FloatOps F]

/-! ## The gathers' offsets name rows -/

omit [FloatOps F] in
/-- Whatever a list row held before, once 128 user indices have landed on it every word it holds names a row of the
    concatenated table. -/
theorem hin_u (d : Dev nD) (fu : Buf (Elt F) (uLoc d)) (hr : Cert.DotSpec.InRange fu)
    (v : View sig .scVector .vmem S128 .i32) (g : v.ty.Contents (Elt F)) (off : Fin 1 → ℕ) (hoff : ∀ a, off a + S128.size a ≤ S16384.size a)
    (hst : ∀ a, (Rect.unit (s := S16384) off S128.size hoff).stride a = 1) (x : S128.Idx) :
    (View.read (Elt F) v (View.write (Elt F) v g (ReadAs.same.apply
      (View.read (Elt F) ((uW).slice (Rect.unit (s := S16384) off S128.size hoff) hst).view fu)) Finset.univ) x).toNat < 1000000 := by
  rw [View.read_write_univ]
  show (View.read (Elt F) ((uW).slice (Rect.unit (s := S16384) off S128.size hoff) hst).view fu x).toNat < 1000000
  rw [show ∀ j, View.read (Elt F) ((uW).slice (Rect.unit (s := S16384) off S128.size hoff) hst).view fu j
      = fu (((uW).slice (Rect.unit (s := S16384) off S128.size hoff) hst).view.emb j) from fun j => (View.read_apply _ _).trans (cast_eq _ _)]
  exact hr _

omit [FloatOps F] in
/-- The same for 128 item indices. -/
theorem hin_i (d : Dev nD) (fi : Buf (Elt F) (iLoc d)) (hr : Cert.DotSpec.InRange fi)
    (v : View sig .scVector .vmem S128 .i32) (g : v.ty.Contents (Elt F)) (off : Fin 1 → ℕ) (hoff : ∀ a, off a + S128.size a ≤ S16384.size a)
    (hst : ∀ a, (Rect.unit (s := S16384) off S128.size hoff).stride a = 1) (x : S128.Idx) :
    (View.read (Elt F) v (View.write (Elt F) v g (ReadAs.same.apply
      (View.read (Elt F) ((iW).slice (Rect.unit (s := S16384) off S128.size hoff) hst).view fi)) Finset.univ) x).toNat < 1000000 := by
  rw [View.read_write_univ]
  show (View.read (Elt F) ((iW).slice (Rect.unit (s := S16384) off S128.size hoff) hst).view fi x).toNat < 1000000
  rw [show ∀ j, View.read (Elt F) ((iW).slice (Rect.unit (s := S16384) off S128.size hoff) hst).view fi j
      = fi (((iW).slice (Rect.unit (s := S16384) off S128.size hoff) hst).view.emb j) from fun j => (View.read_apply _ _).trans (cast_eq _ _)]
  exact hr _

/-! ## The loops' invariants -/

/-- Across the eight groups of a round: the two row buffers keep their gathered rows; the score buffer holds some
    contents of which `Pf` holds at this group. -/
def invG (d : Dev nD) (L : grid0.Coords) (U : Buf (Elt F) ((thr d L).loc cc0_scratch2)) (V : Buf (Elt F) ((thr d L).loc cc0_scratch3))
    (Pf : ℕ → Buf (Elt F) ((thr d L).loc cc0_scratch4) → Prop) (k : ℕ) (_ : PUnit) : sProp 𝕄 :=
  iprop(((b2).view.loc (thr d L) ↦{fullShare} U) ∗ ((b3).view.loc (thr d L) ↦{fullShare} V)
    ∗ ∃ f, ((b4).view.loc (thr d L) ↦{fullShare} f) ∗ ⌜Pf k f⌝)

/-- Across the eight steps of a group: the row buffers as they are, the carried vector of sixteen running sums such that
    `Pa` holds at this step. -/
def invD (d : Dev nD) (L : grid0.Coords) (U : Buf (Elt F) ((thr d L).loc cc0_scratch2)) (V : Buf (Elt F) ((thr d L).loc cc0_scratch3))
    (Pa : ℕ → FVec F S16 .f32 → Prop) (k : ℕ) (acc : FVec F S16 .f32) : sProp 𝕄 :=
  iprop(((b2).view.loc (thr d L) ↦{fullShare} U) ∗ ((b3).view.loc (thr d L) ↦{fullShare} V) ∗ ⌜Pa k acc⌝)

omit [FloatOps F] in
/-- A buffer at contents of which `P` holds is a buffer at some contents of which `P` holds. -/
theorem pts_pack {ℓ : Loc nD τ sig} (q : PosShare TreeShare) (P : Buf (Elt F) ℓ → Prop) (f : Buf (Elt F) ℓ) (hf : P f) :
    (ℓ ↦{q} f : sProp 𝕄) ⊢ iprop(∃ g, (ℓ ↦{q} g) ∗ ⌜P g⌝) := by
  iintro H; iexists f; isplitl [H]; · iexact H
  ipureintro; exact hf

set_option maxHeartbeats 8000000 in
theorem tile_body (hF : (K (F := F)).Facts) (d : Dev nD) (L : grid0.Coords)
    (hru : Cert.DotSpec.InRange (m (uLoc d))) (hri : Cert.DotSpec.InRange (m (iLoc d)))
    (O : CellTallies nD τ sig (HIx 1)) (W : Waits sig (HIx 1)) (hO : ∀ g, O g none = 0) :
    iprop(levAts (K (F := F)).L (K (F := F)).lev ∗ emp ∗ tilePre m d L
        ∗ scopedBufs (thr d L) ∗ scopedSems0 (thr d L) ∗ owes (thr d L) O W)
      ⊢ wp frame (wpE (defs₀ (F := F)) 𝒱₀ (thr d L) none) Set.univ
          (cc0__body L uW (Memref.isWhole_whole _) iW (Memref.isWhole_whole _) cW (Memref.isWhole_whole _) oW (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scoped0 cc0_scoped1 cc0_scoped2 cc0_scoped3 cc0_scoped4 cc0_scoped5 cc0_scoped6 cc0_scoped7 cc0_scoped8)
          fun _ => iprop(tilePost m d L ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tilePre
  iintro ⟨#Hlv, -, ⟨Hu, Hi, Hc, Ho⟩, ⟨⟨%f0, H0⟩, ⟨%f1, H1⟩, ⟨%f2, H2⟩, ⟨%f3, H3⟩, ⟨%f4, H4⟩, Hbufs⟩, ⟨Hs0, Hs1, Hs2, Hs3, Hs4, Hs5, Hs6, Hs7, Hs8, Hs9, Hs10, Hsems⟩, HO⟩
  ihave Hmw := (show levAts (K (F := F)).L (K (F := F)).lev ⊢ Transfers.MayWaits (thr d L) (default : HIx 1) O from
    (K (F := F)).mayWaits_none (thr := thr d L) hO) $$ Hlv
  ihave Hu := (Entails.of_eq (pts_uW (F := F) d L _ _).symm) $$ Hu
  ihave Hi := (Entails.of_eq (pts_iW (F := F) d L _ _).symm) $$ Hi
  ihave Hc := (Entails.of_eq (pts_cW (F := F) d L _ _).symm) $$ Hc
  ihave Ho := (Entails.of_eq (pts_oSl (F := F) d L _).symm) $$ Ho
  ihave H0 := (Entails.of_eq (pts_b0 (F := F) d L _).symm) $$ H0
  ihave H1 := (Entails.of_eq (pts_b1 (F := F) d L _).symm) $$ H1
  ihave H2 := (Entails.of_eq (pts_b2 (F := F) d L _).symm) $$ H2
  ihave H3 := (Entails.of_eq (pts_b3 (F := F) d L _).symm) $$ H3
  ihave H4 := (Entails.of_eq (pts_b4 (F := F) d L _).symm) $$ H4
  have hinU := hin_u (F := F) d (m (uLoc d)) hru
  have hinI := hin_i (F := F) d (m (iLoc d)) hri
  ihave Hc2 := (pointsTo_share (PosShare.mem_left_op_right (qsh (wL L)))).1 $$ Hc
  icases Hc2 with ⟨Hc, Hc'⟩
  sl_exec
  have hRU0 : RowsU m d L 0 ((b2).view.writes (Elt F) (b2).view.junk [⟨Rect.whole cc0_scratch2.ty.shape, tile_body.sl.gather2 m d L f0 hinU⟩]) :=
    rowsU_ok m d L 0 _ _ _ _ _ (off1_eq L ⟨0, by decide⟩) _ _ _ _ _ _
  ihave H2e := (pts_pack (F := F) (ℓ := (b2).view.loc (thr d L)) fullShare (RowsU m d L 0) _ hRU0) $$ H2
  icases H2e with ⟨%Ua, H2, %hUa⟩
  have hRV0 : RowsV m d L 0 ((b3).view.writes (Elt F) (b3).view.junk [⟨Rect.whole cc0_scratch3.ty.shape, tile_body.sl.gather3 m d L f1 hinI⟩]) :=
    rowsV_ok m d L 0 _ _ _ _ _ (off1_eq L ⟨0, by decide⟩) _ _ _ _ _ _
  ihave H3e := (pts_pack (F := F) (ℓ := (b3).view.loc (thr d L)) fullShare (RowsV m d L 0) _ hRV0) $$ H3
  icases H3e with ⟨%Va, H3, %hVa⟩
  sl_for (invG (F := F) d L Ua Va (Pf m d L 0)) $$ [H2 H3 H4]
  case region =>
    intro k acc
    have hg : k.val < 8 := lt_of_lt_of_le k.isLt k0_t1_abs.2.1
    unfold invG
    iintro ⟨H2, H3, ⟨%f, H4, %hf⟩⟩
    sl_exec
    sl_for (invD (F := F) d L Ua Va (Pa d L Ua Va k.val)) $$ [H2 H3]
    case region =>
      intro k2 acc2
      have ht : k2.val < 8 := lt_of_lt_of_le k2.isLt k0_t2_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Ua Va _ _ hg ht acc2 ha
    · unfold invD
      isplitl [H2]; · iexact H2
      isplitl [H3]; · iexact H3
      ipureintro; exact Pa_init d L Ua Va _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 0 _ (by norm_num) hg Ua Va hUa hVa f accF _ trips8 haF hf _ _ (by rw [k0_off2_eq]; show 16 * k.val = _; omega)
  · unfold invG
    isplitl [H2]; · iexact H2
    isplitl [H3]; · iexact H3
    iexists _; isplitl [H4]; · iexact H4
    ipureintro; exact Pf_zero m d L _
  iintro %_ HI
  unfold invG
  icases HI with ⟨H2, H3, ⟨%f4a, H4, %hf4a⟩⟩
  sl_exec
  have hRU1 : RowsU m d L 1 ((b2).view.writes (Elt F) (b2).view.junk [⟨Rect.whole cc0_scratch2.ty.shape, tile_body.sl.gather2_1 m d L f0 hinU⟩]) :=
    rowsU_ok m d L 1 _ _ _ _ _ (off1_eq L ⟨1, by decide⟩) _ _ _ _ _ _
  ihave H2e := (pts_pack (F := F) (ℓ := (b2).view.loc (thr d L)) fullShare (RowsU m d L 1) _ hRU1) $$ H2
  icases H2e with ⟨%Ub, H2, %hUb⟩
  have hRV1 : RowsV m d L 1 ((b3).view.writes (Elt F) (b3).view.junk [⟨Rect.whole cc0_scratch3.ty.shape, tile_body.sl.gather3_1 m d L f1 hinI⟩]) :=
    rowsV_ok m d L 1 _ _ _ _ _ (off1_eq L ⟨1, by decide⟩) _ _ _ _ _ _
  ihave H3e := (pts_pack (F := F) (ℓ := (b3).view.loc (thr d L)) fullShare (RowsV m d L 1) _ hRV1) $$ H3
  icases H3e with ⟨%Vb, H3, %hVb⟩
  sl_for (invG (F := F) d L Ub Vb (Pf m d L 1)) $$ [H2 H3 H4]
  case region =>
    intro k acc
    have hg : k.val < 8 := lt_of_lt_of_le k.isLt k0_t3_abs.2.1
    unfold invG
    iintro ⟨H2, H3, ⟨%f, H4, %hf⟩⟩
    sl_exec
    sl_for (invD (F := F) d L Ub Vb (Pa d L Ub Vb k.val)) $$ [H2 H3]
    case region =>
      intro k2 acc2
      have ht : k2.val < 8 := lt_of_lt_of_le k2.isLt k0_t4_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Ub Vb _ _ hg ht acc2 ha
    · unfold invD
      isplitl [H2]; · iexact H2
      isplitl [H3]; · iexact H3
      ipureintro; exact Pa_init d L Ub Vb _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 1 _ (by norm_num) hg Ub Vb hUb hVb f accF _ trips8 haF hf _ _ (by rw [k0_off3_eq]; show 16 * k.val + 128 = _; omega)
  · unfold invG
    isplitl [H2]; · iexact H2
    isplitl [H3]; · iexact H3
    iexists _; isplitl [H4]; · iexact H4
    ipureintro; exact Pf_next m d L 0 _ trips8 _ hf4a
  iintro %_ HI
  unfold invG
  icases HI with ⟨H2, H3, ⟨%f4b, H4, %hf4b⟩⟩
  sl_exec
  have hRU2 : RowsU m d L 2 ((b2).view.writes (Elt F) (b2).view.junk [⟨Rect.whole cc0_scratch2.ty.shape, tile_body.sl.gather2_2 m d L f0 hinU⟩]) :=
    rowsU_ok m d L 2 _ _ _ _ _ (off1_eq L ⟨2, by decide⟩) _ _ _ _ _ _
  ihave H2e := (pts_pack (F := F) (ℓ := (b2).view.loc (thr d L)) fullShare (RowsU m d L 2) _ hRU2) $$ H2
  icases H2e with ⟨%Uc, H2, %hUc⟩
  have hRV2 : RowsV m d L 2 ((b3).view.writes (Elt F) (b3).view.junk [⟨Rect.whole cc0_scratch3.ty.shape, tile_body.sl.gather3_2 m d L f1 hinI⟩]) :=
    rowsV_ok m d L 2 _ _ _ _ _ (off1_eq L ⟨2, by decide⟩) _ _ _ _ _ _
  ihave H3e := (pts_pack (F := F) (ℓ := (b3).view.loc (thr d L)) fullShare (RowsV m d L 2) _ hRV2) $$ H3
  icases H3e with ⟨%Vc, H3, %hVc⟩
  sl_for (invG (F := F) d L Uc Vc (Pf m d L 2)) $$ [H2 H3 H4]
  case region =>
    intro k acc
    have hg : k.val < 8 := lt_of_lt_of_le k.isLt k0_t5_abs.2.1
    unfold invG
    iintro ⟨H2, H3, ⟨%f, H4, %hf⟩⟩
    sl_exec
    sl_for (invD (F := F) d L Uc Vc (Pa d L Uc Vc k.val)) $$ [H2 H3]
    case region =>
      intro k2 acc2
      have ht : k2.val < 8 := lt_of_lt_of_le k2.isLt k0_t6_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Uc Vc _ _ hg ht acc2 ha
    · unfold invD
      isplitl [H2]; · iexact H2
      isplitl [H3]; · iexact H3
      ipureintro; exact Pa_init d L Uc Vc _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 2 _ (by norm_num) hg Uc Vc hUc hVc f accF _ trips8 haF hf _ _ (by rw [k0_off4_eq]; show 16 * k.val + 256 = _; omega)
  · unfold invG
    isplitl [H2]; · iexact H2
    isplitl [H3]; · iexact H3
    iexists _; isplitl [H4]; · iexact H4
    ipureintro; exact Pf_next m d L 1 _ trips8 _ hf4b
  iintro %_ HI
  unfold invG
  icases HI with ⟨H2, H3, ⟨%f4c, H4, %hf4c⟩⟩
  sl_exec
  have hRU3 : RowsU m d L 3 ((b2).view.writes (Elt F) (b2).view.junk [⟨Rect.whole cc0_scratch2.ty.shape, tile_body.sl.gather2_3 m d L f0 hinU⟩]) :=
    rowsU_ok m d L 3 _ _ _ _ _ (off1_eq L ⟨3, by decide⟩) _ _ _ _ _ _
  ihave H2e := (pts_pack (F := F) (ℓ := (b2).view.loc (thr d L)) fullShare (RowsU m d L 3) _ hRU3) $$ H2
  icases H2e with ⟨%Ud, H2, %hUd⟩
  have hRV3 : RowsV m d L 3 ((b3).view.writes (Elt F) (b3).view.junk [⟨Rect.whole cc0_scratch3.ty.shape, tile_body.sl.gather3_3 m d L f1 hinI⟩]) :=
    rowsV_ok m d L 3 _ _ _ _ _ (off1_eq L ⟨3, by decide⟩) _ _ _ _ _ _
  ihave H3e := (pts_pack (F := F) (ℓ := (b3).view.loc (thr d L)) fullShare (RowsV m d L 3) _ hRV3) $$ H3
  icases H3e with ⟨%Vd, H3, %hVd⟩
  sl_for (invG (F := F) d L Ud Vd (Pf m d L 3)) $$ [H2 H3 H4]
  case region =>
    intro k acc
    have hg : k.val < 8 := lt_of_lt_of_le k.isLt k0_t7_abs.2.1
    unfold invG
    iintro ⟨H2, H3, ⟨%f, H4, %hf⟩⟩
    sl_exec
    sl_for (invD (F := F) d L Ud Vd (Pa d L Ud Vd k.val)) $$ [H2 H3]
    case region =>
      intro k2 acc2
      have ht : k2.val < 8 := lt_of_lt_of_le k2.isLt k0_t8_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Ud Vd _ _ hg ht acc2 ha
    · unfold invD
      isplitl [H2]; · iexact H2
      isplitl [H3]; · iexact H3
      ipureintro; exact Pa_init d L Ud Vd _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 3 _ (by norm_num) hg Ud Vd hUd hVd f accF _ trips8 haF hf _ _ (by rw [k0_off5_eq]; show 16 * k.val + 384 = _; omega)
  · unfold invG
    isplitl [H2]; · iexact H2
    isplitl [H3]; · iexact H3
    iexists _; isplitl [H4]; · iexact H4
    ipureintro; exact Pf_next m d L 2 _ trips8 _ hf4c
  iintro %_ HI
  unfold invG
  icases HI with ⟨H2, H3, ⟨%f4d, H4, %hf4d⟩⟩
  sl_exec
  sl_step
  -- what the tile hands back
  isplitl [Hu Hi Hc Hc' Ho]
  · unfold tilePost
    isplitl [Hu]; · iapply (Entails.of_eq (pts_uW (F := F) d L _ _)); iexact Hu
    isplitl [Hi]; · iapply (Entails.of_eq (pts_iW (F := F) d L _ _)); iexact Hi
    isplitl [Hc Hc']
    · ihave Hc := (pointsTo_share (PosShare.mem_left_op_right (qsh (wL L)))).2 $$ [Hc Hc']
      · isplitl [Hc] <;> iassumption
      iapply (Entails.of_eq (pts_cW (F := F) d L _ _)); iexact Hc
    iapply (Entails.of_eq ((pointsTo_congr (q := fullShare) (out_ok m d L f4d (Pf_done m d L _ trips8 _ hf4d) _)).trans (pts_oSl (F := F) d L _))); iexact Ho
  isplitl [H0 H1 H2 H3 H4 Hbufs]
  · isplitl [H0]; · iexists _; iapply (Entails.of_eq (pts_b0 (F := F) d L _)); iexact H0
    isplitl [H1]; · iexists _; iapply (Entails.of_eq (pts_b1 (F := F) d L _)); iexact H1
    isplitl [H2]; · iexists _; iapply (Entails.of_eq (pts_b2 (F := F) d L _)); iexact H2
    isplitl [H3]; · iexists _; iapply (Entails.of_eq (pts_b3 (F := F) d L _)); iexact H3
    isplitl [H4]; · iexists _; iapply (Entails.of_eq (pts_b4 (F := F) d L _)); iexact H4
    iexact Hbufs
  isplitl [Hs0 Hs1 Hs2 Hs3 Hs4 Hs5 Hs6 Hs7 Hs8 Hs9 Hs10 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _; isplitr
  swap; · iexact HO
  ipureintro; intro p hp
  repeat (rcases Finset.mem_insert.mp hp with hp | hp; · exact .inr (hp ▸ rfl))
  exact .inl hp

end Cert.Proof.KI

end
-- ==== Proof.KILaunchPay.lean ====
/-
  What the call's handshakes carry. The TensorCore hands each SparseCore the separating conjunction of what its sixteen
  tiles are handed (read shares of the two index arrays and of the concatenated table, and the tile's own 512 entries of
  the result array), and gets back the conjunction of what they hand back (the same, the entries now the scores); so a
  SparseCore's split of its operands among its tiles is the identity. A tile's task, at the place the launch names it,
  is the body's obligation at that grid point. The ghost state beside the handshakes' is the local transfers' counters,
  which the launch drops: the tiles' transfers are local and need no schedule.
-/
import proofs.«203366_g62191126446181_cont_9to1c4b_889_14_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

variable (m : (ℓ : Loc nD τ sig) → Buf (Elt F) ℓ)

theorem nCore_b : (K (F := F)).nCore 0 = grid0.bound 0 := rfl
theorem nSub_b : (K (F := F)).nSub 0 = grid0.bound 1 := rfl

/-- The grid point of tile `i` of SparseCore `c` of the call. -/
abbrev Lcs (F : FTy → Type) (c : Fin ((K (F := F)).nCore 0)) (i : Fin ((K (F := F)).nSub 0)) : grid0.Coords :=
  coordsV (Fin.cast (nCore_b (F := F)) c) (Fin.cast (nSub_b (F := F)) i)

variable [FloatOps F]

/-! ## What the handshakes carry -/

/-- Each SparseCore takes and brings back its sixteen tiles' resources; each tile its own. -/
def P : (K (F := F)).Pay (nD := nD) (Val := Elt F) (Name := ℕ) (U := UU) where
  st := fun q d c => match q, c with
    | 0, c => bigSep Finset.univ fun i : Fin ((K (F := F)).nSub 0) => tilePre m d (Lcs F c i)
  dn := fun q d c => match q, c with
    | 0, c => bigSep Finset.univ fun i : Fin ((K (F := F)).nSub 0) => tilePost m d (Lcs F c i)
  go := fun q d c i => match q, c, i with
    | 0, c, i => tilePre m d (Lcs F c i)
  td := fun q d c i => match q, c, i with
    | 0, c, i => tilePost m d (Lcs F c i)
  x := fun _ _ => iprop(emp)

instance P_storable : (P (F := F) m).IsStorable where
  st q d c := match q, c with
    | 0, c => (inferInstance : BI.Storable (upEmb : UEmb _ 𝕄) (bigSep Finset.univ fun i : Fin ((K (F := F)).nSub 0) => tilePre m d (Lcs F c i)))
  dn q d c := match q, c with
    | 0, c => (inferInstance : BI.Storable (upEmb : UEmb _ 𝕄) (bigSep Finset.univ fun i : Fin ((K (F := F)).nSub 0) => tilePost m d (Lcs F c i)))
  go q d c i := match q, c, i with
    | 0, c, i => (inferInstance : BI.Storable (upEmb : UEmb _ 𝕄) (tilePre m d (Lcs F c i)))
  td q d c i := match q, c, i with
    | 0, c, i => (inferInstance : BI.Storable (upEmb : UEmb _ 𝕄) (tilePost m d (Lcs F c i)))

theorem P_st (d : Dev nD) (c : Fin ((K (F := F)).nCore 0)) :
    (P m).st 0 d c = bigSep Finset.univ fun i : Fin ((K (F := F)).nSub 0) => tilePre m d (Lcs F c i) := rfl
theorem P_dn (d : Dev nD) (c : Fin ((K (F := F)).nCore 0)) :
    (P m).dn 0 d c = bigSep Finset.univ fun i : Fin ((K (F := F)).nSub 0) => tilePost m d (Lcs F c i) := rfl
theorem P_go (d : Dev nD) (c : Fin ((K (F := F)).nCore 0)) (i : Fin ((K (F := F)).nSub 0)) : (P m).go 0 d c i = tilePre m d (Lcs F c i) := rfl
theorem P_td (d : Dev nD) (c : Fin ((K (F := F)).nCore 0)) (i : Fin ((K (F := F)).nSub 0)) : (P m).td 0 d c i = tilePost m d (Lcs F c i) := rfl

/-! ## The obligation -/

theorem defs₀_vector (c : Fin τ.nSC) (s : Fin τ.nSub) :
    defs₀ (F := F) (.scVector c s) 0 ()
      = SparseCore.onTile hcore0 hsub0 (fun c s => cc0__body (coordsV c s)
          uW (Memref.isWhole_whole _) iW (Memref.isWhole_whole _) cW (Memref.isWhole_whole _) oW (Memref.isWhole_whole _)
          b0 (Memref.isWhole_whole _) b1 (Memref.isWhole_whole _) b2 (Memref.isWhole_whole _) b3 (Memref.isWhole_whole _) b4 (Memref.isWhole_whole _)
          cc0_scratch5 cc0_scratch6 cc0_scoped0 cc0_scoped1 cc0_scoped2 cc0_scoped3 cc0_scoped4 cc0_scoped5 cc0_scoped6 cc0_scoped7 cc0_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts)
    (hru : ∀ d : Dev nD, Cert.DotSpec.InRange (m (uLoc d))) (hri : ∀ d : Dev nD, Cert.DotSpec.InRange (m (iLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF d (coordsV ⟨_, hci.1⟩ ⟨_, hci.2⟩) (hru d) (hri d) O W hO).trans (wp_mono frame _ _ fun _ => obl_post)

/-! ## A SparseCore's split among its tiles: the identity -/

theorem vecSplit : (K (F := F)).VecSplit' (P m) 0 := by
  intro d c
  rw [P_st, P_dn]
  simp only [P_go, P_td]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KI

end
-- ==== Proof.KILaunchMain.lean ====
/-
  @main on the TensorCore. It holds six whole arrays: the two index arrays, the two tables, the concatenated table and
  the result array. The host concatenation writes [user_table | item_table] into the concatenated table and changes
  nothing else. Before the call, the full points-tos of the index arrays and of the concatenated table are split into the
  32 tiles' read shares, and that of the result array into the 32 tiles' intervals; regrouped tile by tile this is
  exactly what the two SparseCores take. After the call the same equations, read backwards with the scores in place of
  the result array's launch contents, give back the full points-tos. At the end the memory agrees with every full
  points-to held: the four arguments are unchanged and the result array holds the scores.
-/
import proofs.«203366_g62191126446181_cont_9to1c4b_889_14_alg».proof.Proof.KILaunchOut
import proofs.«203366_g62191126446181_cont_9to1c4b_889_14_alg».proof.Proof.KILaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

open Idealize.ShloMosaic.StableHlo (held held_split held_sdiff_result wp_hlo_within)

variable (m : (ℓ : Loc nD τ sig) → Buf (Elt F) ℓ) (ρ : Dev nD → PrngReg)

/-! ## Re-indexing the call's SparseCores and tiles by literal numbers -/

theorem bigSep_cores (Φ : Fin 2 → sProp 𝕄) :
    (bigSep Finset.univ fun c : Fin ((K (F := F)).nCore 0) => Φ (Fin.cast (nCore_b (F := F)) c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast (nSub_b (F := F)) i)) = bigSep Finset.univ Φ :=
  bigSep_congr fun _ _ => congrArg Φ (Fin.ext rfl)

/-- A conjunction over the tiles of four-part assertions is the four conjunctions. -/
theorem bigSep2_sep4 (A B C E : Fin 2 → Fin 16 → sProp 𝕄) :
    (bigSep Finset.univ fun c : Fin 2 => bigSep Finset.univ fun s : Fin 16 => iprop(A c s ∗ B c s ∗ C c s ∗ E c s))
      = iprop((bigSep Finset.univ fun c : Fin 2 => bigSep Finset.univ fun s : Fin 16 => A c s)
          ∗ (bigSep Finset.univ fun c : Fin 2 => bigSep Finset.univ fun s : Fin 16 => B c s)
          ∗ (bigSep Finset.univ fun c : Fin 2 => bigSep Finset.univ fun s : Fin 16 => C c s)
          ∗ (bigSep Finset.univ fun c : Fin 2 => bigSep Finset.univ fun s : Fin 16 => E c s)) := by
  simp only [bigSep_sep']

variable [FloatOps F]

/-- What the call takes, over the literal index types. -/
theorem st0_tiles (d : Dev nD) :
    (bigSep Finset.univ fun c : Fin ((K (F := F)).nCore 0) => (P m).st 0 d c)
      = bigSep Finset.univ fun c : Fin 2 => bigSep Finset.univ fun s : Fin 16 => tilePre m d (coordsV c s) :=
  (bigSep_cores (F := F) (fun c => bigSep Finset.univ fun i : Fin ((K (F := F)).nSub 0) => tilePre m d (coordsV c (Fin.cast (nSub_b (F := F)) i)))).trans
    (bigSep_congr fun c _ => bigSep_subs (F := F) (fun s => tilePre m d (coordsV c s)))
/-- What it hands back. -/
theorem dn0_tiles (d : Dev nD) :
    (bigSep Finset.univ fun c : Fin ((K (F := F)).nCore 0) => (P m).dn 0 d c)
      = bigSep Finset.univ fun c : Fin 2 => bigSep Finset.univ fun s : Fin 16 => tilePost m d (coordsV c s) :=
  (bigSep_cores (F := F) (fun c => bigSep Finset.univ fun i : Fin ((K (F := F)).nSub 0) => tilePost m d (coordsV c (Fin.cast (nSub_b (F := F)) i)))).trans
    (bigSep_congr fun c _ => bigSep_subs (F := F) (fun s => tilePost m d (coordsV c s)))

/-- The 32 tiles' resources before the call are the four whole arrays; -/
theorem tiles_pre_eq (d : Dev nD) :
    (bigSep Finset.univ fun c : Fin 2 => bigSep Finset.univ fun s : Fin 16 => tilePre m d (coordsV c s))
      = iprop((uLoc d ↦{fullShare} m (uLoc d)) ∗ (iLoc d ↦{fullShare} m (iLoc d)) ∗ (cLoc d ↦{fullShare} CAT m d)
          ∗ (oLoc d ↦{fullShare} m (oLoc d))) := by
  rw [pts_tiles (ℓ := uLoc d) (m (uLoc d)), pts_tiles (ℓ := iLoc d) (m (iLoc d)), pts_tiles (ℓ := cLoc d) (CAT m d), oPts_tiles d (m (oLoc d))]
  unfold tilePre
  exact bigSep2_sep4 _ _ _ _
/-- and after it, the result array at the scores. -/
theorem tiles_post_eq (d : Dev nD) :
    (bigSep Finset.univ fun c : Fin 2 => bigSep Finset.univ fun s : Fin 16 => tilePost m d (coordsV c s))
      = iprop((uLoc d ↦{fullShare} m (uLoc d)) ∗ (iLoc d ↦{fullShare} m (iLoc d)) ∗ (cLoc d ↦{fullShare} CAT m d)
          ∗ (oLoc d ↦{fullShare} OUTm m d)) := by
  rw [pts_tiles (ℓ := uLoc d) (m (uLoc d)), pts_tiles (ℓ := iLoc d) (m (iLoc d)), pts_tiles (ℓ := cLoc d) (CAT m d), oPts_tiles d (OUTm m d)]
  unfold tilePost
  exact bigSep2_sep4 _ _ _ _

/-! ## The TensorCore's arrays and the host concatenation -/

abbrev u' : DevRef τ sig := Proc.devRef .tc (main_arg0 : Ref sig .tc)
abbrev i' : DevRef τ sig := Proc.devRef .tc (main_arg1 : Ref sig .tc)
abbrev ut' : DevRef τ sig := Proc.devRef .tc (main_arg2 : Ref sig .tc)
abbrev it' : DevRef τ sig := Proc.devRef .tc (main_arg3 : Ref sig .tc)
abbrev c' : DevRef τ sig := Proc.devRef .tc (main_v0 : Ref sig .tc)
abbrev o' : DevRef τ sig := Proc.devRef .tc (main_v1 : Ref sig .tc)

/-- The concatenation of the two tables along the columns, as @main states it. -/
abbrev opCat : HloOp τ sig (Elt F) :=
  StableHlo.binary main_arg2 main_arg3 main_v0
    ((fun a b => concatenate S1000000x128 1 [⟨S1000000x64, a⟩, ⟨S1000000x64, b⟩] concatenates_S1000000x64_S1000000x64_S1000000x128_d1) :
      (⟨S1000000x64, .f32⟩ : BufTy).Contents (Elt F) → (⟨S1000000x64, .f32⟩ : BufTy).Contents (Elt F) → (⟨S1000000x128, .f32⟩ : BufTy).Contents (Elt F))

/-- The TensorCore's arrays, all unscoped. -/
abbrev S6 : Finset (DevRef τ sig) := {u', i', ut', it', c', o'}

omit [FloatOps F] in
theorem held_S6 (d : Dev nD) (W : Valuation τ sig (Elt F)) :
    (held (T d) S6 W : sProp 𝕄) = iprop((uLoc d ↦{fullShare} W u') ∗ (iLoc d ↦{fullShare} W i') ∗ (utLoc d ↦{fullShare} W ut')
      ∗ (itLoc d ↦{fullShare} W it') ∗ (cLoc d ↦{fullShare} W c') ∗ (oLoc d ↦{fullShare} W o')) := by
  unfold held S6
  rw [SparseCore.bigSep_insert' (by decide), SparseCore.bigSep_insert' (by decide), SparseCore.bigSep_insert' (by decide),
    SparseCore.bigSep_insert' (by decide), SparseCore.bigSep_insert' (by decide), bigSep_singleton]

set_option maxRecDepth 16384 in
omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (utLoc d ↦{fullShare} W main_arg2)
      ∗ (itLoc d ↦{fullShare} W main_arg3) ∗ (cLoc d ↦{fullShare} W main_v0) ∗ (oLoc d ↦{fullShare} W main_v1)) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S6 (V0 m d) := by
  rw [unscopedBufs_eq, held_S6]; rfl

theorem hCat : (opCat (F := F)).bufs ⊆ S6 := show ({ut', it', c'} : Finset (DevRef τ sig)) ⊆ S6 by decide

/-- After the concatenation: the concatenated table holds [user_table | item_table], the other five arrays what they held. -/
theorem res_c (d : Dev nD) : (opCat (F := F)).result (V0 m d) c' = CAT m d :=
  StableHlo.binary_result main_arg2 main_arg3 main_v0 _ _ _ _ (V0 m d)
theorem res_u (d : Dev nD) : (opCat (F := F)).result (V0 m d) u' = m (uLoc d) :=
  (opCat (F := F)).result_of_not_mem (V0 m d) (b := u') (show u' ∉ ({c'} : Finset (DevRef τ sig)) by decide)
theorem res_i (d : Dev nD) : (opCat (F := F)).result (V0 m d) i' = m (iLoc d) :=
  (opCat (F := F)).result_of_not_mem (V0 m d) (b := i') (show i' ∉ ({c'} : Finset (DevRef τ sig)) by decide)
theorem res_ut (d : Dev nD) : (opCat (F := F)).result (V0 m d) ut' = m (utLoc d) :=
  (opCat (F := F)).result_of_not_mem (V0 m d) (b := ut') (show ut' ∉ ({c'} : Finset (DevRef τ sig)) by decide)
theorem res_it (d : Dev nD) : (opCat (F := F)).result (V0 m d) it' = m (itLoc d) :=
  (opCat (F := F)).result_of_not_mem (V0 m d) (b := it') (show it' ∉ ({c'} : Finset (DevRef τ sig)) by decide)
theorem res_o (d : Dev nD) : (opCat (F := F)).result (V0 m d) o' = m (oLoc d) :=
  (opCat (F := F)).result_of_not_mem (V0 m d) (b := o') (show o' ∉ ({c'} : Finset (DevRef τ sig)) by decide)

theorem held_after (d : Dev nD) :
    (held (T d) S6 ((opCat (F := F)).result (V0 m d)) : sProp 𝕄)
      = iprop((uLoc d ↦{fullShare} m (uLoc d)) ∗ (iLoc d ↦{fullShare} m (iLoc d)) ∗ (utLoc d ↦{fullShare} m (utLoc d))
        ∗ (itLoc d ↦{fullShare} m (itLoc d)) ∗ (cLoc d ↦{fullShare} CAT m d) ∗ (oLoc d ↦{fullShare} m (oLoc d))) := by
  rw [held_S6, res_u, res_i, res_ut, res_it, res_c, res_o]

/-! ## @main -/

/-- What @main leaves the claim: the four arguments at their launch contents and the result array at the scores. -/
abbrev FIN (d : Dev nD) : sProp 𝕄 :=
  iprop((uLoc d ↦{fullShare} m (uLoc d)) ∗ (iLoc d ↦{fullShare} m (iLoc d)) ∗ (utLoc d ↦{fullShare} m (utLoc d))
    ∗ (itLoc d ↦{fullShare} m (itLoc d)) ∗ (oLoc d ↦{fullShare} OUTm m d))

/-- @main on device `d`'s TensorCore: the concatenation, then the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the concatenation
  iapply (wp_hlo_within 𝒱 (SparseCore.T d) none Set.univ (op := opCat) (S := S6) hCat (V := V0 m d)) $$ [Hb Hheld]
  · isplitl [Hb]; · iexact Hb
    iexact Hheld
  iintro ⟨Hb, Hheld⟩
  ihave Hh := (Entails.of_eq (held_after (F := F) m d)) $$ Hheld
  icases Hh with ⟨Hu, Hi, Hut, Hit, Hc, Ho⟩
  rw [wp_ret]; imodintro
  -- the call: every tile's shares and entries to the two SparseCores, and back
  iapply ((K (F := F)).wp_run (D (F := F)) 𝒱 (EH := EH) (P := P m) κ d 0) $$ [Hst Hu Hi Hut Hit Hc Ho]
  isplitr; · iexact Hctx
  isplitl [Hst]; · iexact Hst
  isplitl [Hu Hi Hc Ho]
  · rw [st0_tiles, tiles_pre_eq]
    isplitl [Hu]; · iexact Hu
    isplitl [Hi]; · iexact Hi
    isplitl [Hc]; · iexact Hc
    iexact Ho
  iintro ⟨Hst, Hdn⟩
  ihave Hdn' := (Entails.of_eq ((dn0_tiles m d).trans (tiles_post_eq m d))) $$ Hdn
  icases Hdn' with ⟨Hu, Hi, -, Ho⟩
  imodintro
  isplitl [Hst]; · iexact Hst
  isplitl [Hu]; · iexact Hu
  isplitl [Hi]; · iexact Hi
  isplitl [Hut]; · iexact Hut
  isplitl [Hit]; · iexact Hit
  iexact Ho

/-! ## The final memory -/

def fq (d : Dev nD) (s' : Phys nD τ sig (Elt F)) : Prop :=
  s'.mem.mem (oLoc d) = OUTm m d ∧ s'.mem.mem (uLoc d) = m (uLoc d) ∧ s'.mem.mem (iLoc d) = m (iLoc d)
    ∧ s'.mem.mem (utLoc d) = m (utLoc d) ∧ s'.mem.mem (itLoc d) = m (itLoc d)

set_option maxRecDepth 16384 in
theorem hfin (d : Dev nD) (s' : Phys nD τ sig (Elt F)) : iprop(FIN m d ∗ SI s') ⊢ (⌜fq m d s'⌝ : sProp 𝕄) := by
  iintro ⟨⟨Hu, Hi, Hut, Hit, Ho⟩, HSI⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := utLoc d) (I := Finset.univ) (q := fullShare) (f := m (utLoc d)))) $$ [HSI Hut]
  · isplitl [HSI] <;> iassumption
  icases H with ⟨%h3, HSI, -⟩
  ihave H := (persistent_entails_right (SI_pointsTo_agree (st := s') (ℓ := itLoc d) (I := Finset.univ) (q := fullShare) (f := m (itLoc d)))) $$ [HSI Hit]
  · isplitl [HSI] <;> iassumption
  icases H with ⟨%h4, HSI, -⟩
  ihave H := (SI_pointsTo_agree (st := s') (ℓ := oLoc d) (I := Finset.univ) (q := fullShare) (f := OUTm m d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

end Cert.Proof.KI

end
-- ==== Proof.KILaunchRun.lean ====
/-
  The run of the 35 threads of the idealized kernel, for any float instance: from each tile's obligation, the identity split
  of a SparseCore's operands among its tiles, @main on the TensorCore, and the agreement of the final memory with the
  full points-tos @main ends with.
-/
import proofs.«203366_g62191126446181_cont_9to1c4b_889_14_alg».proof.Proof.KILaunchMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_arg0_scv : Memref Cert.KernelIdeal.sig Kind.scVector Space.hbm Cert.KernelIdeal.S16384 EltTy.i32)
local notation "iW" => (Memref.whole Cert.KernelIdeal.main_arg1_scv : Memref Cert.KernelIdeal.sig Kind.scVector Space.hbm Cert.KernelIdeal.S16384 EltTy.i32)
local notation "cW" => (Memref.whole Cert.KernelIdeal.main_v0_scv : Memref Cert.KernelIdeal.sig Kind.scVector Space.hbm Cert.KernelIdeal.S1000000x128 EltTy.f32)
local notation "oW" => (Memref.whole Cert.KernelIdeal.main_v1_scv : Memref Cert.KernelIdeal.sig Kind.scVector Space.hbm Cert.KernelIdeal.S16384 EltTy.f32)
local notation "b0" => (Memref.whole Cert.KernelIdeal.cc0_scratch0 : Memref Cert.KernelIdeal.sig Kind.scVector Space.vmem Cert.KernelIdeal.S4x128 EltTy.i32)
local notation "b1" => (Memref.whole Cert.KernelIdeal.cc0_scratch1 : Memref Cert.KernelIdeal.sig Kind.scVector Space.vmem Cert.KernelIdeal.S4x128 EltTy.i32)
local notation "b2" => (Memref.whole Cert.KernelIdeal.cc0_scratch2 : Memref Cert.KernelIdeal.sig Kind.scVector Space.vmem Cert.KernelIdeal.S128x128 EltTy.f32)
local notation "b3" => (Memref.whole Cert.KernelIdeal.cc0_scratch3 : Memref Cert.KernelIdeal.sig Kind.scVector Space.vmem Cert.KernelIdeal.S128x128 EltTy.f32)
local notation "b4" => (Memref.whole Cert.KernelIdeal.cc0_scratch4 : Memref Cert.KernelIdeal.sig Kind.scVector Space.vmem Cert.KernelIdeal.S512 EltTy.f32)

variable [FloatOps F]

/-- The run of the idealized kernel, for any float instance: every weakly fair execution of the 35 threads ends, the result array at the scores, the four arguments unchanged. -/
theorem run_main [∀ e, Nonempty (Elt F e)] (m : (ℓ : Loc nD τ sig) → Buf (Elt F) ℓ) (ρ : Dev nD → PrngReg)
    (hru : ∀ d : Dev nD, Cert.DotSpec.InRange (m (uLoc d))) (hri : ∀ d : Dev nD, Cert.DotSpec.InRange (m (iLoc d))) :
    θ_run (Cert.KernelIdeal.defs (F := F)) (Cert.KernelIdeal.threads (F := F)) ⟨m, fun _ => 0, ρ⟩
      (fun r => ∀ c : Dev nD, r.2.mem (oLoc c) = OUTm m c ∧ r.2.mem (uLoc c) = m (uLoc c) ∧ r.2.mem (iLoc c) = m (iLoc c)
        ∧ r.2.mem (utLoc c) = m (utLoc c) ∧ r.2.mem (itLoc c) = m (itLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hru hri)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.KBSetup.lean ====
/-
  The kernel as printed as the launch theorem sees it: the one SparseCore call (a vector-subcore kernel on 2 SparseCores of
  16 tiles each), the body table, the variants, the call's stated facts, and the resource algebra — the handshakes' rounds
  beside the local transfers' counters. Generic in the float instance.
-/
import proofs.«203366_g62191126446181_cont_9to1c4b_889_14_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203366_g62191126446181_cont_9to1c4b_889_14_alg».proof.Proof.Gen.Kernel
import proofs.«203366_g62191126446181_cont_9to1c4b_889_14_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library beside the transfers' counters. -/
abbrev UH : Type := URounds (GSem nD τ sig) ℕ
abbrev UU : Type := UH × Counters

/-- The model of assertions. -/
abbrev MM (F : FTy → Type) : Type := MT nD τ sig (HIx 1) (Elt F) ℕ UU ℕ

abbrev EH : Emb UH (MT nD τ sig (HIx 1) (Elt F) ℕ UU ℕ) := embL

end Cert.Proof.KB

end
-- ==== Proof.KBTile.lean ====
/-
  A tile of the kernel as printed and what the launch hands it of its own: eleven transfer semaphores at zero and five
  scratch buffers (two index lists [4,128], two row buffers [128,128], the tile's 512 results).
-/
import proofs.«203366_g62191126446181_cont_9to1c4b_889_14_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile and what it owns -/

abbrev cV (L : grid0.Coords) : Fin τ.nSC := (L 0).castLE hcore0
abbrev jV (L : grid0.Coords) : Fin τ.nSub := (L 1).castLE hsub0
/-- The thread of tile `L` of device `d`. -/
abbrev thr (d : Dev nD) (L : grid0.Coords) : Thread nD τ := V d (cV L) (jV L)

theorem cell_ne {t : Thread nD τ} {a b : DmaSem sig} (h : a ≠ b) : ((t, SemLoc.dma a) : GSem nD τ sig) ≠ (t, SemLoc.dma b) :=
  fun e => h (by injection e with _ e2; injection e2)

section Own
variable (d : Dev nD) (L : grid0.Coords)

/-- The tile's eleven transfer semaphores, each at zero, and the rest of its scoped cells. -/
theorem ownSems0_V :
    (ownSems0 (thr d L) : sProp 𝕄)
      = iprop(semVal (thr d L, SemLoc.dma cc0_scratch5.sem) 0 ∗ semVal (thr d L, SemLoc.dma cc0_scratch6.sem) 0 ∗ semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0 ∗ semVal (thr d L, SemLoc.dma cc0_scoped7.sem) 0 ∗ semVal (thr d L, SemLoc.dma cc0_scoped8.sem) 0
          ∗ bigSep ((((((((((((ownCells (thr d L)).erase (thr d L, SemLoc.dma cc0_scratch5.sem)).erase (thr d L, SemLoc.dma cc0_scratch6.sem)).erase (thr d L, SemLoc.dma cc0_scoped0.sem)).erase (thr d L, SemLoc.dma cc0_scoped1.sem)).erase (thr d L, SemLoc.dma cc0_scoped2.sem)).erase (thr d L, SemLoc.dma cc0_scoped3.sem)).erase (thr d L, SemLoc.dma cc0_scoped4.sem)).erase (thr d L, SemLoc.dma cc0_scoped5.sem)).erase (thr d L, SemLoc.dma cc0_scoped6.sem)).erase (thr d L, SemLoc.dma cc0_scoped7.sem)).erase (thr d L, SemLoc.dma cc0_scoped8.sem)) fun g => semVal g 0) := by
  unfold SparseCore.Cfg.ownSems0
  rw [SparseCore.bigSep_erase' ((mem_ownCells (g := (thr d L, SemLoc.dma cc0_scratch5.sem))).mpr ⟨rfl, by show (SemLoc.dma cc0_scratch5.sem : SemLoc sig).isScoped .scVector = true; decide⟩),
    SparseCore.bigSep_erase' (Finset.mem_erase.mpr ⟨cell_ne (by decide), (mem_ownCells (g := (thr d L, SemLoc.dma cc0_scratch6.sem))).mpr ⟨rfl, by show (SemLoc.dma cc0_scratch6.sem : SemLoc sig).isScoped .scVector = true; decide⟩⟩),
    SparseCore.bigSep_erase' (Finset.mem_erase.mpr ⟨cell_ne (by decide), Finset.mem_erase.mpr ⟨cell_ne (by decide), (mem_ownCells (g := (thr d L, SemLoc.dma cc0_scoped0.sem))).mpr ⟨rfl, by show (SemLoc.dma cc0_scoped0.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := (thr d L, SemLoc.dma cc0_scoped1.sem))).mpr ⟨rfl, by show (SemLoc.dma cc0_scoped1.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped2.sem))).mpr ⟨rfl, by show (SemLoc.dma cc0_scoped2.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped3.sem))).mpr ⟨rfl, by show (SemLoc.dma cc0_scoped3.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped4.sem))).mpr ⟨rfl, by show (SemLoc.dma cc0_scoped4.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped5.sem))).mpr ⟨rfl, by show (SemLoc.dma cc0_scoped5.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped6.sem))).mpr ⟨rfl, by show (SemLoc.dma cc0_scoped6.sem : SemLoc sig).isScoped .scVector = true; decide⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped7.sem))).mpr ⟨rfl, by show (SemLoc.dma cc0_scoped7.sem : SemLoc sig).isScoped .scVector = true; decide⟩⟩⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := (thr d L, SemLoc.dma cc0_scoped8.sem))).mpr ⟨rfl, by show (SemLoc.dma cc0_scoped8.sem : SemLoc sig).isScoped .scVector = true; decide⟩⟩⟩⟩⟩⟩⟩⟩⟩⟩⟩)]

/-- The tile's five scratch buffers, each at some contents, and the rest of its own buffers. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

end Own

end Cert.Proof.KB

end
-- ==== Proof.KBIface.lean ====
/-
  The interface between a tile's task and the launch: the arrays, each tile's number, read share and 512 entries of the
  result array, the concatenated table and the result array as pure functions of the launch memory, and what a tile is
  handed and hands back.
-/
import proofs.«203366_g62191126446181_cont_9to1c4b_889_14_alg».proof.Proof.KBTile
import proofs.«203366_g62191126446181_cont_9to1c4b_889_14_alg».proof.Proof.KOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

variable (m : (ℓ : Loc nD τ sig) → Buf (Elt F) ℓ)

/-! ## Tiles by number -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's number among the 32: it works on entries `[512·w, 512·w + 512)` of the batch. -/
def wL (L : grid0.Coords) : Fin 32 :=
  ⟨2 * (L 1).val + (L 0).val, by have h0 : (L 0).val < 2 := (L 0).isLt; have h1 : (L 1).val < 16 := (L 1).isLt; omega⟩

/-! ## Shares: the full share halved five times, one leaf per tile -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Tile `w`'s read share of an array every tile reads. -/
abbrev qsh (w : Fin 32) : PosShare TreeShare := leaf 5 fullShare w

/-! ## The arrays -/

abbrev uLoc (d : Dev nD) : Loc nD τ sig := (SparseCore.T d).loc main_arg0
abbrev iLoc (d : Dev nD) : Loc nD τ sig := (SparseCore.T d).loc main_arg1
abbrev utLoc (d : Dev nD) : Loc nD τ sig := (SparseCore.T d).loc main_arg2
abbrev itLoc (d : Dev nD) : Loc nD τ sig := (SparseCore.T d).loc main_arg3
abbrev cLoc (d : Dev nD) : Loc nD τ sig := (SparseCore.T d).loc main_v0
abbrev oLoc (d : Dev nD) : Loc nD τ sig := (SparseCore.T d).loc main_v1

/-- The tile's 512 entries of the result array, as the body slices them. -/
abbrev oSl (L : grid0.Coords) : Memref sig .scVector .hbm S512 .f32 :=
  (oW).slice (Rect.unit (s := S16384) (k0_off6 L) S512.size (k0_off6_inb L)) (fun _ => rfl)
/-- Their index set. -/
def oSet (L : grid0.Coords) : Finset S16384.Idx := (oSl L).view.set

variable [FloatOps F]

/-- The concatenated table `[user_table | item_table]` the host builds before the call. -/
def CAT (d : Dev nD) : Buf (Elt F) (cLoc d) :=
  concatenate S1000000x128 1 [⟨S1000000x64, m (utLoc d)⟩, ⟨S1000000x64, m (itLoc d)⟩] concatenates_S1000000x64_S1000000x64_S1000000x128_d1

/-- The result array the kernel leaves. -/
def OUTm (d : Dev nD) : Buf (Elt F) (oLoc d) := Cert.KOut.OUT (m (uLoc d)) (m (iLoc d)) (CAT m d)

/-- What a tile is handed: read shares of the two index arrays and of the concatenated table, and its own 512 entries of
    the result array; -/
def tilePre (d : Dev nD) (L : grid0.Coords) : sProp 𝕄 :=
  iprop((uLoc d ↦{qsh (wL L)} m (uLoc d)) ∗ (iLoc d ↦{qsh (wL L)} m (iLoc d)) ∗ (cLoc d ↦{qsh (wL L)} CAT m d)
    ∗ (oLoc d ↦[oSet L]{fullShare} m (oLoc d)))
/-- and what it hands back: the same, its entries of the result array now the scores. -/
def tilePost (d : Dev nD) (L : grid0.Coords) : sProp 𝕄 :=
  iprop((uLoc d ↦{qsh (wL L)} m (uLoc d)) ∗ (iLoc d ↦{qsh (wL L)} m (iLoc d)) ∗ (cLoc d ↦{qsh (wL L)} CAT m d)
    ∗ (oLoc d ↦[oSet L]{fullShare} OUTm m d))

omit [FloatOps F] in
instance tilePre_storable [FloatOps F] (d : Dev nD) (L : grid0.Coords) : BI.Storable (upEmb : UEmb _ 𝕄) (tilePre m d L) := by
  unfold tilePre; infer_instance
omit [FloatOps F] in
instance tilePost_storable [FloatOps F] (d : Dev nD) (L : grid0.Coords) : BI.Storable (upEmb : UEmb _ 𝕄) (tilePost m d L) := by
  unfold tilePost; infer_instance

/-! ## The arrays and scratch buffers as the tile's memrefs address them -/

section Pts
variable (d : Dev nD) (L : grid0.Coords)
omit [FloatOps F] in
theorem pts_uW (q : PosShare TreeShare) (f : Buf (Elt F) (uLoc d)) : ((uW).view.loc (thr d L) ↦{q} f : sProp 𝕄) = uLoc d ↦{q} f := rfl
omit [FloatOps F] in
theorem pts_iW (q : PosShare TreeShare) (f : Buf (Elt F) (iLoc d)) : ((iW).view.loc (thr d L) ↦{q} f : sProp 𝕄) = iLoc d ↦{q} f := rfl
omit [FloatOps F] in
theorem pts_cW (q : PosShare TreeShare) (f : Buf (Elt F) (cLoc d)) : ((cW).view.loc (thr d L) ↦{q} f : sProp 𝕄) = cLoc d ↦{q} f := rfl
omit [FloatOps F] in
theorem pts_oSl (f : Buf (Elt F) (oLoc d)) :
    ((oSl L).view.loc (thr d L) ↦[(oSl L).view.set]{fullShare} f : sProp 𝕄) = oLoc d ↦[oSet L]{fullShare} f := rfl
omit [FloatOps F] in
theorem pts_b0 (f : Buf (Elt F) ((thr d L).loc cc0_scratch0)) : ((b0).view.loc (thr d L) ↦{fullShare} f : sProp 𝕄) = (thr d L).loc cc0_scratch0 ↦{fullShare} f := rfl
omit [FloatOps F] in
theorem pts_b1 (f : Buf (Elt F) ((thr d L).loc cc0_scratch1)) : ((b1).view.loc (thr d L) ↦{fullShare} f : sProp 𝕄) = (thr d L).loc cc0_scratch1 ↦{fullShare} f := rfl
omit [FloatOps F] in
theorem pts_b2 (f : Buf (Elt F) ((thr d L).loc cc0_scratch2)) : ((b2).view.loc (thr d L) ↦{fullShare} f : sProp 𝕄) = (thr d L).loc cc0_scratch2 ↦{fullShare} f := rfl
omit [FloatOps F] in
theorem pts_b3 (f : Buf (Elt F) ((thr d L).loc cc0_scratch3)) : ((b3).view.loc (thr d L) ↦{fullShare} f : sProp 𝕄) = (thr d L).loc cc0_scratch3 ↦{fullShare} f := rfl
omit [FloatOps F] in
theorem pts_b4 (f : Buf (Elt F) ((thr d L).loc cc0_scratch4)) : ((b4).view.loc (thr d L) ↦{fullShare} f : sProp 𝕄) = (thr d L).loc cc0_scratch4 ↦{fullShare} f := rfl
end Pts

end Cert.Proof.KB

end
-- ==== Proof.KBLaunchTiles.lean ====
/-
  The 32 tiles are the pairs (SparseCore c < 2, tile s < 16), numbered w = 2·s + c; the correspondence is one to one.
  An array every tile reads is handed out as read shares: the full share halved five times has 32 leaves, and a
  points-to at a share is the separating conjunction of the points-tos at the leaves below it (a share is the sum of
  its two halves, by induction on the depth). Re-indexed from numbers to pairs, the full points-to of an array is the
  conjunction over c and s of tile (c, s)'s read share of it.
-/
import proofs.«203366_g62191126446181_cont_9to1c4b_889_14_alg».proof.Proof.KBIface

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

/-! ## Tiles as pairs and as numbers -/

/-- Tile `s` of SparseCore `c` has number `2·s + c`; a number `w` is tile `w / 2` of SparseCore `w % 2`. -/
def tileEquiv : Fin 2 × Fin 16 ≃ Fin 32 where
  toFun p := ⟨2 * p.2.val + p.1.val, by have h1 := p.1.isLt; have h2 := p.2.isLt; omega⟩
  invFun w := (⟨w.val % 2, Nat.mod_lt _ (by norm_num)⟩, ⟨w.val / 2, by have h := w.isLt; omega⟩)
  left_inv p := by
    obtain ⟨c, s⟩ := p
    have hc := c.isLt
    have hs := s.isLt
    exact Prod.ext (Fin.ext (show (2 * s.val + c.val) % 2 = c.val by omega)) (Fin.ext (show (2 * s.val + c.val) / 2 = s.val by omega))
  right_inv w := Fin.ext (show 2 * (w.val / 2) + w.val % 2 = w.val by omega)

theorem tileEquiv_val (c : Fin 2) (s : Fin 16) : (tileEquiv (c, s)).val = 2 * s.val + c.val := rfl

/-- The number of the tile at grid point (c, s). -/
theorem wL_coordsV (c : Fin 2) (s : Fin 16) : wL (coordsV c s) = tileEquiv (c, s) := Fin.ext rfl

/-! ## A share and its leaves -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- The full points-to of an array every tile reads, as the tiles' read shares of it, SparseCore by SparseCore. -/
theorem pts_tiles {ℓ : Loc nD τ sig} (f : Buf (Elt F) ℓ) :
    (ℓ ↦{fullShare} f : sProp 𝕄)
      = bigSep Finset.univ fun c : Fin 2 => bigSep Finset.univ fun s : Fin 16 => ℓ ↦{qsh (wL (coordsV c s))} f := by
  refine (pointsTo_leaves (F := F) Finset.univ f 5 fullShare).trans ?_
  refine (bigSep_univ_equiv tileEquiv (fun w : Fin 32 => (ℓ ↦{qsh w} f : sProp 𝕄))).trans ?_
  refine (bigSep_univ_prod (fun p : Fin 2 × Fin 16 => (ℓ ↦{qsh (tileEquiv p)} f : sProp 𝕄))).trans ?_
  refine bigSep_congr fun c _ => bigSep_congr fun s _ => ?_
  rw [wL_coordsV]

end Cert.Proof.KB

end
-- ==== Proof.KBLaunchOut.lean ====
/-
  The result array has 16384 entries; tile number w writes the 512 entries from 512·w. The tile's slice, as the body
  takes it, is the unit-stride interval of 512 entries from the offset 1024·s + 512·c = 512·(2·s + c). Intervals of
  different numbers are disjoint, and every index i lies in the interval of number i / 512; so the full points-to of the
  result array is the separating conjunction, over the pairs (c, s), of the points-tos on the tiles' intervals, whatever
  the contents.
-/
import proofs.«203366_g62191126446181_cont_9to1c4b_889_14_alg».proof.Proof.KBLaunchTiles

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

/-! ## A tile's entries of the result array -/

/-- The tile's index set is the interval its slice names. -/
theorem oSet_eq (L : grid0.Coords) : oSet L = (Rect.unit (s := S16384) (k0_off6 L) S512.size (k0_off6_inb L)).set := by
  unfold oSet
  show ((View.whole (main_v1_scv : Ref sig .scVector)).slice _).set = _
  rw [View.set_slice]; exact Finset.map_refl

/-- Index `i` is one of tile `L`'s exactly when it lies in the 512 entries from `512 · (wL L)`. -/
theorem mem_oSet (L : grid0.Coords) (i : S16384.Idx) :
    i ∈ oSet L ↔ 512 * (wL L).val ≤ (i 0).val ∧ (i 0).val < 512 * (wL L).val + 512 := by
  rw [oSet_eq, Rect.mem_set_unit, Fin.forall_fin_one, k0_off6_eq]
  show (1024 * (L 1).val + 512 * (L 0).val ≤ (i 0).val ∧ (i 0).val < 1024 * (L 1).val + 512 * (L 0).val + 512)
    ↔ (512 * (2 * (L 1).val + (L 0).val) ≤ (i 0).val ∧ (i 0).val < 512 * (2 * (L 1).val + (L 0).val) + 512)
  omega

/-- Different tiles' entries are disjoint. -/
theorem oTiles_disjoint : ∀ p ∈ (Finset.univ : Finset (Fin 2 × Fin 16)), ∀ p' ∈ (Finset.univ : Finset (Fin 2 × Fin 16)), p ≠ p' →
    Disjoint (oSet (coordsV p.1 p.2)) (oSet (coordsV p'.1 p'.2)) := by
  rintro ⟨c, s⟩ _ ⟨c', s'⟩ _ hne
  refine Finset.disjoint_left.2 fun i hi hi' => hne (tileEquiv.injective (Fin.ext ?_))
  rw [mem_oSet, wL_coordsV] at hi hi'
  dsimp only at hi hi'
  omega

/-- Every entry is some tile's. -/
theorem oTiles_cover : (Finset.univ : Finset (Fin 2 × Fin 16)).biUnion (fun p => oSet (coordsV p.1 p.2)) = Finset.univ := by
  ext i
  simp only [Finset.mem_biUnion, Finset.mem_univ, true_and, iff_true]
  have hi : (i 0).val < 16384 := (i 0).isLt
  refine ⟨tileEquiv.symm ⟨(i 0).val / 512, by omega⟩, ?_⟩
  rw [mem_oSet, wL_coordsV, Prod.mk.eta, Equiv.apply_symm_apply]
  show 512 * ((i 0).val / 512) ≤ (i 0).val ∧ (i 0).val < 512 * ((i 0).val / 512) + 512
  omega

/-- The whole result array, at any contents, is its 32 tiles' entries, SparseCore by SparseCore. -/
theorem oPts_tiles (d : Dev nD) (f : Buf (Elt F) (oLoc d)) :
    (oLoc d ↦{fullShare} f : sProp 𝕄)
      = bigSep Finset.univ fun c : Fin 2 => bigSep Finset.univ fun s : Fin 16 => oLoc d ↦[oSet (coordsV c s)]{fullShare} f := by
  have h1 : (oLoc d ↦[(Finset.univ : Finset (Fin 2 × Fin 16)).biUnion fun p => oSet (coordsV p.1 p.2)]{fullShare} f : sProp 𝕄)
      = bigSep Finset.univ fun p : Fin 2 × Fin 16 => oLoc d ↦[oSet (coordsV p.1 p.2)]{fullShare} f :=
    pointsTo_biUnion Finset.univ (ℓ := oLoc d) (fun p : Fin 2 × Fin 16 => oSet (coordsV p.1 p.2)) oTiles_disjoint
  rw [oTiles_cover] at h1
  exact h1.trans (bigSep_univ_prod (fun p : Fin 2 × Fin 16 => (oLoc d ↦[oSet (coordsV p.1 p.2)]{fullShare} f : sProp 𝕄)))

end Cert.Proof.KB

end
-- ==== Proof.KBVal.lean ====
/-
  The values inside one tile's task, as pure facts about index vectors, loads and running sums.

  A round holds 128 gathered rows of the concatenated table in each of two 128 × 128 buffers. Group g (of 8) works on
  rows 16·g … 16·g + 15, one per lane; step t (of 8) of a group reads, for dd = 0 … 7, column 8·t + dd of the first
  buffer and column 8·t + dd + 64 of the second at those rows, and adds their product to the lane's running sum. The
  induction variables are 32-bit words below 8, so every row number is below 128 and every column number below 128:
  the indexed loads stay inside the buffers, and the numbers are read off the words without wrapping.
  So lane x of a load reads buffer entry (16·g + x, 8·t + dd) or (16·g + x, 8·t + dd + 64), and one step extends each
  lane's running sum, in the order dd = 0 … 7, by exactly the next eight terms of the sum the specification's result
  array is defined by. After eight steps the lane holds all 64 terms; since the buffers' row r is the table row the
  tile's (128·c + r)-th index names, that is the result array's entry for that pair, and storing the sixteen lanes at
  [128·c + 16·g, +16) of the score buffer extends its finished prefix by sixteen entries.
-/
import proofs.«203366_g62191126446181_cont_9to1c4b_889_14_alg».proof.Proof.KBIface
import Idealize.ShloMosaic.Lib.WritesUnit

noncomputable section

namespace Cert.Proof.KB

open Cert.Kernel Cert.Kernel.Gen
open Idealize.ShloMosaic Idealize.ShloMosaic.ValueIdx

/-! ## The index vectors -/

/-- Lane x of the row vector of the group whose induction word is `a` names row 16·a + x. -/
def rowv (a : BitVec 32) : IVec S16 32 :=
  addi (iota .scVector S16 32 [0] iota_S16_d0_w32_scVector) (broadcast S16 (Scalar.muli a 16#32))
/-- Every lane of the dd-th column vector of the step whose induction word is `a` names column 8·a + dd. -/
def colv (a dd : BitVec 32) : IVec S16 32 :=
  addi (broadcast S16 0#32) (broadcast S16 (Scalar.addi (Scalar.muli a 8#32) dd))
/-- … and of its partner, 64 columns on. -/
def colv64 (a dd : BitVec 32) : IVec S16 32 := addi (colv a dd) (broadcast S16 64#32)

/-- Trip k < 8 of a loop from 0 by 1 has induction word k. -/
theorem iv_toNat (k : ℕ) (hk : k < 8) : (Scf.iv 0#32 1#32 k).toNat = k := by
  unfold Scf.iv
  simp only [BitVec.toNat_add, BitVec.toNat_mul, BitVec.toNat_ofNat]
  omega
theorem iv_lt (k : ℕ) (hk : k < 8) : (Scf.iv 0#32 1#32 k).toNat < 8 := by rw [iv_toNat k hk]; exact hk

theorem rowv_apply (a : BitVec 32) (x : S16.Idx) : rowv a x = BitVec.ofNat 32 (x 0).val + a * 16#32 := by
  unfold rowv
  simp [addi, iota, broadcast, Scalar.muli, IntOp.muli, IntOp.addi]
theorem colv_apply (a dd : BitVec 32) (x : S16.Idx) : colv a dd x = 0#32 + (a * 8#32 + dd) := rfl
theorem colv64_apply (a dd : BitVec 32) (x : S16.Idx) : colv64 a dd x = 0#32 + (a * 8#32 + dd) + 64#32 := rfl

/-- The numbers the lanes hold, for induction words below 8 and dd below 8: no sum wraps. -/
theorem rowv_toNat (a : BitVec 32) (ha : a.toNat < 8) (x : S16.Idx) : (rowv a x).toNat = 16 * a.toNat + (x 0).val := by
  rw [rowv_apply]
  have hx : (x 0).val < 16 := (x 0).isLt
  simp only [BitVec.toNat_add, BitVec.toNat_mul, BitVec.toNat_ofNat]
  omega
theorem colv_toNat (a dd : BitVec 32) (ha : a.toNat < 8) (hdd : dd.toNat < 8) (x : S16.Idx) :
    (colv a dd x).toNat = 8 * a.toNat + dd.toNat := by
  rw [colv_apply]
  simp only [BitVec.toNat_add, BitVec.toNat_mul, BitVec.toNat_ofNat]
  omega
theorem colv64_toNat (a dd : BitVec 32) (ha : a.toNat < 8) (hdd : dd.toNat < 8) (x : S16.Idx) :
    (colv64 a dd x).toNat = 8 * a.toNat + dd.toNat + 64 := by
  rw [colv64_apply]
  simp only [BitVec.toNat_add, BitVec.toNat_mul, BitVec.toNat_ofNat]
  omega

theorem rowv_lt (a : BitVec 32) (ha : a.toNat < 8) (x : S16.Idx) : (rowv a x).toNat < 128 := by
  rw [rowv_toNat a ha x]; have hx : (x 0).val < 16 := (x 0).isLt; omega
theorem colv_lt (a dd : BitVec 32) (ha : a.toNat < 8) (hdd : dd.toNat < 8) (x : S16.Idx) : (colv a dd x).toNat < 128 := by
  rw [colv_toNat a dd ha hdd x]; omega
theorem colv64_lt (a dd : BitVec 32) (ha : a.toNat < 8) (hdd : dd.toNat < 8) (x : S16.Idx) : (colv64 a dd x).toNat < 128 := by
  rw [colv64_toNat a dd ha hdd x]; omega

/-! ## The loads stay inside the buffers -/

/-- A pair of index vectors whose every lane is below 128 is inside a 128 × 128 buffer. -/
theorem chk_ok (rows cols : IVec S16 32) (hr : ∀ x, (rows x).toNat < 128) (hc : ∀ x, (cols x).toNat < 128) :
    ∀ a x, ((![rows, cols] : Fin 2 → IVec S16 32) a x).toNat < S128x128.size a := by
  intro a x
  match a with
  | ⟨0, _⟩ => exact hr x
  | ⟨1, _⟩ => exact hc x

/-- Group g's rows with step t's dd-th columns … -/
theorem chk_col (g t : ℕ) (hg : g < 8) (ht : t < 8) (dd : BitVec 32) (hdd : dd.toNat < 8) :
    ∀ a x, ((![rowv (Scf.iv 0#32 1#32 g), colv (Scf.iv 0#32 1#32 t) dd] : Fin 2 → IVec S16 32) a x).toNat < S128x128.size a :=
  chk_ok _ _ (rowv_lt _ (iv_lt g hg)) (colv_lt _ _ (iv_lt t ht) hdd)
/-- … and with their partners 64 columns on. -/
theorem chk_col64 (g t : ℕ) (hg : g < 8) (ht : t < 8) (dd : BitVec 32) (hdd : dd.toNat < 8) :
    ∀ a x, ((![rowv (Scf.iv 0#32 1#32 g), colv64 (Scf.iv 0#32 1#32 t) dd] : Fin 2 → IVec S16 32) a x).toNat < S128x128.size a :=
  chk_ok _ _ (rowv_lt _ (iv_lt g hg)) (colv64_lt _ _ (iv_lt t ht) hdd)

open Lean Meta Elab Tactic in
/-- Closes a bound `∀ a x, (![rows, cols] a x).toNat < 128`, under whatever name it is stated, for group g's row vector
    and one of step t's sixteen column vectors, given `hg : g < 8` and `ht : t < 8`: by `chk_col64` when the column
    vector's defining sum ends in `+ 64`, by `chk_col` when it does not. -/
elab "chk_disch " hg:term:max ppSpace ht:term:max : tactic => withMainContext do
  let goal ← getMainGoal
  let ty ← instantiateMVars (← goal.getType)
  let cols := ty.appArg!
  let mut e := cols
  for _ in [0:12] do
    e ← whnfCore (← instantiateMVars e)
    if e.isAppOf ``Idealize.ShloMosaic.addi then break
    match ← unfoldDefinition? e with
    | some e' => e := e'
    | none => break
  let plus64 := e.isAppOf ``Idealize.ShloMosaic.addi &&
    (e.appArg!.find? fun t => t.rawNatLit? == some 64).isSome
  if plus64 then evalTactic (← `(tactic| exact chk_col64 _ _ $hg $ht _ (by decide)))
  else evalTactic (← `(tactic| exact chk_col _ _ $hg $ht _ (by decide)))

/-! ## What the loops maintain -/

section Predicates
variable {F : FTy → Type} [FloatOps F] (m : (ℓ : Loc nD τ sig) → Buf (Elt F) ℓ) (d : Dev nD) (L : grid0.Coords)

/-- Row 16·g + x of a 128-row buffer, lane x of group g (reduced mod 128, so that it needs no proof). -/
def r16 (g : ℕ) (x : S16.Idx) : Fin 128 := ⟨(16 * g + (x 0).val) % 128, Nat.mod_lt _ (by norm_num)⟩

/-- After t steps of group g, lane x of the carried vector is the running sum of the first 8·t products of row
    16·g + x: the first buffer's column dd times the second buffer's column dd + 64. -/
def Pa (U : Buf (Elt F) ((thr d L).loc cc0_scratch2)) (V : Buf (Elt F) ((thr d L).loc cc0_scratch3))
    (g t : ℕ) (acc : FVec F S16 .f32) : Prop :=
  ∀ x : S16.Idx, acc x = Cert.KOut.dotAcc (fun dd => U (ix2 (r16 g x) (Cert.KOut.colU dd)))
    (fun dd => V (ix2 (r16 g x) (Cert.KOut.colV dd))) (8 * t)

/-- After g groups of round c, the first 128·c + 16·g entries of the score buffer are the tile's entries of the
    result array. -/
def Pf (c g : ℕ) (f : Buf (Elt F) ((thr d L).loc cc0_scratch4)) : Prop :=
  ∀ p, p < 128 * c + 16 * g →
    f (ix1 ⟨p % 512, Nat.mod_lt _ (by norm_num)⟩)
      = OUTm m d (ix1 ⟨(512 * (wL L).val + p) % 16384, Nat.mod_lt _ (by norm_num)⟩)

/-- In round c the first row buffer holds, at row r, the concatenated table's row named by the tile's
    (128·c + r)-th user index … -/
def RowsU (c : ℕ) (U : Buf (Elt F) ((thr d L).loc cc0_scratch2)) : Prop :=
  ∀ (r q : Fin 128), U (ix2 r q)
    = CAT m d (ix2 (Cert.DotSpec.rowOf (m (uLoc d) (ix1 ⟨(512 * (wL L).val + 128 * c + r.val) % 16384, Nat.mod_lt _ (by norm_num)⟩))) q)

/-- … and the second, the row named by its (128·c + r)-th item index. -/
def RowsV (c : ℕ) (V : Buf (Elt F) ((thr d L).loc cc0_scratch3)) : Prop :=
  ∀ (r q : Fin 128), V (ix2 r q)
    = CAT m d (ix2 (Cert.DotSpec.rowOf (m (iLoc d) (ix1 ⟨(512 * (wL L).val + 128 * c + r.val) % 16384, Nat.mod_lt _ (by norm_num)⟩))) q)

end Predicates

/-! ## One step of a group: eight more products on each lane's running sum -/

section Step
variable {F : FTy → Type} [FloatOps F] (d : Dev nD) (L : grid0.Coords)
  (U : Buf (Elt F) ((thr d L).loc cc0_scratch2)) (V : Buf (Elt F) ((thr d L).loc cc0_scratch3))

/-- Before the first step the carried vector is the zero word on every lane: the empty running sum. -/
theorem Pa_init (g : ℕ) : Pa d L U V g 0 (broadcast S16 (Scalar.ofBits .f32 0x00000000#32 : F .f32)) :=
  fun _ => rfl

/-- Lane x of the load of the first buffer at group g's rows and step t's dd-th columns: row 16·g + x, column 8·t + dd. -/
theorem ld_col (g t : ℕ) (hg : g < 8) (ht : t < 8) (dd : ℕ) (hdd : dd < 8)
    (h : ∀ a x, ((![rowv (Scf.iv 0#32 1#32 g), colv (Scf.iv 0#32 1#32 t) (BitVec.ofNat 32 dd)] : Fin 2 → IVec S16 32) a x).toNat < S128x128.size a)
    (x : S16.Idx) :
    loadIdx (View.readAt (Elt F) (Memref.whole cc0_scratch2).view (LoadRect.whole S128x128) U) ![rowv (Scf.iv 0#32 1#32 g), colv (Scf.iv 0#32 1#32 t) (BitVec.ofNat 32 dd)] h x
      = U (ix2 (r16 g x) (Cert.KOut.colU (8 * t + dd))) := by
  have hR : View.readAt (Elt F) (Memref.whole cc0_scratch2).view (LoadRect.whole S128x128) U = U :=
    Memref.readAt_whole (Elt F) cc0_scratch2 U
  rw [hR]
  show U (idxAt _ h x) = _
  refine congrArg U (funext fun a => Fin.ext ?_)
  have hx : (x 0).val < 16 := (x 0).isLt
  have hdd' : (BitVec.ofNat 32 dd).toNat = dd := by rw [BitVec.toNat_ofNat]; omega
  match a with
  | ⟨0, _⟩ =>
    show (rowv (Scf.iv 0#32 1#32 g) x).toNat = (16 * g + (x 0).val) % 128
    rw [rowv_toNat _ (iv_lt g hg), iv_toNat g hg]; omega
  | ⟨1, _⟩ =>
    show (colv (Scf.iv 0#32 1#32 t) (BitVec.ofNat 32 dd) x).toNat = (8 * t + dd) % 128
    rw [colv_toNat _ _ (iv_lt t ht) (by omega), iv_toNat t ht, hdd']; omega

/-- … and of the second buffer at the partner columns: row 16·g + x, column 8·t + dd + 64. -/
theorem ld_col64 (g t : ℕ) (hg : g < 8) (ht : t < 8) (dd : ℕ) (hdd : dd < 8)
    (h : ∀ a x, ((![rowv (Scf.iv 0#32 1#32 g), colv64 (Scf.iv 0#32 1#32 t) (BitVec.ofNat 32 dd)] : Fin 2 → IVec S16 32) a x).toNat < S128x128.size a)
    (x : S16.Idx) :
    loadIdx (View.readAt (Elt F) (Memref.whole cc0_scratch3).view (LoadRect.whole S128x128) V) ![rowv (Scf.iv 0#32 1#32 g), colv64 (Scf.iv 0#32 1#32 t) (BitVec.ofNat 32 dd)] h x
      = V (ix2 (r16 g x) (Cert.KOut.colV (8 * t + dd))) := by
  have hR : View.readAt (Elt F) (Memref.whole cc0_scratch3).view (LoadRect.whole S128x128) V = V :=
    Memref.readAt_whole (Elt F) cc0_scratch3 V
  rw [hR]
  show V (idxAt _ h x) = _
  refine congrArg V (funext fun a => Fin.ext ?_)
  have hx : (x 0).val < 16 := (x 0).isLt
  have hdd' : (BitVec.ofNat 32 dd).toNat = dd := by rw [BitVec.toNat_ofNat]; omega
  match a with
  | ⟨0, _⟩ =>
    show (rowv (Scf.iv 0#32 1#32 g) x).toNat = (16 * g + (x 0).val) % 128
    rw [rowv_toNat _ (iv_lt g hg), iv_toNat g hg]; omega
  | ⟨1, _⟩ =>
    show (colv64 (Scf.iv 0#32 1#32 t) (BitVec.ofNat 32 dd) x).toNat = (8 * t + dd + 64) % 128
    rw [colv64_toNat _ _ (iv_lt t ht) (by omega), iv_toNat t ht, hdd']; omega

/-- Eight more steps of the running sum, written out. -/
theorem dotAcc_add8 (u v : ℕ → F .f32) (n : ℕ) :
    Cert.KOut.dotAcc u v (n + 8) =
      FloatOps.addf (FloatOps.addf (FloatOps.addf (FloatOps.addf (FloatOps.addf (FloatOps.addf (FloatOps.addf (FloatOps.addf
        (Cert.KOut.dotAcc u v n) (FloatOps.mulf (u n) (v n))) (FloatOps.mulf (u (n + 1)) (v (n + 1))))
        (FloatOps.mulf (u (n + 2)) (v (n + 2)))) (FloatOps.mulf (u (n + 3)) (v (n + 3)))) (FloatOps.mulf (u (n + 4)) (v (n + 4))))
        (FloatOps.mulf (u (n + 5)) (v (n + 5)))) (FloatOps.mulf (u (n + 6)) (v (n + 6)))) (FloatOps.mulf (u (n + 7)) (v (n + 7))) := rfl

/-- THE STEP: if the carried vector holds the running sums of the first 8·t products, then the vector the step yields —
    the carried one plus, in order dd = 0 … 7, the product of the two loads at columns 8·t + dd and 8·t + dd + 64 — holds
    those of the first 8·(t + 1). -/
theorem trip_step (g t : ℕ) (hg : g < 8) (ht : t < 8) (acc : FVec F S16 .f32)
    {hU0 : ∀ a x, ((![rowv (Scf.iv 0#32 1#32 g), colv (Scf.iv 0#32 1#32 t) 0#32] : Fin 2 → IVec S16 32) a x).toNat < S128x128.size a}
    {hV0 : ∀ a x, ((![rowv (Scf.iv 0#32 1#32 g), colv64 (Scf.iv 0#32 1#32 t) 0#32] : Fin 2 → IVec S16 32) a x).toNat < S128x128.size a}
    {hU1 : ∀ a x, ((![rowv (Scf.iv 0#32 1#32 g), colv (Scf.iv 0#32 1#32 t) 1#32] : Fin 2 → IVec S16 32) a x).toNat < S128x128.size a}
    {hV1 : ∀ a x, ((![rowv (Scf.iv 0#32 1#32 g), colv64 (Scf.iv 0#32 1#32 t) 1#32] : Fin 2 → IVec S16 32) a x).toNat < S128x128.size a}
    {hU2 : ∀ a x, ((![rowv (Scf.iv 0#32 1#32 g), colv (Scf.iv 0#32 1#32 t) 2#32] : Fin 2 → IVec S16 32) a x).toNat < S128x128.size a}
    {hV2 : ∀ a x, ((![rowv (Scf.iv 0#32 1#32 g), colv64 (Scf.iv 0#32 1#32 t) 2#32] : Fin 2 → IVec S16 32) a x).toNat < S128x128.size a}
    {hU3 : ∀ a x, ((![rowv (Scf.iv 0#32 1#32 g), colv (Scf.iv 0#32 1#32 t) 3#32] : Fin 2 → IVec S16 32) a x).toNat < S128x128.size a}
    {hV3 : ∀ a x, ((![rowv (Scf.iv 0#32 1#32 g), colv64 (Scf.iv 0#32 1#32 t) 3#32] : Fin 2 → IVec S16 32) a x).toNat < S128x128.size a}
    {hU4 : ∀ a x, ((![rowv (Scf.iv 0#32 1#32 g), colv (Scf.iv 0#32 1#32 t) 4#32] : Fin 2 → IVec S16 32) a x).toNat < S128x128.size a}
    {hV4 : ∀ a x, ((![rowv (Scf.iv 0#32 1#32 g), colv64 (Scf.iv 0#32 1#32 t) 4#32] : Fin 2 → IVec S16 32) a x).toNat < S128x128.size a}
    {hU5 : ∀ a x, ((![rowv (Scf.iv 0#32 1#32 g), colv (Scf.iv 0#32 1#32 t) 5#32] : Fin 2 → IVec S16 32) a x).toNat < S128x128.size a}
    {hV5 : ∀ a x, ((![rowv (Scf.iv 0#32 1#32 g), colv64 (Scf.iv 0#32 1#32 t) 5#32] : Fin 2 → IVec S16 32) a x).toNat < S128x128.size a}
    {hU6 : ∀ a x, ((![rowv (Scf.iv 0#32 1#32 g), colv (Scf.iv 0#32 1#32 t) 6#32] : Fin 2 → IVec S16 32) a x).toNat < S128x128.size a}
    {hV6 : ∀ a x, ((![rowv (Scf.iv 0#32 1#32 g), colv64 (Scf.iv 0#32 1#32 t) 6#32] : Fin 2 → IVec S16 32) a x).toNat < S128x128.size a}
    {hU7 : ∀ a x, ((![rowv (Scf.iv 0#32 1#32 g), colv (Scf.iv 0#32 1#32 t) 7#32] : Fin 2 → IVec S16 32) a x).toNat < S128x128.size a}
    {hV7 : ∀ a x, ((![rowv (Scf.iv 0#32 1#32 g), colv64 (Scf.iv 0#32 1#32 t) 7#32] : Fin 2 → IVec S16 32) a x).toNat < S128x128.size a}
    (hacc : Pa d L U V g t acc) :
    Pa d L U V g (t + 1)
      (k0_pay74
        (k0_pay21
          (k0_pay12 acc (loadIdx (View.readAt (Elt F) (Memref.whole cc0_scratch2).view (LoadRect.whole S128x128) U) ![rowv (Scf.iv 0#32 1#32 g), colv (Scf.iv 0#32 1#32 t) 0#32] hU0) (loadIdx (View.readAt (Elt F) (Memref.whole cc0_scratch3).view (LoadRect.whole S128x128) V) ![rowv (Scf.iv 0#32 1#32 g), colv64 (Scf.iv 0#32 1#32 t) 0#32] hV0)
            (loadIdx (View.readAt (Elt F) (Memref.whole cc0_scratch2).view (LoadRect.whole S128x128) U) ![rowv (Scf.iv 0#32 1#32 g), colv (Scf.iv 0#32 1#32 t) 1#32] hU1) (loadIdx (View.readAt (Elt F) (Memref.whole cc0_scratch3).view (LoadRect.whole S128x128) V) ![rowv (Scf.iv 0#32 1#32 g), colv64 (Scf.iv 0#32 1#32 t) 1#32] hV1)
            (loadIdx (View.readAt (Elt F) (Memref.whole cc0_scratch2).view (LoadRect.whole S128x128) U) ![rowv (Scf.iv 0#32 1#32 g), colv (Scf.iv 0#32 1#32 t) 2#32] hU2) (loadIdx (View.readAt (Elt F) (Memref.whole cc0_scratch3).view (LoadRect.whole S128x128) V) ![rowv (Scf.iv 0#32 1#32 g), colv64 (Scf.iv 0#32 1#32 t) 2#32] hV2))
          (loadIdx (View.readAt (Elt F) (Memref.whole cc0_scratch2).view (LoadRect.whole S128x128) U) ![rowv (Scf.iv 0#32 1#32 g), colv (Scf.iv 0#32 1#32 t) 3#32] hU3) (loadIdx (View.readAt (Elt F) (Memref.whole cc0_scratch3).view (LoadRect.whole S128x128) V) ![rowv (Scf.iv 0#32 1#32 g), colv64 (Scf.iv 0#32 1#32 t) 3#32] hV3)
          (loadIdx (View.readAt (Elt F) (Memref.whole cc0_scratch2).view (LoadRect.whole S128x128) U) ![rowv (Scf.iv 0#32 1#32 g), colv (Scf.iv 0#32 1#32 t) 4#32] hU4) (loadIdx (View.readAt (Elt F) (Memref.whole cc0_scratch3).view (LoadRect.whole S128x128) V) ![rowv (Scf.iv 0#32 1#32 g), colv64 (Scf.iv 0#32 1#32 t) 4#32] hV4)
          (loadIdx (View.readAt (Elt F) (Memref.whole cc0_scratch2).view (LoadRect.whole S128x128) U) ![rowv (Scf.iv 0#32 1#32 g), colv (Scf.iv 0#32 1#32 t) 5#32] hU5) (loadIdx (View.readAt (Elt F) (Memref.whole cc0_scratch3).view (LoadRect.whole S128x128) V) ![rowv (Scf.iv 0#32 1#32 g), colv64 (Scf.iv 0#32 1#32 t) 5#32] hV5)
          (loadIdx (View.readAt (Elt F) (Memref.whole cc0_scratch2).view (LoadRect.whole S128x128) U) ![rowv (Scf.iv 0#32 1#32 g), colv (Scf.iv 0#32 1#32 t) 6#32] hU6) (loadIdx (View.readAt (Elt F) (Memref.whole cc0_scratch3).view (LoadRect.whole S128x128) V) ![rowv (Scf.iv 0#32 1#32 g), colv64 (Scf.iv 0#32 1#32 t) 6#32] hV6))
        (loadIdx (View.readAt (Elt F) (Memref.whole cc0_scratch2).view (LoadRect.whole S128x128) U) ![rowv (Scf.iv 0#32 1#32 g), colv (Scf.iv 0#32 1#32 t) 7#32] hU7) (loadIdx (View.readAt (Elt F) (Memref.whole cc0_scratch3).view (LoadRect.whole S128x128) V) ![rowv (Scf.iv 0#32 1#32 g), colv64 (Scf.iv 0#32 1#32 t) 7#32] hV7)) := by
  intro x
  show FloatOps.addf (FloatOps.addf (FloatOps.addf (FloatOps.addf (FloatOps.addf (FloatOps.addf (FloatOps.addf (FloatOps.addf
        (acc x) (FloatOps.mulf ((loadIdx (View.readAt (Elt F) (Memref.whole cc0_scratch2).view (LoadRect.whole S128x128) U) ![rowv (Scf.iv 0#32 1#32 g), colv (Scf.iv 0#32 1#32 t) 0#32] hU0) x) ((loadIdx (View.readAt (Elt F) (Memref.whole cc0_scratch3).view (LoadRect.whole S128x128) V) ![rowv (Scf.iv 0#32 1#32 g), colv64 (Scf.iv 0#32 1#32 t) 0#32] hV0) x))) (FloatOps.mulf ((loadIdx (View.readAt (Elt F) (Memref.whole cc0_scratch2).view (LoadRect.whole S128x128) U) ![rowv (Scf.iv 0#32 1#32 g), colv (Scf.iv 0#32 1#32 t) 1#32] hU1) x) ((loadIdx (View.readAt (Elt F) (Memref.whole cc0_scratch3).view (LoadRect.whole S128x128) V) ![rowv (Scf.iv 0#32 1#32 g), colv64 (Scf.iv 0#32 1#32 t) 1#32] hV1) x)))
        (FloatOps.mulf ((loadIdx (View.readAt (Elt F) (Memref.whole cc0_scratch2).view (LoadRect.whole S128x128) U) ![rowv (Scf.iv 0#32 1#32 g), colv (Scf.iv 0#32 1#32 t) 2#32] hU2) x) ((loadIdx (View.readAt (Elt F) (Memref.whole cc0_scratch3).view (LoadRect.whole S128x128) V) ![rowv (Scf.iv 0#32 1#32 g), colv64 (Scf.iv 0#32 1#32 t) 2#32] hV2) x))) (FloatOps.mulf ((loadIdx (View.readAt (Elt F) (Memref.whole cc0_scratch2).view (LoadRect.whole S128x128) U) ![rowv (Scf.iv 0#32 1#32 g), colv (Scf.iv 0#32 1#32 t) 3#32] hU3) x) ((loadIdx (View.readAt (Elt F) (Memref.whole cc0_scratch3).view (LoadRect.whole S128x128) V) ![rowv (Scf.iv 0#32 1#32 g), colv64 (Scf.iv 0#32 1#32 t) 3#32] hV3) x))) (FloatOps.mulf ((loadIdx (View.readAt (Elt F) (Memref.whole cc0_scratch2).view (LoadRect.whole S128x128) U) ![rowv (Scf.iv 0#32 1#32 g), colv (Scf.iv 0#32 1#32 t) 4#32] hU4) x) ((loadIdx (View.readAt (Elt F) (Memref.whole cc0_scratch3).view (LoadRect.whole S128x128) V) ![rowv (Scf.iv 0#32 1#32 g), colv64 (Scf.iv 0#32 1#32 t) 4#32] hV4) x)))
        (FloatOps.mulf ((loadIdx (View.readAt (Elt F) (Memref.whole cc0_scratch2).view (LoadRect.whole S128x128) U) ![rowv (Scf.iv 0#32 1#32 g), colv (Scf.iv 0#32 1#32 t) 5#32] hU5) x) ((loadIdx (View.readAt (Elt F) (Memref.whole cc0_scratch3).view (LoadRect.whole S128x128) V) ![rowv (Scf.iv 0#32 1#32 g), colv64 (Scf.iv 0#32 1#32 t) 5#32] hV5) x))) (FloatOps.mulf ((loadIdx (View.readAt (Elt F) (Memref.whole cc0_scratch2).view (LoadRect.whole S128x128) U) ![rowv (Scf.iv 0#32 1#32 g), colv (Scf.iv 0#32 1#32 t) 6#32] hU6) x) ((loadIdx (View.readAt (Elt F) (Memref.whole cc0_scratch3).view (LoadRect.whole S128x128) V) ![rowv (Scf.iv 0#32 1#32 g), colv64 (Scf.iv 0#32 1#32 t) 6#32] hV6) x))) (FloatOps.mulf ((loadIdx (View.readAt (Elt F) (Memref.whole cc0_scratch2).view (LoadRect.whole S128x128) U) ![rowv (Scf.iv 0#32 1#32 g), colv (Scf.iv 0#32 1#32 t) 7#32] hU7) x) ((loadIdx (View.readAt (Elt F) (Memref.whole cc0_scratch3).view (LoadRect.whole S128x128) V) ![rowv (Scf.iv 0#32 1#32 g), colv64 (Scf.iv 0#32 1#32 t) 7#32] hV7) x)) = _
  rw [hacc x, show 8 * (t + 1) = 8 * t + 8 by ring, dotAcc_add8,
    ld_col d L U g t hg ht 0 (by decide), ld_col d L U g t hg ht 1 (by decide), ld_col d L U g t hg ht 2 (by decide), ld_col d L U g t hg ht 3 (by decide),
    ld_col d L U g t hg ht 4 (by decide), ld_col d L U g t hg ht 5 (by decide), ld_col d L U g t hg ht 6 (by decide), ld_col d L U g t hg ht 7 (by decide),
    ld_col64 d L V g t hg ht 0 (by decide), ld_col64 d L V g t hg ht 1 (by decide), ld_col64 d L V g t hg ht 2 (by decide), ld_col64 d L V g t hg ht 3 (by decide),
    ld_col64 d L V g t hg ht 4 (by decide), ld_col64 d L V g t hg ht 5 (by decide), ld_col64 d L V g t hg ht 6 (by decide), ld_col64 d L V g t hg ht 7 (by decide)]
  rfl

end Step

/-! ## One group: sixteen more entries of the score buffer -/

section Group
variable {F : FTy → Type} [FloatOps F] (m : (ℓ : Loc nD τ sig) → Buf (Elt F) ℓ) (d : Dev nD) (L : grid0.Coords)

/-- The loops of this kernel make eight trips. -/
theorem trips8 : Scf.trips (0#32 : BitVec 32) (Scalar.addi 0#32 8#32) 1#32 = 8 := by decide

/-- THE GROUP: in round c, with the two row buffers holding the rows the tile's (128·c + r)-th indices name, after the
    eight steps of group g the carried vector holds, on lane x, the full 64-term running sum of row 16·g + x — the
    result array's entry for the tile's (128·c + 16·g + x)-th pair. Stored into the score buffer at
    [128·c + 16·g, 128·c + 16·g + 16) it extends the finished prefix by sixteen entries and leaves the rest as it was. -/
theorem group_step (c g : ℕ) (hc : c < 4) (hg : g < 8)
    (U : Buf (Elt F) ((thr d L).loc cc0_scratch2)) (V : Buf (Elt F) ((thr d L).loc cc0_scratch3))
    (hU : RowsU m d L c U) (hV : RowsV m d L c V)
    (f : Buf (Elt F) ((thr d L).loc cc0_scratch4)) (acc : FVec F S16 .f32) (n : ℕ) (hn : n = 8)
    (hacc : Pa d L U V g n acc) (hf : Pf m d L c g f)
    (off : Fin 1 → ℕ) (inb : ∀ a, off a + S16.size a ≤ S512.size a) (hoff : off 0 = 128 * c + 16 * g) :
    Pf m d L c (g + 1)
      ((Memref.whole cc0_scratch4).view.writes (Elt F) f [⟨Rect.unit (s := S512) off S16.size inb, acc⟩]) := by
  subst hn
  have hoff' : off = ![128 * c + 16 * g] := funext fun a => by
    obtain rfl : a = 0 := Subsingleton.elim _ _
    exact hoff
  intro p hp
  have hw := (wL L).isLt
  by_cases hlt : p < 128 * c + 16 * g
  · -- an entry finished before: the store does not reach it
    have hp512 : p % 512 = p := Nat.mod_eq_of_lt (by omega)
    refine Eq.trans ?_ (hf p hlt)
    exact View.read_writes_cons_unit_of_not_mem (Memref.whole cc0_scratch4).view f inb acc []
      (ix1 ⟨p % 512, Nat.mod_lt _ (by norm_num)⟩) hoff' 0 (Or.inl (by show p % 512 < 128 * c + 16 * g; omega))
  · -- one of the sixteen new entries: lane p − (128·c + 16·g) of the carried vector
    have hx0 : p - (128 * c + 16 * g) < 16 := by omega
    have hp512 : p % 512 = p := Nat.mod_eq_of_lt (by omega)
    let x : S16.Idx := ix1 ⟨p - (128 * c + 16 * g), hx0⟩
    have hrd : ((Memref.whole cc0_scratch4).view.writes (Elt F) f [⟨Rect.unit (s := S512) off S16.size inb, acc⟩])
        (ix1 ⟨p % 512, Nat.mod_lt _ (by norm_num)⟩) = acc x :=
      View.read_writes_cons_unit_of_mem (Memref.whole cc0_scratch4).view f inb acc []
        (ix1 ⟨p % 512, Nat.mod_lt _ (by norm_num)⟩) x hoff' (fun a =>
          match a with
          | ⟨0, _⟩ => by
            show p % 512 = (128 * c + 16 * g) + (p - (128 * c + 16 * g))
            omega)
    rw [hrd, hacc x]
    have hr : (r16 g x).val = 16 * g + (p - (128 * c + 16 * g)) := by
      show (16 * g + (p - (128 * c + 16 * g))) % 128 = _
      exact Nat.mod_eq_of_lt (by omega)
    have hj : (⟨(512 * (wL L).val + 128 * c + (r16 g x).val) % 16384, Nat.mod_lt _ (by norm_num)⟩ : Fin 16384)
        = ⟨(512 * (wL L).val + p) % 16384, Nat.mod_lt _ (by norm_num)⟩ := Fin.ext (by
      show (512 * (wL L).val + 128 * c + (r16 g x).val) % 16384 = (512 * (wL L).val + p) % 16384
      rw [hr]; congr 1; omega)
    show Cert.KOut.dotAcc _ _ 64 = Cert.KOut.dotAcc _ _ 64
    congr 1
    · funext dd; rw [hU (r16 g x) (Cert.KOut.colU dd), hj]
    · funext dd; rw [hV (r16 g x) (Cert.KOut.colV dd), hj]

/-- Before the first group of the first round nothing is claimed. -/
theorem Pf_zero (f : Buf (Elt F) ((thr d L).loc cc0_scratch4)) : Pf m d L 0 0 f :=
  fun p hp => absurd hp (by omega)

/-- The eight groups of a round finish its 128 entries: the next round starts from there. -/
theorem Pf_next (c n : ℕ) (hn : n = 8) (f : Buf (Elt F) ((thr d L).loc cc0_scratch4)) (h : Pf m d L c n f) :
    Pf m d L (c + 1) 0 f := by
  subst hn; exact fun p hp => h p (by omega)

/-- After the fourth round all 512 entries of the score buffer are the tile's entries of the result array. -/
theorem Pf_done (n : ℕ) (hn : n = 8) (f : Buf (Elt F) ((thr d L).loc cc0_scratch4)) (h : Pf m d L 3 n f) :
    ∀ p, p < 512 → f (ix1 ⟨p % 512, Nat.mod_lt _ (by norm_num)⟩)
      = OUTm m d (ix1 ⟨(512 * (wL L).val + p) % 16384, Nat.mod_lt _ (by norm_num)⟩) := by
  subst hn; exact fun p hp => h p (by omega)

end Group

end Cert.Proof.KB

end
-- ==== Proof.KBMem.lean ====
/-
  Two facts about where a tile's transfers put their words. The last transfer copies the 512 words of the score buffer
  onto the tile's slice of the result array: entry x of the buffer lands at index 512·w + x of the array, w the tile's
  number. So if the buffer's entry p is the score of pair 512·w + p for every p < 512, then after the transfer the
  result array holds, on the tile's 512 indices, the scores.
  Each round's gather fills a 128 × 128 row buffer from the concatenated table: row r of the buffer is the table's row
  named by the r-th word of a list row, and that list row has just received 128 consecutive index words of the tile,
  those from 512·w + 128·c in round c. The precondition's range makes each word its own row number. So the buffer holds
  at (r, q) the table's entry at (the row index 128·c + r of the tile names, q).
-/
import proofs.«203366_g62191126446181_cont_9to1c4b_889_14_alg».proof.Proof.KBVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

open Idealize.ShloMosaic.ValueIdx

variable (m : (ℓ : Loc nD τ sig) → Buf (Elt F) ℓ)
variable [FloatOps F]

/-! ## The score buffer written out -/

/-- Once the score buffer, holding at each entry `p` the score of pair `512·w + p`, is written through the tile's slice
    of the result array, the array holds the scores on the slice's indices. -/
theorem out_ok (d : Dev nD) (L : grid0.Coords) (f4 : Buf (Elt F) ((thr d L).loc cc0_scratch4))
    (hf : ∀ p, p < 512 → f4 (ix1 ⟨p % 512, Nat.mod_lt _ (by norm_num)⟩)
      = OUTm m d (ix1 ⟨(512 * (wL L).val + p) % 16384, Nat.mod_lt _ (by norm_num)⟩))
    (g : Buf (Elt F) (oLoc d)) :
    ∀ i ∈ (oSl L).view.set,
      (oSl L).view.writes (Elt F) g [⟨Rect.whole S512, ReadAs.same.apply (View.read (Elt F) (b4).view f4)⟩] i = OUTm m d i := by
  intro i hi
  obtain ⟨x, -, rfl⟩ := Finset.mem_map.1 hi
  have hx : ((oSl L).view.slice (Rect.whole S512)).emb x = (oSl L).view.emb x := by
    rw [View.emb_slice]
    show (oSl L).view.emb ((Rect.whole S512).emb x) = _
    rw [Rect.emb_whole_apply]
  rw [View.writes_singleton, ← hx, View.write_emb_of_mem _ _ (Finset.mem_univ x), hx]
  show f4 x = OUTm m d ((oSl L).view.emb x)
  have hp : (x 0).val < 512 := (x 0).isLt
  have e1 : (ix1 ⟨(x 0).val % 512, Nat.mod_lt _ (by norm_num)⟩ : S512.Idx) = x := by
    funext a
    match a with
    | ⟨0, _⟩ => exact Fin.ext (Nat.mod_eq_of_lt hp)
  have e2 : (ix1 ⟨(512 * (wL L).val + (x 0).val) % 16384, Nat.mod_lt _ (by norm_num)⟩ : S16384.Idx) = (oSl L).view.emb x := by
    funext a
    match a with
    | ⟨0, _⟩ =>
      apply Fin.ext
      show (512 * (wL L).val + (x 0).val) % 16384 = k0_off6 L 0 + 1 * (x 0).val
      rw [k0_off6_eq]
      show (512 * (2 * (L 1).val + (L 0).val) + (x 0).val) % 16384 = (1024 * (L 1).val + 512 * (L 0).val) + 1 * (x 0).val
      have h0 : (L 0).val < 2 := (L 0).isLt
      have h1 : (L 1).val < 16 := (L 1).isLt
      omega
  have h := hf (x 0).val hp
  rw [e1, e2] at h
  exact h

/-! ## The gathered rows -/

omit [FloatOps F] in
/-- A whole-shape payload written through a whole scratch buffer is the buffer's new contents. -/
theorem write_whole_apply {κ : Kind} (b : Ref sig κ) (g0 : (View.whole b).ty.Contents (Elt F))
    (w : (Rect.whole b.ty.shape).shape.Idx → Elt F b.ty.elt) (x : b.ty.shape.Idx) :
    ((View.whole b).slice (Rect.whole b.ty.shape)).write (Elt F) g0 w Finset.univ x = w x := by
  have hx : ((View.whole b).slice (Rect.whole b.ty.shape)).emb x = x := by
    rw [View.emb_slice]
    show (View.whole b).emb ((Rect.whole b.ty.shape).emb x) = x
    rw [Rect.emb_whole_apply]; rfl
  have h := View.write_emb_of_mem (v := (View.whole b).slice (Rect.whole b.ty.shape)) (Val := Elt F) g0 w (Finset.mem_univ x)
  rw [hx] at h
  exact h

omit [FloatOps F] in
/-- The gather's payload at row r, column q: the table at the row the list's r-th word names, column q. -/
theorem gather_apply (hg : S1000000x128.Gathers 0 S128x128) (T : S1000000x128.Idx → Elt F .f32)
    (rr : Fin (S128x128.size hg.axis') → Fin (S1000000x128.size hg.axis)) (r q : Fin 128) :
    SparseCore.gatherPayload hg T rr (ix2 r q) = T (ix2 (rr r) q) := by
  unfold SparseCore.gatherPayload
  congr 1
  funext a
  match a with
  | ⟨0, _⟩ => exact Shape.Gathers.idx_axis hg rr (ix2 r q)
  | ⟨1, _⟩ => exact Fin.ext (Shape.Gathers.idx_of_ne hg rr (ix2 r q) ⟨1, by decide⟩ (by decide))

omit [FloatOps F] in
/-- Round c's 128 index words start at entry 512·w + 128·c of an index array. -/
theorem off1_eq (L : grid0.Coords) (c : Fin 4) : k0_off1 L (BitVec.ofNat 32 (128 * c.val)) 0 = 512 * (wL L).val + 128 * c.val := by
  rw [k0_off1_eq]
  show 1024 * (L 1).val + 512 * (L 0).val + 128 * c.val = 512 * (2 * (L 1).val + (L 0).val) + 128 * c.val
  omega

/-- Round c's user rows: the first row buffer, written with the gather of the concatenated table through the list row
    that has just received the tile's user indices 128·c … 128·c + 127, holds at row r the table's row named by user
    index 128·c + r of the tile. The list row's view, what it held before, the offset and every proof argument are
    arbitrary. -/
theorem rowsU_ok (d : Dev nD) (L : grid0.Coords) (c : ℕ)
    (v : View sig .scVector .vmem S128 .i32) (g : v.ty.Contents (Elt F))
    (off : Fin 1 → ℕ) (hoff : ∀ a, off a + S128.size a ≤ S16384.size a)
    (hst : ∀ a, (Rect.unit (s := S16384) off S128.size hoff).stride a = 1)
    (hoffc : off 0 = 512 * (wL L).val + 128 * c)
    (hg : S1000000x128.Gathers 0 S128x128)
    (hinb : ∀ a, (![0, 0] : Fin 2 → ℕ) a + S1000000x128.size a ≤ S1000000x128.size a)
    (hst' : ∀ a, (Rect.unit (s := S1000000x128) ![0, 0] S1000000x128.size hinb).stride a = 1)
    (hn : S128.numel = S128x128.size hg.axis')
    (hin : ∀ x, (View.read (Elt F) v (View.write (Elt F) v g (ReadAs.same.apply
        (View.read (Elt F) ((uW).slice (Rect.unit (s := S16384) off S128.size hoff) hst).view (m (uLoc d)))) Finset.univ) x).toNat
          < S1000000x128.size hg.axis)
    (g0 : (b2).view.ty.Contents (Elt F)) :
    RowsU m d L c ((b2).view.writes (Elt F) g0 [⟨Rect.whole cc0_scratch2.ty.shape,
      SparseCore.gatherPayload hg (View.read (Elt F) ((cW).slice (Rect.unit (s := S1000000x128) ![0, 0] S1000000x128.size hinb) hst').view (CAT m d))
        (SparseCore.rows (View.read (Elt F) v (View.write (Elt F) v g (ReadAs.same.apply
          (View.read (Elt F) ((uW).slice (Rect.unit (s := S16384) off S128.size hoff) hst).view (m (uLoc d)))) Finset.univ)) hn hin)⟩]) := by
  intro r q
  rw [View.writes_singleton]
  refine (write_whole_apply (F := F) cc0_scratch2 g0 _ (ix2 r q)).trans ?_
  rw [gather_apply]
  -- the word the list row holds at entry k is user index 128·c + k of the tile
  have hword : ∀ k : S128.Idx, View.read (Elt F) v (View.write (Elt F) v g (ReadAs.same.apply
        (View.read (Elt F) ((uW).slice (Rect.unit (s := S16384) off S128.size hoff) hst).view (m (uLoc d)))) Finset.univ) k
      = m (uLoc d) (ix1 ⟨(512 * (wL L).val + 128 * c + (k 0).val) % 16384, Nat.mod_lt _ (by norm_num)⟩) := by
    intro k
    rw [View.read_write_univ]
    show m (uLoc d) (((uW).slice (Rect.unit (s := S16384) off S128.size hoff) hst).view.emb k) = _
    congr 1
    funext a
    match a with
    | ⟨0, _⟩ =>
      apply Fin.ext
      show off 0 + 1 * (k 0).val = (512 * (wL L).val + 128 * c + (k 0).val) % 16384
      have h1 := hoff 0
      have h2 : S128.size 0 = 128 := rfl
      have h3 : S16384.size 0 = 16384 := rfl
      have hk0 : (k 0).val < 128 := (k 0).isLt
      omega
  -- entry r of the list, in row-major order, is the entry at coordinate r
  have hk0 : ((S128.rowMajor.symm (Fin.cast hn.symm r)) 0).val = r.val := by
    have h := Shape.rowMajor_val_one (S128.rowMajor.symm (Fin.cast hn.symm r))
    rw [Equiv.apply_symm_apply] at h
    exact h.symm
  have hrow : (SparseCore.rows (View.read (Elt F) v (View.write (Elt F) v g (ReadAs.same.apply
        (View.read (Elt F) ((uW).slice (Rect.unit (s := S16384) off S128.size hoff) hst).view (m (uLoc d)))) Finset.univ)) hn hin r).val
      = (Cert.DotSpec.rowOf (m (uLoc d) (ix1 ⟨(512 * (wL L).val + 128 * c + r.val) % 16384, Nat.mod_lt _ (by norm_num)⟩))).val := by
    have hlt := hin (S128.rowMajor.symm (Fin.cast hn.symm r))
    rw [hword, hk0] at hlt
    rw [Cert.DotSpec.rowOf_val_of_lt hlt]
    show (View.read (Elt F) v _ (S128.rowMajor.symm (Fin.cast hn.symm r))).toNat = _
    rw [hword, hk0]
  rw [View.read_apply]
  show CAT m d (((cW).slice (Rect.unit (s := S1000000x128) ![0, 0] S1000000x128.size hinb) hst').view.emb (ix2 _ q)) = _
  refine congrArg (CAT m d) ?_
  funext a
  match a with
  | ⟨0, _⟩ =>
    apply Fin.ext
    show 0 + 1 * (SparseCore.rows _ hn hin r).val = (Cert.DotSpec.rowOf _).val
    rw [hrow]; omega
  | ⟨1, _⟩ =>
    apply Fin.ext
    show 0 + 1 * q.val = q.val
    omega

/-- Round c's item rows: the second row buffer, written with the gather of the concatenated table through the list row
    that has just received the tile's item indices 128·c … 128·c + 127, holds at row r the table's row named by item
    index 128·c + r of the tile. The list row's view, what it held before, the offset and every proof argument are
    arbitrary. -/
theorem rowsV_ok (d : Dev nD) (L : grid0.Coords) (c : ℕ)
    (v : View sig .scVector .vmem S128 .i32) (g : v.ty.Contents (Elt F))
    (off : Fin 1 → ℕ) (hoff : ∀ a, off a + S128.size a ≤ S16384.size a)
    (hst : ∀ a, (Rect.unit (s := S16384) off S128.size hoff).stride a = 1)
    (hoffc : off 0 = 512 * (wL L).val + 128 * c)
    (hg : S1000000x128.Gathers 0 S128x128)
    (hinb : ∀ a, (![0, 0] : Fin 2 → ℕ) a + S1000000x128.size a ≤ S1000000x128.size a)
    (hst' : ∀ a, (Rect.unit (s := S1000000x128) ![0, 0] S1000000x128.size hinb).stride a = 1)
    (hn : S128.numel = S128x128.size hg.axis')
    (hin : ∀ x, (View.read (Elt F) v (View.write (Elt F) v g (ReadAs.same.apply
        (View.read (Elt F) ((iW).slice (Rect.unit (s := S16384) off S128.size hoff) hst).view (m (iLoc d)))) Finset.univ) x).toNat
          < S1000000x128.size hg.axis)
    (g0 : (b3).view.ty.Contents (Elt F)) :
    RowsV m d L c ((b3).view.writes (Elt F) g0 [⟨Rect.whole cc0_scratch3.ty.shape,
      SparseCore.gatherPayload hg (View.read (Elt F) ((cW).slice (Rect.unit (s := S1000000x128) ![0, 0] S1000000x128.size hinb) hst').view (CAT m d))
        (SparseCore.rows (View.read (Elt F) v (View.write (Elt F) v g (ReadAs.same.apply
          (View.read (Elt F) ((iW).slice (Rect.unit (s := S16384) off S128.size hoff) hst).view (m (iLoc d)))) Finset.univ)) hn hin)⟩]) := by
  intro r q
  rw [View.writes_singleton]
  refine (write_whole_apply (F := F) cc0_scratch3 g0 _ (ix2 r q)).trans ?_
  rw [gather_apply]
  -- the word the list row holds at entry k is item index 128·c + k of the tile
  have hword : ∀ k : S128.Idx, View.read (Elt F) v (View.write (Elt F) v g (ReadAs.same.apply
        (View.read (Elt F) ((iW).slice (Rect.unit (s := S16384) off S128.size hoff) hst).view (m (iLoc d)))) Finset.univ) k
      = m (iLoc d) (ix1 ⟨(512 * (wL L).val + 128 * c + (k 0).val) % 16384, Nat.mod_lt _ (by norm_num)⟩) := by
    intro k
    rw [View.read_write_univ]
    show m (iLoc d) (((iW).slice (Rect.unit (s := S16384) off S128.size hoff) hst).view.emb k) = _
    congr 1
    funext a
    match a with
    | ⟨0, _⟩ =>
      apply Fin.ext
      show off 0 + 1 * (k 0).val = (512 * (wL L).val + 128 * c + (k 0).val) % 16384
      have h1 := hoff 0
      have h2 : S128.size 0 = 128 := rfl
      have h3 : S16384.size 0 = 16384 := rfl
      have hk0 : (k 0).val < 128 := (k 0).isLt
      omega
  -- entry r of the list, in row-major order, is the entry at coordinate r
  have hk0 : ((S128.rowMajor.symm (Fin.cast hn.symm r)) 0).val = r.val := by
    have h := Shape.rowMajor_val_one (S128.rowMajor.symm (Fin.cast hn.symm r))
    rw [Equiv.apply_symm_apply] at h
    exact h.symm
  have hrow : (SparseCore.rows (View.read (Elt F) v (View.write (Elt F) v g (ReadAs.same.apply
        (View.read (Elt F) ((iW).slice (Rect.unit (s := S16384) off S128.size hoff) hst).view (m (iLoc d)))) Finset.univ)) hn hin r).val
      = (Cert.DotSpec.rowOf (m (iLoc d) (ix1 ⟨(512 * (wL L).val + 128 * c + r.val) % 16384, Nat.mod_lt _ (by norm_num)⟩))).val := by
    have hlt := hin (S128.rowMajor.symm (Fin.cast hn.symm r))
    rw [hword, hk0] at hlt
    rw [Cert.DotSpec.rowOf_val_of_lt hlt]
    show (View.read (Elt F) v _ (S128.rowMajor.symm (Fin.cast hn.symm r))).toNat = _
    rw [hword, hk0]
  rw [View.read_apply]
  show CAT m d (((cW).slice (Rect.unit (s := S1000000x128) ![0, 0] S1000000x128.size hinb) hst').view.emb (ix2 _ q)) = _
  refine congrArg (CAT m d) ?_
  funext a
  match a with
  | ⟨0, _⟩ =>
    apply Fin.ext
    show 0 + 1 * (SparseCore.rows _ hn hin r).val = (Cert.DotSpec.rowOf _).val
    rw [hrow]; omega
  | ⟨1, _⟩ =>
    apply Fin.ext
    show 0 + 1 * q.val = q.val
    omega

end Cert.Proof.KB

end
-- ==== Proof.KBBody.lean ====
/-
  One tile's task: four rounds of (fetch 128 user indices and 128 item indices; gather the 128 concatenated rows each
  list names; for each of the 128 pairs accumulate the 64 products of the user half of one row with the item half of
  the other), then the 512 scores written out to the tile's entries of the result array.
  Proved here: handed read shares of the two index arrays and of the concatenated table and its own 512 entries of the
  result array, the task runs to its end without fault and hands the same back, those entries now holding the scores of
  the tile's 512 pairs.
-/
import proofs.«203366_g62191126446181_cont_9to1c4b_889_14_alg».proof.Proof.KBIface
import proofs.«203366_g62191126446181_cont_9to1c4b_889_14_alg».proof.Proof.KBVal
import proofs.«203366_g62191126446181_cont_9to1c4b_889_14_alg».proof.Proof.KBMem

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

variable (m : (ℓ : Loc nD τ sig) → Buf (Elt F) ℓ)
variable [FloatOps F]

/-! ## The gathers' offsets name rows -/

omit [FloatOps F] in
/-- Whatever a list row held before, once 128 user indices have landed on it every word it holds names a row of the
    concatenated table. -/
theorem hin_u (d : Dev nD) (fu : Buf (Elt F) (uLoc d)) (hr : Cert.DotSpec.InRange fu)
    (v : View sig .scVector .vmem S128 .i32) (g : v.ty.Contents (Elt F)) (off : Fin 1 → ℕ) (hoff : ∀ a, off a + S128.size a ≤ S16384.size a)
    (hst : ∀ a, (Rect.unit (s := S16384) off S128.size hoff).stride a = 1) (x : S128.Idx) :
    (View.read (Elt F) v (View.write (Elt F) v g (ReadAs.same.apply
      (View.read (Elt F) ((uW).slice (Rect.unit (s := S16384) off S128.size hoff) hst).view fu)) Finset.univ) x).toNat < 1000000 := by
  rw [View.read_write_univ]
  show (View.read (Elt F) ((uW).slice (Rect.unit (s := S16384) off S128.size hoff) hst).view fu x).toNat < 1000000
  rw [show ∀ j, View.read (Elt F) ((uW).slice (Rect.unit (s := S16384) off S128.size hoff) hst).view fu j
      = fu (((uW).slice (Rect.unit (s := S16384) off S128.size hoff) hst).view.emb j) from fun j => (View.read_apply _ _).trans (cast_eq _ _)]
  exact hr _

omit [FloatOps F] in
/-- The same for 128 item indices. -/
theorem hin_i (d : Dev nD) (fi : Buf (Elt F) (iLoc d)) (hr : Cert.DotSpec.InRange fi)
    (v : View sig .scVector .vmem S128 .i32) (g : v.ty.Contents (Elt F)) (off : Fin 1 → ℕ) (hoff : ∀ a, off a + S128.size a ≤ S16384.size a)
    (hst : ∀ a, (Rect.unit (s := S16384) off S128.size hoff).stride a = 1) (x : S128.Idx) :
    (View.read (Elt F) v (View.write (Elt F) v g (ReadAs.same.apply
      (View.read (Elt F) ((iW).slice (Rect.unit (s := S16384) off S128.size hoff) hst).view fi)) Finset.univ) x).toNat < 1000000 := by
  rw [View.read_write_univ]
  show (View.read (Elt F) ((iW).slice (Rect.unit (s := S16384) off S128.size hoff) hst).view fi x).toNat < 1000000
  rw [show ∀ j, View.read (Elt F) ((iW).slice (Rect.unit (s := S16384) off S128.size hoff) hst).view fi j
      = fi (((iW).slice (Rect.unit (s := S16384) off S128.size hoff) hst).view.emb j) from fun j => (View.read_apply _ _).trans (cast_eq _ _)]
  exact hr _

/-! ## The loops' invariants -/

/-- Across the eight groups of a round: the two row buffers keep their gathered rows; the score buffer holds some
    contents of which `Pf` holds at this group. -/
def invG (d : Dev nD) (L : grid0.Coords) (U : Buf (Elt F) ((thr d L).loc cc0_scratch2)) (V : Buf (Elt F) ((thr d L).loc cc0_scratch3))
    (Pf : ℕ → Buf (Elt F) ((thr d L).loc cc0_scratch4) → Prop) (k : ℕ) (_ : PUnit) : sProp 𝕄 :=
  iprop(((b2).view.loc (thr d L) ↦{fullShare} U) ∗ ((b3).view.loc (thr d L) ↦{fullShare} V)
    ∗ ∃ f, ((b4).view.loc (thr d L) ↦{fullShare} f) ∗ ⌜Pf k f⌝)

/-- Across the eight steps of a group: the row buffers as they are, the carried vector of sixteen running sums such that
    `Pa` holds at this step. -/
def invD (d : Dev nD) (L : grid0.Coords) (U : Buf (Elt F) ((thr d L).loc cc0_scratch2)) (V : Buf (Elt F) ((thr d L).loc cc0_scratch3))
    (Pa : ℕ → FVec F S16 .f32 → Prop) (k : ℕ) (acc : FVec F S16 .f32) : sProp 𝕄 :=
  iprop(((b2).view.loc (thr d L) ↦{fullShare} U) ∗ ((b3).view.loc (thr d L) ↦{fullShare} V) ∗ ⌜Pa k acc⌝)

omit [FloatOps F] in
/-- A buffer at contents of which `P` holds is a buffer at some contents of which `P` holds. -/
theorem pts_pack {ℓ : Loc nD τ sig} (q : PosShare TreeShare) (P : Buf (Elt F) ℓ → Prop) (f : Buf (Elt F) ℓ) (hf : P f) :
    (ℓ ↦{q} f : sProp 𝕄) ⊢ iprop(∃ g, (ℓ ↦{q} g) ∗ ⌜P g⌝) := by
  iintro H; iexists f; isplitl [H]; · iexact H
  ipureintro; exact hf

set_option maxHeartbeats 8000000 in
theorem tile_body (hF : (K (F := F)).Facts) (d : Dev nD) (L : grid0.Coords)
    (hru : Cert.DotSpec.InRange (m (uLoc d))) (hri : Cert.DotSpec.InRange (m (iLoc d)))
    (O : CellTallies nD τ sig (HIx 1)) (W : Waits sig (HIx 1)) (hO : ∀ g, O g none = 0) :
    iprop(levAts (K (F := F)).L (K (F := F)).lev ∗ emp ∗ tilePre m d L
        ∗ scopedBufs (thr d L) ∗ scopedSems0 (thr d L) ∗ owes (thr d L) O W)
      ⊢ wp frame (wpE (defs₀ (F := F)) 𝒱₀ (thr d L) none) Set.univ
          (cc0__body L uW (Memref.isWhole_whole _) iW (Memref.isWhole_whole _) cW (Memref.isWhole_whole _) oW (Memref.isWhole_whole _)
            b0 (Memref.isWhole_whole _) b1 (Memref.isWhole_whole _) b2 (Memref.isWhole_whole _) b3 (Memref.isWhole_whole _) b4 (Memref.isWhole_whole _)
            cc0_scratch5 cc0_scratch6 cc0_scoped0 cc0_scoped1 cc0_scoped2 cc0_scoped3 cc0_scoped4 cc0_scoped5 cc0_scoped6 cc0_scoped7 cc0_scoped8)
          fun _ => iprop(tilePost m d L ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tilePre
  iintro ⟨#Hlv, -, ⟨Hu, Hi, Hc, Ho⟩, ⟨⟨%f0, H0⟩, ⟨%f1, H1⟩, ⟨%f2, H2⟩, ⟨%f3, H3⟩, ⟨%f4, H4⟩, Hbufs⟩, ⟨Hs0, Hs1, Hs2, Hs3, Hs4, Hs5, Hs6, Hs7, Hs8, Hs9, Hs10, Hsems⟩, HO⟩
  ihave Hmw := (show levAts (K (F := F)).L (K (F := F)).lev ⊢ Transfers.MayWaits (thr d L) (default : HIx 1) O from
    (K (F := F)).mayWaits_none (thr := thr d L) hO) $$ Hlv
  ihave Hu := (Entails.of_eq (pts_uW (F := F) d L _ _).symm) $$ Hu
  ihave Hi := (Entails.of_eq (pts_iW (F := F) d L _ _).symm) $$ Hi
  ihave Hc := (Entails.of_eq (pts_cW (F := F) d L _ _).symm) $$ Hc
  ihave Ho := (Entails.of_eq (pts_oSl (F := F) d L _).symm) $$ Ho
  ihave H0 := (Entails.of_eq (pts_b0 (F := F) d L _).symm) $$ H0
  ihave H1 := (Entails.of_eq (pts_b1 (F := F) d L _).symm) $$ H1
  ihave H2 := (Entails.of_eq (pts_b2 (F := F) d L _).symm) $$ H2
  ihave H3 := (Entails.of_eq (pts_b3 (F := F) d L _).symm) $$ H3
  ihave H4 := (Entails.of_eq (pts_b4 (F := F) d L _).symm) $$ H4
  have hinU := hin_u (F := F) d (m (uLoc d)) hru
  have hinI := hin_i (F := F) d (m (iLoc d)) hri
  ihave Hc2 := (pointsTo_share (PosShare.mem_left_op_right (qsh (wL L)))).1 $$ Hc
  icases Hc2 with ⟨Hc, Hc'⟩
  sl_exec
  have hRU0 : RowsU m d L 0 ((b2).view.writes (Elt F) (b2).view.junk [⟨Rect.whole cc0_scratch2.ty.shape, tile_body.sl.gather2 m d L f0 hinU⟩]) :=
    rowsU_ok m d L 0 _ _ _ _ _ (off1_eq L ⟨0, by decide⟩) _ _ _ _ _ _
  ihave H2e := (pts_pack (F := F) (ℓ := (b2).view.loc (thr d L)) fullShare (RowsU m d L 0) _ hRU0) $$ H2
  icases H2e with ⟨%Ua, H2, %hUa⟩
  have hRV0 : RowsV m d L 0 ((b3).view.writes (Elt F) (b3).view.junk [⟨Rect.whole cc0_scratch3.ty.shape, tile_body.sl.gather3 m d L f1 hinI⟩]) :=
    rowsV_ok m d L 0 _ _ _ _ _ (off1_eq L ⟨0, by decide⟩) _ _ _ _ _ _
  ihave H3e := (pts_pack (F := F) (ℓ := (b3).view.loc (thr d L)) fullShare (RowsV m d L 0) _ hRV0) $$ H3
  icases H3e with ⟨%Va, H3, %hVa⟩
  sl_for (invG (F := F) d L Ua Va (Pf m d L 0)) $$ [H2 H3 H4]
  case region =>
    intro k acc
    have hg : k.val < 8 := lt_of_lt_of_le k.isLt k0_t1_abs.2.1
    unfold invG
    iintro ⟨H2, H3, ⟨%f, H4, %hf⟩⟩
    sl_exec
    sl_for (invD (F := F) d L Ua Va (Pa d L Ua Va k.val)) $$ [H2 H3]
    case region =>
      intro k2 acc2
      have ht : k2.val < 8 := lt_of_lt_of_le k2.isLt k0_t2_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Ua Va _ _ hg ht acc2 ha
    · unfold invD
      isplitl [H2]; · iexact H2
      isplitl [H3]; · iexact H3
      ipureintro; exact Pa_init d L Ua Va _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 0 _ (by norm_num) hg Ua Va hUa hVa f accF _ trips8 haF hf _ _ (by rw [k0_off2_eq]; show 16 * k.val = _; omega)
  · unfold invG
    isplitl [H2]; · iexact H2
    isplitl [H3]; · iexact H3
    iexists _; isplitl [H4]; · iexact H4
    ipureintro; exact Pf_zero m d L _
  iintro %_ HI
  unfold invG
  icases HI with ⟨H2, H3, ⟨%f4a, H4, %hf4a⟩⟩
  sl_exec
  have hRU1 : RowsU m d L 1 ((b2).view.writes (Elt F) (b2).view.junk [⟨Rect.whole cc0_scratch2.ty.shape, tile_body.sl.gather2_1 m d L f0 hinU⟩]) :=
    rowsU_ok m d L 1 _ _ _ _ _ (off1_eq L ⟨1, by decide⟩) _ _ _ _ _ _
  ihave H2e := (pts_pack (F := F) (ℓ := (b2).view.loc (thr d L)) fullShare (RowsU m d L 1) _ hRU1) $$ H2
  icases H2e with ⟨%Ub, H2, %hUb⟩
  have hRV1 : RowsV m d L 1 ((b3).view.writes (Elt F) (b3).view.junk [⟨Rect.whole cc0_scratch3.ty.shape, tile_body.sl.gather3_1 m d L f1 hinI⟩]) :=
    rowsV_ok m d L 1 _ _ _ _ _ (off1_eq L ⟨1, by decide⟩) _ _ _ _ _ _
  ihave H3e := (pts_pack (F := F) (ℓ := (b3).view.loc (thr d L)) fullShare (RowsV m d L 1) _ hRV1) $$ H3
  icases H3e with ⟨%Vb, H3, %hVb⟩
  sl_for (invG (F := F) d L Ub Vb (Pf m d L 1)) $$ [H2 H3 H4]
  case region =>
    intro k acc
    have hg : k.val < 8 := lt_of_lt_of_le k.isLt k0_t3_abs.2.1
    unfold invG
    iintro ⟨H2, H3, ⟨%f, H4, %hf⟩⟩
    sl_exec
    sl_for (invD (F := F) d L Ub Vb (Pa d L Ub Vb k.val)) $$ [H2 H3]
    case region =>
      intro k2 acc2
      have ht : k2.val < 8 := lt_of_lt_of_le k2.isLt k0_t4_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Ub Vb _ _ hg ht acc2 ha
    · unfold invD
      isplitl [H2]; · iexact H2
      isplitl [H3]; · iexact H3
      ipureintro; exact Pa_init d L Ub Vb _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 1 _ (by norm_num) hg Ub Vb hUb hVb f accF _ trips8 haF hf _ _ (by rw [k0_off3_eq]; show 16 * k.val + 128 = _; omega)
  · unfold invG
    isplitl [H2]; · iexact H2
    isplitl [H3]; · iexact H3
    iexists _; isplitl [H4]; · iexact H4
    ipureintro; exact Pf_next m d L 0 _ trips8 _ hf4a
  iintro %_ HI
  unfold invG
  icases HI with ⟨H2, H3, ⟨%f4b, H4, %hf4b⟩⟩
  sl_exec
  have hRU2 : RowsU m d L 2 ((b2).view.writes (Elt F) (b2).view.junk [⟨Rect.whole cc0_scratch2.ty.shape, tile_body.sl.gather2_2 m d L f0 hinU⟩]) :=
    rowsU_ok m d L 2 _ _ _ _ _ (off1_eq L ⟨2, by decide⟩) _ _ _ _ _ _
  ihave H2e := (pts_pack (F := F) (ℓ := (b2).view.loc (thr d L)) fullShare (RowsU m d L 2) _ hRU2) $$ H2
  icases H2e with ⟨%Uc, H2, %hUc⟩
  have hRV2 : RowsV m d L 2 ((b3).view.writes (Elt F) (b3).view.junk [⟨Rect.whole cc0_scratch3.ty.shape, tile_body.sl.gather3_2 m d L f1 hinI⟩]) :=
    rowsV_ok m d L 2 _ _ _ _ _ (off1_eq L ⟨2, by decide⟩) _ _ _ _ _ _
  ihave H3e := (pts_pack (F := F) (ℓ := (b3).view.loc (thr d L)) fullShare (RowsV m d L 2) _ hRV2) $$ H3
  icases H3e with ⟨%Vc, H3, %hVc⟩
  sl_for (invG (F := F) d L Uc Vc (Pf m d L 2)) $$ [H2 H3 H4]
  case region =>
    intro k acc
    have hg : k.val < 8 := lt_of_lt_of_le k.isLt k0_t5_abs.2.1
    unfold invG
    iintro ⟨H2, H3, ⟨%f, H4, %hf⟩⟩
    sl_exec
    sl_for (invD (F := F) d L Uc Vc (Pa d L Uc Vc k.val)) $$ [H2 H3]
    case region =>
      intro k2 acc2
      have ht : k2.val < 8 := lt_of_lt_of_le k2.isLt k0_t6_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Uc Vc _ _ hg ht acc2 ha
    · unfold invD
      isplitl [H2]; · iexact H2
      isplitl [H3]; · iexact H3
      ipureintro; exact Pa_init d L Uc Vc _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 2 _ (by norm_num) hg Uc Vc hUc hVc f accF _ trips8 haF hf _ _ (by rw [k0_off4_eq]; show 16 * k.val + 256 = _; omega)
  · unfold invG
    isplitl [H2]; · iexact H2
    isplitl [H3]; · iexact H3
    iexists _; isplitl [H4]; · iexact H4
    ipureintro; exact Pf_next m d L 1 _ trips8 _ hf4b
  iintro %_ HI
  unfold invG
  icases HI with ⟨H2, H3, ⟨%f4c, H4, %hf4c⟩⟩
  sl_exec
  have hRU3 : RowsU m d L 3 ((b2).view.writes (Elt F) (b2).view.junk [⟨Rect.whole cc0_scratch2.ty.shape, tile_body.sl.gather2_3 m d L f0 hinU⟩]) :=
    rowsU_ok m d L 3 _ _ _ _ _ (off1_eq L ⟨3, by decide⟩) _ _ _ _ _ _
  ihave H2e := (pts_pack (F := F) (ℓ := (b2).view.loc (thr d L)) fullShare (RowsU m d L 3) _ hRU3) $$ H2
  icases H2e with ⟨%Ud, H2, %hUd⟩
  have hRV3 : RowsV m d L 3 ((b3).view.writes (Elt F) (b3).view.junk [⟨Rect.whole cc0_scratch3.ty.shape, tile_body.sl.gather3_3 m d L f1 hinI⟩]) :=
    rowsV_ok m d L 3 _ _ _ _ _ (off1_eq L ⟨3, by decide⟩) _ _ _ _ _ _
  ihave H3e := (pts_pack (F := F) (ℓ := (b3).view.loc (thr d L)) fullShare (RowsV m d L 3) _ hRV3) $$ H3
  icases H3e with ⟨%Vd, H3, %hVd⟩
  sl_for (invG (F := F) d L Ud Vd (Pf m d L 3)) $$ [H2 H3 H4]
  case region =>
    intro k acc
    have hg : k.val < 8 := lt_of_lt_of_le k.isLt k0_t7_abs.2.1
    unfold invG
    iintro ⟨H2, H3, ⟨%f, H4, %hf⟩⟩
    sl_exec
    sl_for (invD (F := F) d L Ud Vd (Pa d L Ud Vd k.val)) $$ [H2 H3]
    case region =>
      intro k2 acc2
      have ht : k2.val < 8 := lt_of_lt_of_le k2.isLt k0_t8_abs.2.1
      unfold invD
      iintro ⟨H2, H3, %ha⟩
      sl_exec (disch := chk_disch hg ht)
      unfold SparseCore.vectorLoadIdx
      sl_exec (disch := chk_disch hg ht)
      unfold SparseCore.vectorLoadIdx
      sl_exec (disch := chk_disch hg ht)
      sl_step
      isplitl [H2]; · iexact H2
      isplitl [H3]; · iexact H3
      ipureintro; exact trip_step d L Ud Vd _ _ hg ht acc2 ha
    · unfold invD
      isplitl [H2]; · iexact H2
      isplitl [H3]; · iexact H3
      ipureintro; exact Pa_init d L Ud Vd _
    iintro %accF HI
    unfold invD
    icases HI with ⟨H2, H3, %haF⟩
    sl_exec
    sl_step
    isplitl [H2]; · iexact H2
    isplitl [H3]; · iexact H3
    iexists _; isplitl [H4]; · iexact H4
    ipureintro; exact group_step m d L 3 _ (by norm_num) hg Ud Vd hUd hVd f accF _ trips8 haF hf _ _ (by rw [k0_off5_eq]; show 16 * k.val + 384 = _; omega)
  · unfold invG
    isplitl [H2]; · iexact H2
    isplitl [H3]; · iexact H3
    iexists _; isplitl [H4]; · iexact H4
    ipureintro; exact Pf_next m d L 2 _ trips8 _ hf4c
  iintro %_ HI
  unfold invG
  icases HI with ⟨H2, H3, ⟨%f4d, H4, %hf4d⟩⟩
  sl_exec
  sl_step
  -- what the tile hands back
  isplitl [Hu Hi Hc Hc' Ho]
  · unfold tilePost
    isplitl [Hu]; · iapply (Entails.of_eq (pts_uW (F := F) d L _ _)); iexact Hu
    isplitl [Hi]; · iapply (Entails.of_eq (pts_iW (F := F) d L _ _)); iexact Hi
    isplitl [Hc Hc']
    · ihave Hc := (pointsTo_share (PosShare.mem_left_op_right (qsh (wL L)))).2 $$ [Hc Hc']
      · isplitl [Hc] <;> iassumption
      iapply (Entails.of_eq (pts_cW (F := F) d L _ _)); iexact Hc
    iapply (Entails.of_eq ((pointsTo_congr (q := fullShare) (out_ok m d L f4d (Pf_done m d L _ trips8 _ hf4d) _)).trans (pts_oSl (F := F) d L _))); iexact Ho
  isplitl [H0 H1 H2 H3 H4 Hbufs]
  · isplitl [H0]; · iexists _; iapply (Entails.of_eq (pts_b0 (F := F) d L _)); iexact H0
    isplitl [H1]; · iexists _; iapply (Entails.of_eq (pts_b1 (F := F) d L _)); iexact H1
    isplitl [H2]; · iexists _; iapply (Entails.of_eq (pts_b2 (F := F) d L _)); iexact H2
    isplitl [H3]; · iexists _; iapply (Entails.of_eq (pts_b3 (F := F) d L _)); iexact H3
    isplitl [H4]; · iexists _; iapply (Entails.of_eq (pts_b4 (F := F) d L _)); iexact H4
    iexact Hbufs
  isplitl [Hs0 Hs1 Hs2 Hs3 Hs4 Hs5 Hs6 Hs7 Hs8 Hs9 Hs10 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hsems
  iexists _; isplitr
  swap; · iexact HO
  ipureintro; intro p hp
  repeat (rcases Finset.mem_insert.mp hp with hp | hp; · exact .inr (hp ▸ rfl))
  exact .inl hp

end Cert.Proof.KB

end
-- ==== Proof.KBLaunchPay.lean ====
/-
  What the call's handshakes carry. The TensorCore hands each SparseCore the separating conjunction of what its sixteen
  tiles are handed (read shares of the two index arrays and of the concatenated table, and the tile's own 512 entries of
  the result array), and gets back the conjunction of what they hand back (the same, the entries now the scores); so a
  SparseCore's split of its operands among its tiles is the identity. A tile's task, at the place the launch names it,
  is the body's obligation at that grid point. The ghost state beside the handshakes' is the local transfers' counters,
  which the launch drops: the tiles' transfers are local and need no schedule.
-/
import proofs.«203366_g62191126446181_cont_9to1c4b_889_14_alg».proof.Proof.KBBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

variable (m : (ℓ : Loc nD τ sig) → Buf (Elt F) ℓ)

theorem nCore_b : (K (F := F)).nCore 0 = grid0.bound 0 := rfl
theorem nSub_b : (K (F := F)).nSub 0 = grid0.bound 1 := rfl

/-- The grid point of tile `i` of SparseCore `c` of the call. -/
abbrev Lcs (F : FTy → Type) (c : Fin ((K (F := F)).nCore 0)) (i : Fin ((K (F := F)).nSub 0)) : grid0.Coords :=
  coordsV (Fin.cast (nCore_b (F := F)) c) (Fin.cast (nSub_b (F := F)) i)

variable [FloatOps F]

/-! ## What the handshakes carry -/

/-- Each SparseCore takes and brings back its sixteen tiles' resources; each tile its own. -/
def P : (K (F := F)).Pay (nD := nD) (Val := Elt F) (Name := ℕ) (U := UU) where
  st := fun q d c => match q, c with
    | 0, c => bigSep Finset.univ fun i : Fin ((K (F := F)).nSub 0) => tilePre m d (Lcs F c i)
  dn := fun q d c => match q, c with
    | 0, c => bigSep Finset.univ fun i : Fin ((K (F := F)).nSub 0) => tilePost m d (Lcs F c i)
  go := fun q d c i => match q, c, i with
    | 0, c, i => tilePre m d (Lcs F c i)
  td := fun q d c i => match q, c, i with
    | 0, c, i => tilePost m d (Lcs F c i)
  x := fun _ _ => iprop(emp)

instance P_storable : (P (F := F) m).IsStorable where
  st q d c := match q, c with
    | 0, c => (inferInstance : BI.Storable (upEmb : UEmb _ 𝕄) (bigSep Finset.univ fun i : Fin ((K (F := F)).nSub 0) => tilePre m d (Lcs F c i)))
  dn q d c := match q, c with
    | 0, c => (inferInstance : BI.Storable (upEmb : UEmb _ 𝕄) (bigSep Finset.univ fun i : Fin ((K (F := F)).nSub 0) => tilePost m d (Lcs F c i)))
  go q d c i := match q, c, i with
    | 0, c, i => (inferInstance : BI.Storable (upEmb : UEmb _ 𝕄) (tilePre m d (Lcs F c i)))
  td q d c i := match q, c, i with
    | 0, c, i => (inferInstance : BI.Storable (upEmb : UEmb _ 𝕄) (tilePost m d (Lcs F c i)))

theorem P_st (d : Dev nD) (c : Fin ((K (F := F)).nCore 0)) :
    (P m).st 0 d c = bigSep Finset.univ fun i : Fin ((K (F := F)).nSub 0) => tilePre m d (Lcs F c i) := rfl
theorem P_dn (d : Dev nD) (c : Fin ((K (F := F)).nCore 0)) :
    (P m).dn 0 d c = bigSep Finset.univ fun i : Fin ((K (F := F)).nSub 0) => tilePost m d (Lcs F c i) := rfl
theorem P_go (d : Dev nD) (c : Fin ((K (F := F)).nCore 0)) (i : Fin ((K (F := F)).nSub 0)) : (P m).go 0 d c i = tilePre m d (Lcs F c i) := rfl
theorem P_td (d : Dev nD) (c : Fin ((K (F := F)).nCore 0)) (i : Fin ((K (F := F)).nSub 0)) : (P m).td 0 d c i = tilePost m d (Lcs F c i) := rfl

/-! ## The obligation -/

theorem defs₀_vector (c : Fin τ.nSC) (s : Fin τ.nSub) :
    defs₀ (F := F) (.scVector c s) 0 ()
      = SparseCore.onTile hcore0 hsub0 (fun c s => cc0__body (coordsV c s)
          uW (Memref.isWhole_whole _) iW (Memref.isWhole_whole _) cW (Memref.isWhole_whole _) oW (Memref.isWhole_whole _)
          b0 (Memref.isWhole_whole _) b1 (Memref.isWhole_whole _) b2 (Memref.isWhole_whole _) b3 (Memref.isWhole_whole _) b4 (Memref.isWhole_whole _)
          cc0_scratch5 cc0_scratch6 cc0_scoped0 cc0_scoped1 cc0_scoped2 cc0_scoped3 cc0_scoped4 cc0_scoped5 cc0_scoped6 cc0_scoped7 cc0_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts)
    (hru : ∀ d : Dev nD, Cert.DotSpec.InRange (m (uLoc d))) (hri : ∀ d : Dev nD, Cert.DotSpec.InRange (m (iLoc d))) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF d (coordsV ⟨_, hci.1⟩ ⟨_, hci.2⟩) (hru d) (hri d) O W hO).trans (wp_mono frame _ _ fun _ => obl_post)

/-! ## A SparseCore's split among its tiles: the identity -/

theorem vecSplit : (K (F := F)).VecSplit' (P m) 0 := by
  intro d c
  rw [P_st, P_dn]
  simp only [P_go, P_td]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.KB

end
-- ==== Proof.KBLaunchMain.lean ====
/-
  @main on the TensorCore. It holds six whole arrays: the two index arrays, the two tables, the concatenated table and
  the result array. The host concatenation writes [user_table | item_table] into the concatenated table and changes
  nothing else. Before the call, the full points-tos of the index arrays and of the concatenated table are split into the
  32 tiles' read shares, and that of the result array into the 32 tiles' intervals; regrouped tile by tile this is
  exactly what the two SparseCores take. After the call the same equations, read backwards with the scores in place of
  the result array's launch contents, give back the full points-tos. At the end the memory agrees with every full
  points-to held: the four arguments are unchanged and the result array holds the scores.
-/
import proofs.«203366_g62191126446181_cont_9to1c4b_889_14_alg».proof.Proof.KBLaunchOut
import proofs.«203366_g62191126446181_cont_9to1c4b_889_14_alg».proof.Proof.KBLaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

open Idealize.ShloMosaic.StableHlo (held held_split held_sdiff_result wp_hlo_within)

variable (m : (ℓ : Loc nD τ sig) → Buf (Elt F) ℓ) (ρ : Dev nD → PrngReg)

/-! ## Re-indexing the call's SparseCores and tiles by literal numbers -/

theorem bigSep_cores (Φ : Fin 2 → sProp 𝕄) :
    (bigSep Finset.univ fun c : Fin ((K (F := F)).nCore 0) => Φ (Fin.cast (nCore_b (F := F)) c)) = bigSep Finset.univ Φ :=
  bigSep_congr fun _ _ => congrArg Φ (Fin.ext rfl)
theorem bigSep_subs (Φ : Fin 16 → sProp 𝕄) :
    (bigSep Finset.univ fun i : Fin ((K (F := F)).nSub 0) => Φ (Fin.cast (nSub_b (F := F)) i)) = bigSep Finset.univ Φ :=
  bigSep_congr fun _ _ => congrArg Φ (Fin.ext rfl)

/-- A conjunction over the tiles of four-part assertions is the four conjunctions. -/
theorem bigSep2_sep4 (A B C E : Fin 2 → Fin 16 → sProp 𝕄) :
    (bigSep Finset.univ fun c : Fin 2 => bigSep Finset.univ fun s : Fin 16 => iprop(A c s ∗ B c s ∗ C c s ∗ E c s))
      = iprop((bigSep Finset.univ fun c : Fin 2 => bigSep Finset.univ fun s : Fin 16 => A c s)
          ∗ (bigSep Finset.univ fun c : Fin 2 => bigSep Finset.univ fun s : Fin 16 => B c s)
          ∗ (bigSep Finset.univ fun c : Fin 2 => bigSep Finset.univ fun s : Fin 16 => C c s)
          ∗ (bigSep Finset.univ fun c : Fin 2 => bigSep Finset.univ fun s : Fin 16 => E c s)) := by
  simp only [bigSep_sep']

variable [FloatOps F]

/-- What the call takes, over the literal index types. -/
theorem st0_tiles (d : Dev nD) :
    (bigSep Finset.univ fun c : Fin ((K (F := F)).nCore 0) => (P m).st 0 d c)
      = bigSep Finset.univ fun c : Fin 2 => bigSep Finset.univ fun s : Fin 16 => tilePre m d (coordsV c s) :=
  (bigSep_cores (F := F) (fun c => bigSep Finset.univ fun i : Fin ((K (F := F)).nSub 0) => tilePre m d (coordsV c (Fin.cast (nSub_b (F := F)) i)))).trans
    (bigSep_congr fun c _ => bigSep_subs (F := F) (fun s => tilePre m d (coordsV c s)))
/-- What it hands back. -/
theorem dn0_tiles (d : Dev nD) :
    (bigSep Finset.univ fun c : Fin ((K (F := F)).nCore 0) => (P m).dn 0 d c)
      = bigSep Finset.univ fun c : Fin 2 => bigSep Finset.univ fun s : Fin 16 => tilePost m d (coordsV c s) :=
  (bigSep_cores (F := F) (fun c => bigSep Finset.univ fun i : Fin ((K (F := F)).nSub 0) => tilePost m d (coordsV c (Fin.cast (nSub_b (F := F)) i)))).trans
    (bigSep_congr fun c _ => bigSep_subs (F := F) (fun s => tilePost m d (coordsV c s)))

/-- The 32 tiles' resources before the call are the four whole arrays; -/
theorem tiles_pre_eq (d : Dev nD) :
    (bigSep Finset.univ fun c : Fin 2 => bigSep Finset.univ fun s : Fin 16 => tilePre m d (coordsV c s))
      = iprop((uLoc d ↦{fullShare} m (uLoc d)) ∗ (iLoc d ↦{fullShare} m (iLoc d)) ∗ (cLoc d ↦{fullShare} CAT m d)
          ∗ (oLoc d ↦{fullShare} m (oLoc d))) := by
  rw [pts_tiles (ℓ := uLoc d) (m (uLoc d)), pts_tiles (ℓ := iLoc d) (m (iLoc d)), pts_tiles (ℓ := cLoc d) (CAT m d), oPts_tiles d (m (oLoc d))]
  unfold tilePre
  exact bigSep2_sep4 _ _ _ _
/-- and after it, the result array at the scores. -/
theorem tiles_post_eq (d : Dev nD) :
    (bigSep Finset.univ fun c : Fin 2 => bigSep Finset.univ fun s : Fin 16 => tilePost m d (coordsV c s))
      = iprop((uLoc d ↦{fullShare} m (uLoc d)) ∗ (iLoc d ↦{fullShare} m (iLoc d)) ∗ (cLoc d ↦{fullShare} CAT m d)
          ∗ (oLoc d ↦{fullShare} OUTm m d)) := by
  rw [pts_tiles (ℓ := uLoc d) (m (uLoc d)), pts_tiles (ℓ := iLoc d) (m (iLoc d)), pts_tiles (ℓ := cLoc d) (CAT m d), oPts_tiles d (OUTm m d)]
  unfold tilePost
  exact bigSep2_sep4 _ _ _ _

/-! ## The TensorCore's arrays and the host concatenation -/

abbrev u' : DevRef τ sig := Proc.devRef .tc (main_arg0 : Ref sig .tc)
abbrev i' : DevRef τ sig := Proc.devRef .tc (main_arg1 : Ref sig .tc)
abbrev ut' : DevRef τ sig := Proc.devRef .tc (main_arg2 : Ref sig .tc)
abbrev it' : DevRef τ sig := Proc.devRef .tc (main_arg3 : Ref sig .tc)
abbrev c' : DevRef τ sig := Proc.devRef .tc (main_v0 : Ref sig .tc)
abbrev o' : DevRef τ sig := Proc.devRef .tc (main_v1 : Ref sig .tc)

/-- The concatenation of the two tables along the columns, as @main states it. -/
abbrev opCat : HloOp τ sig (Elt F) :=
  StableHlo.binary main_arg2 main_arg3 main_v0
    ((fun a b => concatenate S1000000x128 1 [⟨S1000000x64, a⟩, ⟨S1000000x64, b⟩] concatenates_S1000000x64_S1000000x64_S1000000x128_d1) :
      (⟨S1000000x64, .f32⟩ : BufTy).Contents (Elt F) → (⟨S1000000x64, .f32⟩ : BufTy).Contents (Elt F) → (⟨S1000000x128, .f32⟩ : BufTy).Contents (Elt F))

/-- The TensorCore's arrays, all unscoped. -/
abbrev S6 : Finset (DevRef τ sig) := {u', i', ut', it', c', o'}

omit [FloatOps F] in
theorem held_S6 (d : Dev nD) (W : Valuation τ sig (Elt F)) :
    (held (T d) S6 W : sProp 𝕄) = iprop((uLoc d ↦{fullShare} W u') ∗ (iLoc d ↦{fullShare} W i') ∗ (utLoc d ↦{fullShare} W ut')
      ∗ (itLoc d ↦{fullShare} W it') ∗ (cLoc d ↦{fullShare} W c') ∗ (oLoc d ↦{fullShare} W o')) := by
  unfold held S6
  rw [SparseCore.bigSep_insert' (by decide), SparseCore.bigSep_insert' (by decide), SparseCore.bigSep_insert' (by decide),
    SparseCore.bigSep_insert' (by decide), SparseCore.bigSep_insert' (by decide), bigSep_singleton]

set_option maxRecDepth 16384 in
omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (iLoc d ↦{fullShare} W main_arg1) ∗ (utLoc d ↦{fullShare} W main_arg2)
      ∗ (itLoc d ↦{fullShare} W main_arg3) ∗ (cLoc d ↦{fullShare} W main_v0) ∗ (oLoc d ↦{fullShare} W main_v1)) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S6 (V0 m d) := by
  rw [unscopedBufs_eq, held_S6]; rfl

theorem hCat : (opCat (F := F)).bufs ⊆ S6 := show ({ut', it', c'} : Finset (DevRef τ sig)) ⊆ S6 by decide

/-- After the concatenation: the concatenated table holds [user_table | item_table], the other five arrays what they held. -/
theorem res_c (d : Dev nD) : (opCat (F := F)).result (V0 m d) c' = CAT m d :=
  StableHlo.binary_result main_arg2 main_arg3 main_v0 _ _ _ _ (V0 m d)
theorem res_u (d : Dev nD) : (opCat (F := F)).result (V0 m d) u' = m (uLoc d) :=
  (opCat (F := F)).result_of_not_mem (V0 m d) (b := u') (show u' ∉ ({c'} : Finset (DevRef τ sig)) by decide)
theorem res_i (d : Dev nD) : (opCat (F := F)).result (V0 m d) i' = m (iLoc d) :=
  (opCat (F := F)).result_of_not_mem (V0 m d) (b := i') (show i' ∉ ({c'} : Finset (DevRef τ sig)) by decide)
theorem res_ut (d : Dev nD) : (opCat (F := F)).result (V0 m d) ut' = m (utLoc d) :=
  (opCat (F := F)).result_of_not_mem (V0 m d) (b := ut') (show ut' ∉ ({c'} : Finset (DevRef τ sig)) by decide)
theorem res_it (d : Dev nD) : (opCat (F := F)).result (V0 m d) it' = m (itLoc d) :=
  (opCat (F := F)).result_of_not_mem (V0 m d) (b := it') (show it' ∉ ({c'} : Finset (DevRef τ sig)) by decide)
theorem res_o (d : Dev nD) : (opCat (F := F)).result (V0 m d) o' = m (oLoc d) :=
  (opCat (F := F)).result_of_not_mem (V0 m d) (b := o') (show o' ∉ ({c'} : Finset (DevRef τ sig)) by decide)

theorem held_after (d : Dev nD) :
    (held (T d) S6 ((opCat (F := F)).result (V0 m d)) : sProp 𝕄)
      = iprop((uLoc d ↦{fullShare} m (uLoc d)) ∗ (iLoc d ↦{fullShare} m (iLoc d)) ∗ (utLoc d ↦{fullShare} m (utLoc d))
        ∗ (itLoc d ↦{fullShare} m (itLoc d)) ∗ (cLoc d ↦{fullShare} CAT m d) ∗ (oLoc d ↦{fullShare} m (oLoc d))) := by
  rw [held_S6, res_u, res_i, res_ut, res_it, res_c, res_o]

/-! ## @main -/

/-- What @main leaves the claim: the four arguments at their launch contents and the result array at the scores. -/
abbrev FIN (d : Dev nD) : sProp 𝕄 :=
  iprop((uLoc d ↦{fullShare} m (uLoc d)) ∗ (iLoc d ↦{fullShare} m (iLoc d)) ∗ (utLoc d ↦{fullShare} m (utLoc d))
    ∗ (itLoc d ↦{fullShare} m (itLoc d)) ∗ (oLoc d ↦{fullShare} OUTm m d))

/-- @main on device `d`'s TensorCore: the concatenation, then the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the concatenation
  iapply (wp_hlo_within 𝒱 (SparseCore.T d) none Set.univ (op := opCat) (S := S6) hCat (V := V0 m d)) $$ [Hb Hheld]
  · isplitl [Hb]; · iexact Hb
    iexact Hheld
  iintro ⟨Hb, Hheld⟩
  ihave Hh := (Entails.of_eq (held_after (F := F) m d)) $$ Hheld
  icases Hh with ⟨Hu, Hi, Hut, Hit, Hc, Ho⟩
  rw [wp_ret]; imodintro
  -- the call: every tile's shares and entries to the two SparseCores, and back
  iapply ((K (F := F)).wp_run (D (F := F)) 𝒱 (EH := EH) (P := P m) κ d 0) $$ [Hst Hu Hi Hut Hit Hc Ho]
  isplitr; · iexact Hctx
  isplitl [Hst]; · iexact Hst
  isplitl [Hu Hi Hc Ho]
  · rw [st0_tiles, tiles_pre_eq]
    isplitl [Hu]; · iexact Hu
    isplitl [Hi]; · iexact Hi
    isplitl [Hc]; · iexact Hc
    iexact Ho
  iintro ⟨Hst, Hdn⟩
  ihave Hdn' := (Entails.of_eq ((dn0_tiles m d).trans (tiles_post_eq m d))) $$ Hdn
  icases Hdn' with ⟨Hu, Hi, -, Ho⟩
  imodintro
  isplitl [Hst]; · iexact Hst
  isplitl [Hu]; · iexact Hu
  isplitl [Hi]; · iexact Hi
  isplitl [Hut]; · iexact Hut
  isplitl [Hit]; · iexact Hit
  iexact Ho

/-! ## The final memory -/

def fq (d : Dev nD) (s' : Phys nD τ sig (Elt F)) : Prop :=
  s'.mem.mem (oLoc d) = OUTm m d ∧ s'.mem.mem (uLoc d) = m (uLoc d) ∧ s'.mem.mem (iLoc d) = m (iLoc d)
    ∧ s'.mem.mem (utLoc d) = m (utLoc d) ∧ s'.mem.mem (itLoc d) = m (itLoc d)

set_option maxRecDepth 16384 in
theorem hfin (d : Dev nD) (s' : Phys nD τ sig (Elt F)) : iprop(FIN m d ∗ SI s') ⊢ (⌜fq m d s'⌝ : sProp 𝕄) := by
  iintro ⟨⟨Hu, Hi, Hut, Hit, Ho⟩, HSI⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := utLoc d) (I := Finset.univ) (q := fullShare) (f := m (utLoc d)))) $$ [HSI Hut]
  · isplitl [HSI] <;> iassumption
  icases H with ⟨%h3, HSI, -⟩
  ihave H := (persistent_entails_right (SI_pointsTo_agree (st := s') (ℓ := itLoc d) (I := Finset.univ) (q := fullShare) (f := m (itLoc d)))) $$ [HSI Hit]
  · isplitl [HSI] <;> iassumption
  icases H with ⟨%h4, HSI, -⟩
  ihave H := (SI_pointsTo_agree (st := s') (ℓ := oLoc d) (I := Finset.univ) (q := fullShare) (f := OUTm m d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

end Cert.Proof.KB

end
-- ==== Proof.KBLaunchRun.lean ====
/-
  The run of the 35 threads of the kernel as printed, for any float instance: from each tile's obligation, the identity split
  of a SparseCore's operands among its tiles, @main on the TensorCore, and the agreement of the final memory with the
  full points-tos @main ends with.
-/
import proofs.«203366_g62191126446181_cont_9to1c4b_889_14_alg».proof.Proof.KBLaunchMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_arg0_scv : Memref Cert.Kernel.sig Kind.scVector Space.hbm Cert.Kernel.S16384 EltTy.i32)
local notation "iW" => (Memref.whole Cert.Kernel.main_arg1_scv : Memref Cert.Kernel.sig Kind.scVector Space.hbm Cert.Kernel.S16384 EltTy.i32)
local notation "cW" => (Memref.whole Cert.Kernel.main_v0_scv : Memref Cert.Kernel.sig Kind.scVector Space.hbm Cert.Kernel.S1000000x128 EltTy.f32)
local notation "oW" => (Memref.whole Cert.Kernel.main_v1_scv : Memref Cert.Kernel.sig Kind.scVector Space.hbm Cert.Kernel.S16384 EltTy.f32)
local notation "b0" => (Memref.whole Cert.Kernel.cc0_scratch0 : Memref Cert.Kernel.sig Kind.scVector Space.vmem Cert.Kernel.S4x128 EltTy.i32)
local notation "b1" => (Memref.whole Cert.Kernel.cc0_scratch1 : Memref Cert.Kernel.sig Kind.scVector Space.vmem Cert.Kernel.S4x128 EltTy.i32)
local notation "b2" => (Memref.whole Cert.Kernel.cc0_scratch2 : Memref Cert.Kernel.sig Kind.scVector Space.vmem Cert.Kernel.S128x128 EltTy.f32)
local notation "b3" => (Memref.whole Cert.Kernel.cc0_scratch3 : Memref Cert.Kernel.sig Kind.scVector Space.vmem Cert.Kernel.S128x128 EltTy.f32)
local notation "b4" => (Memref.whole Cert.Kernel.cc0_scratch4 : Memref Cert.Kernel.sig Kind.scVector Space.vmem Cert.Kernel.S512 EltTy.f32)

variable [FloatOps F]

/-- The run of the kernel as printed, for any float instance: every weakly fair execution of the 35 threads ends, the result array at the scores, the four arguments unchanged. -/
theorem run_main [∀ e, Nonempty (Elt F e)] (m : (ℓ : Loc nD τ sig) → Buf (Elt F) ℓ) (ρ : Dev nD → PrngReg)
    (hru : ∀ d : Dev nD, Cert.DotSpec.InRange (m (uLoc d))) (hri : ∀ d : Dev nD, Cert.DotSpec.InRange (m (iLoc d))) :
    θ_run (Cert.Kernel.defs (F := F)) (Cert.Kernel.threads (F := F)) ⟨m, fun _ => 0, ρ⟩
      (fun r => ∀ c : Dev nD, r.2.mem (oLoc c) = OUTm m c ∧ r.2.mem (uLoc c) = m (uLoc c) ∧ r.2.mem (iLoc c) = m (iLoc c)
        ∧ r.2.mem (utLoc c) = m (utLoc c) ∧ r.2.mem (itLoc c) = m (itLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hru hri)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KB

end
-- ==== Proof.lean ====
/-
  The claim: a kernel that, for each of 16384 (user, item) index pairs, gathers the two rows of 64 numbers the indices
  name from two tables of a million rows and accumulates their inner product, and a reference that looks the rows up,
  multiplies them coordinate by coordinate and sums each row, compute the same array — and both, and the kernel read
  over bit patterns, run to the end without fault leaving their arguments as they were.

  The precondition bounds every index word into [0, 999999] (read signed), so every word names a row. One function of
  the four arguments, the specification G: pair j ↦ Σ_{d<64} user_table[users j, d] · item_table[items j, d], stands
  between the two programs. The kernel side: the host concatenates the tables into rows of 128, each of 32 tiles takes
  512 pairs, gathers their concatenated rows and runs the sum s ← s + row_u[d] · row_i[d + 64] for d = 0 … 63 from
  zero; over the extended reals addition is associative and commutative with no rounding, so the running sum is the
  finite sum, and columns d and d + 64 of the concatenation are the two tables' column d: the result array is G. The
  reference side: under the precondition an index is not negative (nothing is added to it), passes both range tests
  (the gathered row is kept, never replaced by NaNs) and is unchanged by the gather's clamp, so its look-up reads the
  named row, and the row sum from zero over the extended reals is the same finite sum: its result is G too. Nothing
  was rewritten between the kernel and its reading over the extended reals, so that claim is trivially true; the
  three frame claims are the three runs with the result forgotten.
-/
import proofs.«203366_g62191126446181_cont_9to1c4b_889_14_alg».proof.Defs
import proofs.«203366_g62191126446181_cont_9to1c4b_889_14_alg».proof.Proof.Gen.Kernel
import proofs.«203366_g62191126446181_cont_9to1c4b_889_14_alg».proof.Proof.Gen.Kernel.Skeleton
import proofs.«203366_g62191126446181_cont_9to1c4b_889_14_alg».proof.Proof.Gen.KernelIdeal
import proofs.«203366_g62191126446181_cont_9to1c4b_889_14_alg».proof.Proof.Gen.KernelIdeal.Skeleton
import proofs.«203366_g62191126446181_cont_9to1c4b_889_14_alg».proof.Proof.Gen.ReferenceIdeal
import proofs.«203366_g62191126446181_cont_9to1c4b_889_14_alg».proof.Proof.Gen.Pre_input_domain
import proofs.«203366_g62191126446181_cont_9to1c4b_889_14_alg».proof.Proof.Assemble
import proofs.«203366_g62191126446181_cont_9to1c4b_889_14_alg».proof.Proof.KILaunchRun
import proofs.«203366_g62191126446181_cont_9to1c4b_889_14_alg».proof.Proof.KBLaunchRun
import Idealize.ShloMosaic.Adequacy
import Idealize.ShloMosaic.Init

noncomputable section

namespace Cert.Proof

open Idealize.ShloMosaic Idealize.SL.Sem Cert.Kernel

theorem claim : Cert.Claim :=
  Cert.Proof.Assemble.claim_of
    (fun m ρ hu hi => Cert.Proof.KI.run_main m ρ hu hi)
    (fun m ρ hu hi => (θ_run _ _ _).mono (fun _ h c => ⟨(h c).2.1, (h c).2.2.1, (h c).2.2.2.1, (h c).2.2.2.2⟩)
      (Cert.Proof.KB.run_main m ρ hu hi))

end Cert.Proof

end
